-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v12_0)) (v1 : (c : Dev Cert.KernelIdeal.nD) → Buf (Elt Ideal) ((c.tc : Thread Cert.KernelIdeal.nD Cert.KernelIdeal.τ).loc Cert.KernelIdeal.main_v12_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12_0) = v0 c
          ∧ r.2.mem ((c.tc : Thread Cert.KernelIdeal.nD Cert.KernelIdeal.τ).loc Cert.KernelIdeal.main_v12_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_v25) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x1024 : Shape := ⟨3, ![2, 2048, 1024]⟩
abbrev S3072x1024 : Shape := ⟨2, ![3072, 1024]⟩
abbrev S1024x1024 : Shape := ⟨2, ![1024, 1024]⟩
abbrev S1024 : Shape := ⟨1, ![1024]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S3072x1024 : S_.BroadcastsInDim S3072x1024 (![] : Fin 0 → Fin S3072x1024.rank)
  reducesTo_S3072x1024_S_d0_1 : S3072x1024.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  main_v18

def fn {F : FTy → Type} [FloatOps F] (main_arg0 : FVec F S2x2048x1024 .f32) (main_arg1 : FVec F S3072x1024 .f32) (main_arg2 : FVec F S1024x1024 .f32) (main_arg3 : FVec F S1024 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S3072x1024 .f32 := Host.absf main_arg1
  let main_cst_0 : FVec F S_ .f32 := constant S_ .f32 0x7F800000#32
  let main_v5 : FVec F S3072x1024 .f32 := broadcastInDim S3072x1024 ![] bcast_S_S3072x1024 main_cst_0
  let main_v6 : IVec S3072x1024 1 := cmpf .olt main_v4 main_v5
  let main_c_1 : IVec S_ 1 := constantI S_ 1 1#1
  let main_v7 : IVec S_ 1 := (fun x v => Host.reduce IntOp.andi x v reducesTo_S3072x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_v13 main_v16
-- ==== Kernel.lean ====
abbrev S2x2048x1024 : Shape := ⟨3, ![2, 2048, 1024]⟩
abbrev S3072x1024 : Shape := ⟨2, ![3072, 1024]⟩
abbrev S1024x1024 : Shape := ⟨2, ![1024, 1024]⟩
abbrev S1024 : Shape := ⟨1, ![1024]⟩
abbrev S4096x1024 : Shape := ⟨2, ![4096, 1024]⟩
abbrev S1024x3072 : Shape := ⟨2, ![1024, 3072]⟩
abbrev S4096x3072 : Shape := ⟨2, ![4096, 3072]⟩
abbrev S2x2048x3072 : Shape := ⟨3, ![2, 2048, 3072]⟩
abbrev S1x1024 : Shape := ⟨2, ![1, 1024]⟩
abbrev S2x16x2048x2048 : Shape := ⟨4, ![2, 16, 2048, 2048]⟩
abbrev S1x512x128 : Shape := ⟨3, ![1, 512, 128]⟩
abbrev S1x2048x128 : Shape := ⟨3, ![1, 2048, 128]⟩
abbrev S128x1024 : Shape := ⟨2, ![128, 1024]⟩
abbrev S1x512x1024 : Shape := ⟨3, ![1, 512, 1024]⟩
abbrev S1x2x512x2048 : Shape := ⟨4, ![1, 2, 512, 2048]⟩
abbrev S512x1024 : Shape := ⟨2, ![512, 1024]⟩
abbrev S512x128 : Shape := ⟨2, ![512, 128]⟩
abbrev S2048x128 : Shape := ⟨2, ![2048, 128]⟩
abbrev S512x64 : Shape := ⟨2, ![512, 64]⟩
abbrev S2048x64 : Shape := ⟨2, ![2048, 64]⟩
abbrev S512x2048 : Shape := ⟨2, ![512, 2048]⟩
abbrev S512 : Shape := ⟨1, ![512]⟩
abbrev S512x1 : Shape := ⟨2, ![512, 1]⟩
abbrev S1x1x512x2048 : Shape := ⟨4, ![1, 1, 512, 2048]⟩

abbrev nBuf : Space → Nat
  | .hbm => 18
  | .vmem => 19
  | .smem => 0
  | _ => 0

abbrev bufTy : (tb : Table) → Fin (tcTables nBuf tb) → BufTy
  | .hbm, ⟨0, _⟩ => ⟨S2x2048x1024, .f32⟩
  | .hbm, ⟨1, _⟩ => ⟨S3072x1024, .f32⟩
  | .hbm, ⟨2, _⟩ => ⟨S1024x1024, .f32⟩
  | .hbm, ⟨3, _⟩ => ⟨S1024, .f32⟩
  | .hbm, ⟨4, _⟩ => ⟨S2x2048x1024, .bf16⟩
  | .hbm, ⟨5, _⟩ => ⟨S4096x1024, .bf16⟩
  | .hbm, ⟨6, _⟩ => ⟨S1024x3072, .f32⟩
  | .hbm, ⟨7, _⟩ => ⟨S1024x3072, .bf16⟩
  | .hbm, ⟨8, _⟩ => ⟨S4096x3072, .bf16⟩
  | .hbm, ⟨9, _⟩ => ⟨S2x2048x3072, .bf16⟩
  | .hbm, ⟨10, _⟩ => ⟨S2x2048x1024, .bf16⟩
  | .hbm, ⟨11, _⟩ => ⟨S2x2048x1024, .bf16⟩
  | .hbm, ⟨12, _⟩ => ⟨S2x2048x1024, .bf16⟩
  | .hbm, ⟨13, _⟩ => ⟨S1024x1024, .f32⟩
  | .hbm, ⟨14, _⟩ => ⟨S1024x1024, .bf16⟩
  | .hbm, ⟨15, _⟩ => ⟨S1x1024, .f32⟩
  | .hbm, ⟨16, _⟩ => ⟨S2x2048x1024, .f32⟩
  | .hbm, ⟨17, _⟩ => ⟨S2x16x2048x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x3072, .bf16⟩
  | .local _ .vmem, ⟨3, _⟩ => ⟨S1024x3072, .bf16⟩
  | .local _ .vmem, ⟨4, _⟩ => ⟨S1024x3072, .bf16⟩
  | .local _ .vmem, ⟨5, _⟩ => ⟨S1x512x128, .bf16⟩
  | .local _ .vmem, ⟨6, _⟩ => ⟨S1x512x128, .bf16⟩
  | .local _ .vmem, ⟨7, _⟩ => ⟨S1x2048x128, .bf16⟩
  | .local _ .vmem, ⟨8, _⟩ => ⟨S1x2048x128, .bf16⟩
  | .local _ .vmem, ⟨9, _⟩ => ⟨S1x2048x128, .bf16⟩
  | .local _ .vmem, ⟨10, _⟩ => ⟨S1x2048x128, .bf16⟩
  | .local _ .vmem, ⟨11, _⟩ => ⟨S128x1024, .bf16⟩
  | .local _ .vmem, ⟨12, _⟩ => ⟨S128x1024, .bf16⟩
  | .local _ .vmem, ⟨13, _⟩ => ⟨S1x1024, .f32⟩
  | .local _ .vmem, ⟨14, _⟩ => ⟨S1x512x1024, .f32⟩
  | .local _ .vmem, ⟨15, _⟩ => ⟨S1x512x1024, .f32⟩
  | .local _ .vmem, ⟨16, _⟩ => ⟨S1x2x512x2048, .f32⟩
  | .local _ .vmem, ⟨17, _⟩ => ⟨S1x2x512x2048, .f32⟩
  | .local _ .vmem, ⟨18, _⟩ => ⟨S512x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12_0 : Ref sig .tc := ⟨.hbm, 16, rfl⟩
abbrev main_v12_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc1_stg6_0 : Ref sig .tc := ⟨.vmem, 16, rfl⟩
abbrev cc1_stg6_1 : Ref sig .tc := ⟨.vmem, 17, rfl⟩
abbrev cc1_scratch0 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc1_sem4_0 : DmaSem sig := 13
abbrev cc1_sem5_0 : DmaSem sig := 14
abbrev cc1_sem5_1 : DmaSem sig := 15
abbrev cc1_sem6_0 : DmaSem sig := 16
abbrev cc1_sem6_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x3072 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨3, ![2, 4, 8], ![false, false, false]⟩

def k1_cond2 (i : grid1.Coords) : BitVec 1 :=
  let arg2 : BitVec 32 := BitVec.ofNat 32 (i 2).val
  let c7_i32 : BitVec 32 := 7#32
  let v59 : BitVec 1 := Scalar.cmpi .eq arg2 c7_i32
  let v60 : BitVec 32 := Scalar.extui v59
  let c0_i32_32 : BitVec 32 := 0#32
  let v61 : BitVec 1 := Scalar.cmpi .ne v60 c0_i32_32
  v61

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_6 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, arg1.toNat, c0_i32.toNat]

abbrev stage1_0 : Fin 2 → Memref sig .tc .vmem S1x512x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true]

abbrev stage1_1 : Fin 2 → Memref sig .tc .vmem S1x2048x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S1x2048x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false, true]

abbrev stage1_3 : Fin 2 → Memref sig .tc .vmem S128x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, false, true]

abbrev stage1_4 : Fin 1 → Memref sig .tc .vmem S1x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false, false]

abbrev stage1_5 : Fin 2 → Memref sig .tc .vmem S1x512x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true, false]

abbrev stage1_6 : Fin 2 → Memref sig .tc .vmem S1x2x512x2048 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true, true]

class Facts₀ : Prop where
  bitsLt_bf16_f32 : FTy.bits .bf16 < FTy.bits .f32
  shapeCasts_S2x2048x1024_S4096x1024 : S2x2048x1024.ShapeCasts S4096x1024
  transposes_S3072x1024_S1024x3072_1_0 : S3072x1024.Transposes [1, 0] S1024x3072
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x3072_S1024x3072_0_0 : ∀ a, (![0, 0] : Fin 2 → Nat) a + S1024x3072.size a ≤ S1024x3072.size a
  h_S1024x3072 : 0 < S1024x3072.numel
  shapeCasts_S1024x3072_S1024x3072 : S1024x3072.ShapeCasts S1024x3072
  packedbf16_S1024x3072_S1024x3072_0_0 : (Rect.unit (s := S1024x3072) ![0, 0] S1024x3072.size inb_S1024x3072_S1024x3072_0_0).PackedRows (EltTy.packing .bf16)
  shapeCasts_S4096x3072_S2x2048x3072 : S4096x3072.ShapeCasts S2x2048x3072
  slices_S2x2048x3072_S2x2048x1024_0_0_0 : S2x2048x3072.Slices ![0, 0, 0] S2x2048x1024
  slices_S2x2048x3072_S2x2048x1024_0_0_1024 : S2x2048x3072.Slices ![0, 0, 1024] S2x2048x1024
  slices_S2x2048x3072_S2x2048x1024_0_0_2048 : S2x2048x3072.Slices ![0, 0, 2048] S2x2048x1024
  transposes_S1024x1024_S1024x1024_1_0 : S1024x1024.Transposes [1, 0] S1024x1024
  shapeCasts_S1024_S1x1024 : S1024.ShapeCasts S1x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1x512x128_S1x512x128_0_0_0 : ∀ a, (![0, 0, 0] : Fin 3 → Nat) a + S1x512x128.size a ≤ S1x512x128.size a
  h_S1x512x128 : 0 < S1x512x128.numel
  shapeCasts_S1x512x128_S512x128 : S1x512x128.ShapeCasts S512x128
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  slices_S512x128_o0_0_S512x64 : S512x128.Slices ![0, 0] S512x64
  slices_S512x128_o0_64_S512x64 : S512x128.Slices ![0, 64] S512x64
  slices_S2048x128_o0_0_S2048x64 : S2048x128.Slices ![0, 0] S2048x64
  slices_S2048x128_o0_64_S2048x64 : S2048x128.Slices ![0, 64] S2048x64
  reduces_S512x2048_S512 : S512x2048.Reduces [1] S512
  shapeCasts_S512_S512x1 : S512.ShapeCasts S512x1
  broadcasts_S512x1_S512x2048 : S512x1.Broadcasts S512x2048
  inb_S1x2x512x2048_S1x1x512x2048_0_0_0_0 : ∀ a, (![0, 0, 0, 0] : Fin 4 → Nat) a + S1x1x512x2048.size a ≤ S1x2x512x2048.size a
  h_S1x1x512x2048 : 0 < S1x1x512x2048.numel
  shapeCasts_S1x1x512x2048_S512x2048 : S1x1x512x2048.ShapeCasts S512x2048
  shapeCasts_S512x2048_S1x1x512x2048 : S512x2048.ShapeCasts S1x1x512x2048
  inb_S1x2x512x2048_S1x1x512x2048_0_1_0_0 : ∀ a, (![0, 1, 0, 0] : Fin 4 → Nat) a + S1x1x512x2048.size a ≤ S1x2x512x2048.size a
  concatenates_S512x64_S512x64_S512x128_d1 : Shape.Concatenates [S512x64, S512x64] S512x128 1
  inb_S128x1024_S128x1024_0_0 : ∀ a, (![0, 0] : Fin 2 → Nat) a + S128x1024.size a ≤ S128x1024.size a
  h_S128x1024 : 0 < S128x1024.numel
  shapeCasts_S128x1024_S128x1024 : S128x1024.ShapeCasts S128x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  shapeCasts_S512x1024_S1x512x1024 : S512x1024.ShapeCasts S1x512x1024
  dot_S1024x1024_S1024x3072_S1024x3072_1_0_0_1_n_n_wf : DotDims.WF S1024x1024 S1024x3072 S1024x3072 [1] [0] [0] [1] [] []
  dot_S512x64_S2048x64_S512x2048_1_1_0_0_n_n_wf : DotDims.WF S512x64 S2048x64 S512x2048 [1] [1] [0] [0] [] []
  dot_S512x2048_S2048x64_S512x64_1_0_0_1_n_n_wf : DotDims.WF S512x2048 S2048x64 S512x64 [1] [0] [0] [1] [] []
  dot_S512x128_S128x1024_S512x1024_1_0_0_1_n_n_wf : DotDims.WF S512x128 S128x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x1024.size a
  hwx0_0 : ∀ i : grid0.Coords, EltTy.bits .bf16 = 32 ∨ (Rect.block (s := S4096x1024) S1024x1024.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x3072.size a ≤ S1024x3072.size a
  hwx0_1 : ∀ i : grid0.Coords, EltTy.bits .bf16 = 32 ∨ (Rect.block (s := S1024x3072) S1024x3072.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x3072.size a ≤ S4096x3072.size a
  hwx0_2 : ∀ i : grid0.Coords, EltTy.bits .bf16 = 32 ∨ (Rect.block (s := S4096x3072) S1024x3072.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x128.size a ≤ S2x2048x1024.size a
  hwx1_0 : ∀ i : grid1.Coords, EltTy.bits .bf16 = 32 ∨ (Rect.block (s := S2x2048x1024) S1x512x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x128.size a ≤ S2x2048x1024.size a
  hwx1_1 : ∀ i : grid1.Coords, EltTy.bits .bf16 = 32 ∨ (Rect.block (s := S2x2048x1024) S1x2048x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048x128.size a ≤ S2x2048x1024.size a
  hwx1_2 : ∀ i : grid1.Coords, EltTy.bits .bf16 = 32 ∨ (Rect.block (s := S2x2048x1024) S1x2048x128.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S128x1024.size a ≤ S1024x1024.size a
  hwx1_3 : ∀ i : grid1.Coords, EltTy.bits .bf16 = 32 ∨ (Rect.block (s := S1024x1024) S128x1024.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1024.size a ≤ S1x1024.size a
  hwx1_4 : ∀ i : grid1.Coords, EltTy.bits .f32 = 32 ∨ (Rect.block (s := S1x1024) S1x1024.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x512x1024.size a ≤ S2x2048x1024.size a
  hwx1_5 : ∀ i : grid1.Coords, EltTy.bits .f32 = 32 ∨ (Rect.block (s := S2x2048x1024) S1x512x1024.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1x2x512x2048.size a ≤ S2x16x2048x2048.size a
  hwx1_6 : ∀ i : grid1.Coords, EltTy.bits .f32 = 32 ∨ (Rect.block (s := S2x16x2048x2048) S1x2x512x2048.size (cc1_transform_6 i) (hinb1_6 i)).WholeWords (EltTy.packing .f32)

variable [Facts₀]

def dot_S1024x1024_S1024x3072_S1024x3072_1_0_0_1_n_n : DotDims S1024x1024 S1024x3072 S1024x3072 where
  lhsContracting := [1]
  rhsContracting := [0]
  lhsNonContracting := [0]
  rhsNonContracting := [1]
  lhsBatch := []
  rhsBatch := []
  wf := dot_S1024x1024_S1024x3072_S1024x3072_1_0_0_1_n_n_wf
def dot_S512x64_S2048x64_S512x2048_1_1_0_0_n_n : DotDims S512x64 S2048x64 S512x2048 where
  lhsContracting := [1]
  rhsContracting := [1]
  lhsNonContracting := [0]
  rhsNonContracting := [0]
  lhsBatch := []
  rhsBatch := []
  wf := dot_S512x64_S2048x64_S512x2048_1_1_0_0_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf
def dot_S512x128_S128x1024_S512x1024_1_0_0_1_n_n : DotDims S512x128 S128x1024 S512x1024 where
  lhsContracting := [1]
  rhsContracting := [0]
  lhsNonContracting := [0]
  rhsNonContracting := [1]
  lhsBatch := []
  rhsBatch := []
  wf := dot_S512x128_S128x1024_S512x1024_1_0_0_1_n_n_wf

abbrev win0_0 : Pipeline.Window sig grid0 :=
  Pipeline.Window.ofSpec (Memref.whole main_v1) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1024x3072.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1024x3072.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v6) S1x512x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7) S1x2048x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v8) S1x2048x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v10) S128x1024.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v11) S1x1024.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v12_0) S1x512x1024.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v12_1) S1x2x512x2048.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev idle1 : Fin 7 → grid1.Coords → Bool := fun | 0 => fun _ => false | 1 => fun _ => false | 2 => fun _ => false | 3 => fun _ => false | 4 => fun _ => false | 5 => fun i => !(k1_cond2 i == 1#1) | 6 => fun _ => false | ⟨_ + 7, h⟩ => absurd h (Nat.not_lt.2 (Nat.le_add_left _ _))

class Facts : Prop extends Facts₀ where

variable [Facts]
-- ==== ReferenceIdeal.lean ====
abbrev S2x2048x1024 : Shape := ⟨3, ![2, 2048, 1024]⟩
abbrev S3072x1024 : Shape := ⟨2, ![3072, 1024]⟩
abbrev S1024x1024 : Shape := ⟨2, ![1024, 1024]⟩
abbrev S1024 : Shape := ⟨1, ![1024]⟩
abbrev S2x2048x3072 : Shape := ⟨3, ![2, 2048, 3072]⟩
abbrev S2x2048x16x64 : Shape := ⟨4, ![2, 2048, 16, 64]⟩
abbrev S2x16x2048x64 : Shape := ⟨4, ![2, 16, 2048, 64]⟩
abbrev S2x16x2048x2048 : Shape := ⟨4, ![2, 16, 2048, 2048]⟩
abbrev S_ : Shape := ⟨0, ![]⟩
abbrev S2x16x2048 : Shape := ⟨3, ![2, 16, 2048]⟩
abbrev S2x16x2048x1 : Shape := ⟨4, ![2, 16, 2048, 1]⟩
abbrev S1x1x1024 : Shape := ⟨3, ![1, 1, 1024]⟩

abbrev nBuf : Space → Nat
  | .hbm => 42
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S3072x1024, .f32⟩
  | .hbm, ⟨2, _⟩ => ⟨S1024x1024, .f32⟩
  | .hbm, ⟨3, _⟩ => ⟨S1024, .f32⟩
  | .hbm, ⟨4, _⟩ => ⟨S2x2048x3072, .f32⟩
  | .hbm, ⟨5, _⟩ => ⟨S2x2048x1024, .f32⟩
  | .hbm, ⟨6, _⟩ => ⟨S2x2048x1024, .f32⟩
  | .hbm, ⟨7, _⟩ => ⟨S2x2048x1024, .f32⟩
  | .hbm, ⟨8, _⟩ => ⟨S2x2048x16x64, .f32⟩
  | .hbm, ⟨9, _⟩ => ⟨S2x16x2048x64, .f32⟩
  | .hbm, ⟨10, _⟩ => ⟨S2x2048x16x64, .f32⟩
  | .hbm, ⟨11, _⟩ => ⟨S2x16x2048x64, .f32⟩
  | .hbm, ⟨12, _⟩ => ⟨S2x2048x16x64, .f32⟩
  | .hbm, ⟨13, _⟩ => ⟨S2x16x2048x64, .f32⟩
  | .hbm, ⟨14, _⟩ => ⟨S2x16x2048x2048, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S2x16x2048x2048, .f32⟩
  | .hbm, ⟨20, _⟩ => ⟨S2x16x2048x2048, .f32⟩
  | .hbm, ⟨21, _⟩ => ⟨S_, .f32⟩
  | .hbm, ⟨22, _⟩ => ⟨S2x16x2048, .f32⟩
  | .hbm, ⟨23, _⟩ => ⟨S_, .f32⟩
  | .hbm, ⟨24, _⟩ => ⟨S2x16x2048, .f32⟩
  | .hbm, ⟨25, _⟩ => ⟨S2x16x2048, .f32⟩
  | .hbm, ⟨26, _⟩ => ⟨S2x16x2048x1, .f32⟩
  | .hbm, ⟨27, _⟩ => ⟨S2x16x2048x2048, .f32⟩
  | .hbm, ⟨28, _⟩ => ⟨S2x16x2048x2048, .f32⟩
  | .hbm, ⟨29, _⟩ => ⟨S2x16x2048x2048, .f32⟩
  | .hbm, ⟨30, _⟩ => ⟨S_, .f32⟩
  | .hbm, ⟨31, _⟩ => ⟨S2x16x2048, .f32⟩
  | .hbm, ⟨32, _⟩ => ⟨S2x16x2048x1, .f32⟩
  | .hbm, ⟨33, _⟩ => ⟨S2x16x2048x2048, .f32⟩
  | .hbm, ⟨34, _⟩ => ⟨S2x16x2048x2048, .f32⟩
  | .hbm, ⟨35, _⟩ => ⟨S2x16x2048x64, .f32⟩
  | .hbm, ⟨36, _⟩ => ⟨S2x2048x16x64, .f32⟩
  | .hbm, ⟨37, _⟩ => ⟨S2x2048x1024, .f32⟩
  | .hbm, ⟨38, _⟩ => ⟨S2x2048x1024, .f32⟩
  | .hbm, ⟨39, _⟩ => ⟨S1x1x1024, .f32⟩
  | .hbm, ⟨40, _⟩ => ⟨S2x2048x1024, .f32⟩
  | .hbm, ⟨41, _⟩ => ⟨S2x2048x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_3 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩

abbrev nD : Nat := 1
abbrev τ : Topo := Topo.v7x

variable {F : FTy → Type} [FloatOps F]

class Facts₀ : Prop where
  slices_S2x2048x3072_S2x2048x1024_0_0_0 : S2x2048x3072.Slices ![0, 0, 0] S2x2048x1024
  slices_S2x2048x3072_S2x2048x1024_0_0_1024 : S2x2048x3072.Slices ![0, 0, 1024] S2x2048x1024
  slices_S2x2048x3072_S2x2048x1024_0_0_2048 : S2x2048x3072.Slices ![0, 0, 2048] S2x2048x1024
  shapeCasts_S2x2048x1024_S2x2048x16x64 : S2x2048x1024.ShapeCasts S2x2048x16x64
  transposes_S2x2048x16x64_S2x16x2048x64_0_2_1_3 : S2x2048x16x64.Transposes [0, 2, 1, 3] S2x16x2048x64
  bcast_S_S2x16x2048x2048 : S_.BroadcastsInDim S2x16x2048x2048 (![] : Fin 0 → Fin S2x16x2048x2048.rank)
  reducesTo_S2x16x2048x2048_S2x16x2048_d3 : S2x16x2048x2048.ReducesTo [3] S2x16x2048
  h_S_ : 0 < S_.numel
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  transposes_S2x16x2048x64_S2x2048x16x64_0_2_1_3 : S2x16x2048x64.Transposes [0, 2, 1, 3] S2x2048x16x64
  shapeCasts_S2x2048x16x64_S2x2048x1024 : S2x2048x16x64.ShapeCasts S2x2048x1024
  bcast_S1024_S1x1x1024_2 : S1024.BroadcastsInDim S1x1x1024 (![2] : Fin 1 → Fin S1x1x1024.rank)
  bcast_S1x1x1024_S2x2048x1024_0_1_2 : S1x1x1024.BroadcastsInDim S2x2048x1024 (![0, 1, 2] : Fin 3 → Fin S2x2048x1024.rank)
  dot_S2x2048x1024_S3072x1024_S2x2048x3072_2_1_01_0_n_n_wf : DotDims.WF S2x2048x1024 S3072x1024 S2x2048x3072 [2] [1] [0, 1] [0] [] []
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]
  dot_S2x2048x1024_S1024x1024_S2x2048x1024_2_1_01_0_n_n_wf : DotDims.WF S2x2048x1024 S1024x1024 S2x2048x1024 [2] [1] [0, 1] [0] [] []

variable [Facts₀]

def dot_S2x2048x1024_S3072x1024_S2x2048x3072_2_1_01_0_n_n : DotDims S2x2048x1024 S3072x1024 S2x2048x3072 where
  lhsContracting := [2]
  rhsContracting := [1]
  lhsNonContracting := [0, 1]
  rhsNonContracting := [0]
  lhsBatch := []
  rhsBatch := []
  wf := dot_S2x2048x1024_S3072x1024_S2x2048x3072_2_1_01_0_n_n_wf
def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf
def dot_S2x2048x1024_S1024x1024_S2x2048x1024_2_1_01_0_n_n : DotDims S2x2048x1024 S1024x1024 S2x2048x1024 where
  lhsContracting := [2]
  rhsContracting := [1]
  lhsNonContracting := [0, 1]
  rhsNonContracting := [0]
  lhsBatch := []
  rhsBatch := []
  wf := dot_S2x2048x1024_S1024x1024_S2x2048x1024_2_1_01_0_n_n_wf

class Facts : Prop extends Facts₀ where

variable [Facts]
-- ==== Proof.Kernel.R0.lean ====
/-
  The first kernel region (the QKV projection), at any float instance: one grid point multiplies the point's
  1024 rows of the activations by the whole weight matrix and stores the 1024 x 3072 product block. Stated at a
  parameter `V`, the buffer contents when the region is entered: what each window's block is, what the body
  leaves in the output window's buffer (one store covering it), the body's triple, and the proof data.
-/
import proofs.«178877_j27444841021700_2_alg».proof.Proof.Gen.Kernel.Launch
import proofs.«178877_j27444841021700_2_alg».proof.Proof.Gen.Kernel.Skeleton
import proofs.«178877_j27444841021700_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S1024x1024 := Rect.unit (s := S1024x1024) ![0, 0] S1024x1024.size inb_S1024x1024_S1024x1024_0_0
abbrev r0_1 : Rect S1024x3072 := Rect.unit (s := S1024x3072) ![0, 0] S1024x3072.size inb_S1024x3072_S1024x3072_0_0

/-- The output window's buffer after the body: its one store, of the product of the two input blocks. -/
def out0_2 (x0 : Vec F S1024x1024 .bf16) (x1 : Vec F S1024x3072 .bf16) : Vec F S1024x3072 .bf16 :=
  View.canon [⟨r0_1, k0_pay1 (View.ld x0 r0_0) (View.ld x1 r0_1)⟩]

theorem cover0_2 (p0 : Vec F S1024x3072 .bf16) (y : S1024x3072.Idx) :
    ∃ pc ∈ ([⟨r0_1, p0⟩] : List (View.Piece (Elt F) S1024x3072 .bf16)), y ∈ pc.1.set :=
  View.cover_of_tiled [⟨r0_1, p0⟩] S1024x3072.size (by rfl) y

set_option maxHeartbeats 1000000 in
/-- The body on whole staging memrefs: the inputs' kept, the output's at the product block. -/
theorem sound_kernel0 (c : Dev nD) (i : grid0.Coords) (E : Set ℕ) (arg1 : Memref sig .tc .vmem S1024x1024 .bf16) (harg1 : arg1.IsWhole) (arg2 : Memref sig .tc .vmem S1024x3072 .bf16) (harg2 : arg2.IsWhole)
    (arg3 : Memref sig .tc .vmem S1024x3072 .bf16) (harg3 : arg3.IsWhole)
    (x0 : Vec F S1024x1024 .bf16) (x1 : Vec F S1024x3072 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__qkv_proj_kernel i arg1 harg1 arg2 harg2 arg3 harg3) K := by
  simp only [cc0__qkv_proj_kernel_eq_skeleton]; unfold cc0__qkv_proj_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of the first pipeline on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c _ Set.univ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Region0

end Cert.Kernel.Gen

end
-- ==== Proof.Kernel.R1Runs.lean ====
/-
  The second kernel region (attention for one pair of heads and the output projection accumulated over the eight
  head pairs), at any float instance: what the three control cases of its body share. The body zeroes the carried
  accumulator at the first head pair of a row block, adds the pair's projected output at every pair, and stores
  accumulator plus bias into the result block at the last pair. The two conditions are decided over the grid in
  closed form (the head-pair coordinate is the point's number mod 8).
-/
import proofs.«178877_j27444841021700_2_alg».proof.Proof.Gen.Kernel.Launch
import proofs.«178877_j27444841021700_2_alg».proof.Proof.Gen.Kernel.Skeleton
import proofs.«178877_j27444841021700_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

end Region1

/-- The first head pair of a row block: the accumulator is zeroed. -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)
/-- The last head pair: the result block is stored. -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_6 : ∀ t : Fin cfg1.N, cfg1.idle 6 (grid1.coords t) = false := by decide +kernel
theorem idleAt1_5 : ∀ t : Fin cfg1.N, ¬cond1_1 (grid1.coords t) → cfg1.idle 5 (grid1.coords t) = true := by decide +kernel
theorem noFlush1_5 : ∀ t : Fin cfg1.N, ¬cond1_1 (grid1.coords t) → (cfg1.win 5).flush t = false := by decide +kernel
theorem liveAt1_5 : ∀ t : Fin cfg1.N, cond1_1 (grid1.coords t) → cfg1.idle 5 (grid1.coords t) = false := by decide +kernel

/-- One staging buffer of each output window, through which its contents are stated. -/
abbrev VO1_5 : View sig .tc .vmem S1x512x1024 .f32 := (Memref.whole cc1_stg5_0 : Memref sig .tc .vmem S1x512x1024 .f32).view
abbrev VO1_6 : View sig .tc .vmem S1x2x512x2048 .f32 := (Memref.whole cc1_stg6_0 : Memref sig .tc .vmem S1x2x512x2048 .f32).view
abbrev ms1_0 (t : Fin cfg1.N) : Memref sig .tc .vmem S1x512x128 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x2048x128 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x2048x128 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S128x1024 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1024 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x512x1024 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x2x512x2048 .f32 := win1_6.stage (cfg1.slots t 6)
abbrev hs1_6 (t : Fin cfg1.N) : (ms1_6 t).IsWhole := hstage1_6 ((cfg1.slots t 6).cast nbuf1_6)
/-- The accumulator the kernel carries between points. -/
abbrev scM1_0 : Memref sig .tc .vmem S512x1024 .f32 := Memref.whole cc1_scratch0
abbrev VS1_0 : View sig .tc .vmem S512x1024 .f32 := scM1_0.view

/-- The class invariant with the accumulator as a memref owned at some contents. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ d, owns (c : Thread nD τ) scM1_0 fullShare d)) ∗ (∃ r, prngReg c r)) := by
  unfold Pipeline.ΦA; rw [scopedRest1_eq]; simp only [scM1_0, owns_whole]; try rfl

end Cert.Kernel.Gen

end
-- ==== Proof.Kernel.R1RunA.lean ====
/-
  The body of the second region at the first head pair of a row block (the accumulator zeroed, then the pair's contribution added; the result block untouched): its triple on whole staging memrefs, the pieces each written buffer ends with found by the run.
-/
import proofs.«178877_j27444841021700_2_alg».proof.Proof.Kernel.R1Runs
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_A (c : Dev nD) (i : grid1.Coords) (arg3 : Memref sig .tc .vmem S1x512x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S128x1024 .bf16) (harg6 : arg6.IsWhole) (arg7 : Memref sig .tc .vmem S1x1024 .f32) (harg7 : arg7.IsWhole) (arg8 : Memref sig .tc .vmem S1x512x1024 .f32) (harg8 : arg8.IsWhole) (arg9 : Memref sig .tc .vmem S1x2x512x2048 .f32) (harg9 : arg9.IsWhole) (arg10 : Memref sig .tc .vmem S512x1024 .f32) (harg10 : arg10.IsWhole) (hc0 : cond1_0 i) (hc1 : ¬cond1_1 i)
    (x0 : Vec F S1x512x128 .bf16) (x1 : Vec F S1x2048x128 .bf16) (x2 : Vec F S1x2048x128 .bf16) (x3 : Vec F S128x1024 .bf16) (x4 : Vec F S1x1024 .f32) :
    Σ' (L6 : List (View.Piece (Elt F) S1x2x512x2048 .f32)), { LS0 : List (View.Piece (Elt F) S512x1024 .f32) //
      ∀ (xi5 : Vec F S1x512x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ d, owns (c : Thread nD τ) arg9 fullShare d) ∗ (∃ d, owns (c : Thread nD τ) arg10 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ f, arg9.view.loc (c : Thread nD τ) ↦[arg9.view.set]{fullShare} arg9.view.writes (Elt F) f L6) ∗ (∃ f, arg10.view.loc (c : Thread nD τ) ↦[arg10.view.set]{fullShare} arg10.view.writes (Elt F) f LS0)) -∗ K ⟨⟩))
          ⊢ wp frame (wpE (defs₀ (F := F)) Variants.none c none) E (cc1__attn_outproj_kernel i arg3 harg3 arg4 harg4 arg5 harg5 arg6 harg6 arg7 harg7 arg8 harg8 arg9 harg9 arg10 harg10) K } := by
  refine ⟨?_, ?_, fun xi5 E K => ?run⟩
  case run =>
    simp only [cc1__attn_outproj_kernel_eq_skeleton]; unfold cc1__attn_outproj_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]; · iexists _; iexact H6
    iexists _; iexact HS0

end Cert.Kernel.Gen

end
-- ==== Proof.Kernel.R1RunB.lean ====
/-
  The body of the second region at a middle head pair (the pair's contribution added to the carried accumulator; the result block untouched).
-/
import proofs.«178877_j27444841021700_2_alg».proof.Proof.Kernel.R1RunA
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_B (c : Dev nD) (i : grid1.Coords) (arg3 : Memref sig .tc .vmem S1x512x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S128x1024 .bf16) (harg6 : arg6.IsWhole) (arg7 : Memref sig .tc .vmem S1x1024 .f32) (harg7 : arg7.IsWhole) (arg8 : Memref sig .tc .vmem S1x512x1024 .f32) (harg8 : arg8.IsWhole) (arg9 : Memref sig .tc .vmem S1x2x512x2048 .f32) (harg9 : arg9.IsWhole) (arg10 : Memref sig .tc .vmem S512x1024 .f32) (harg10 : arg10.IsWhole) (hc0 : ¬cond1_0 i) (hc1 : ¬cond1_1 i)
    (x0 : Vec F S1x512x128 .bf16) (x1 : Vec F S1x2048x128 .bf16) (x2 : Vec F S1x2048x128 .bf16) (x3 : Vec F S128x1024 .bf16) (x4 : Vec F S1x1024 .f32) (xs0 : Vec F S512x1024 .f32) :
    Σ' (L6 : List (View.Piece (Elt F) S1x2x512x2048 .f32)), { LS0 : List (View.Piece (Elt F) S512x1024 .f32) //
      ∀ (xi5 : Vec F S1x512x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ d, owns (c : Thread nD τ) arg9 fullShare d) ∗ owns (c : Thread nD τ) arg10 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ f, arg9.view.loc (c : Thread nD τ) ↦[arg9.view.set]{fullShare} arg9.view.writes (Elt F) f L6) ∗ (∃ f, arg10.view.loc (c : Thread nD τ) ↦[arg10.view.set]{fullShare} arg10.view.writes (Elt F) f LS0)) -∗ K ⟨⟩))
          ⊢ wp frame (wpE (defs₀ (F := F)) Variants.none c none) E (cc1__attn_outproj_kernel i arg3 harg3 arg4 harg4 arg5 harg5 arg6 harg6 arg7 harg7 arg8 harg8 arg9 harg9 arg10 harg10) K } := by
  refine ⟨?_, ?_, fun xi5 E K => ?run⟩
  case run =>
    simp only [cc1__attn_outproj_kernel_eq_skeleton]; unfold cc1__attn_outproj_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg10.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]; · iexists _; iexact H6
    iexists _; iexact HS0

end Cert.Kernel.Gen

end
-- ==== Proof.Kernel.R1RunC.lean ====
/-
  The body of the second region at the last head pair (the pair's contribution added, then accumulator plus bias stored into the result block).
-/
import proofs.«178877_j27444841021700_2_alg».proof.Proof.Kernel.R1RunB
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_C (c : Dev nD) (i : grid1.Coords) (arg3 : Memref sig .tc .vmem S1x512x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S128x1024 .bf16) (harg6 : arg6.IsWhole) (arg7 : Memref sig .tc .vmem S1x1024 .f32) (harg7 : arg7.IsWhole) (arg8 : Memref sig .tc .vmem S1x512x1024 .f32) (harg8 : arg8.IsWhole) (arg9 : Memref sig .tc .vmem S1x2x512x2048 .f32) (harg9 : arg9.IsWhole) (arg10 : Memref sig .tc .vmem S512x1024 .f32) (harg10 : arg10.IsWhole) (hc0 : ¬cond1_0 i) (hc1 : cond1_1 i)
    (x0 : Vec F S1x512x128 .bf16) (x1 : Vec F S1x2048x128 .bf16) (x2 : Vec F S1x2048x128 .bf16) (x3 : Vec F S128x1024 .bf16) (x4 : Vec F S1x1024 .f32) (xs0 : Vec F S512x1024 .f32) :
    Σ' (L5 : List (View.Piece (Elt F) S1x512x1024 .f32)), Σ' (L6 : List (View.Piece (Elt F) S1x2x512x2048 .f32)), { LS0 : List (View.Piece (Elt F) S512x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ (∃ d, owns (c : Thread nD τ) arg9 fullShare d) ∗ owns (c : Thread nD τ) arg10 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f L6) ∗ (∃ f, arg10.view.loc (c : Thread nD τ) ↦[arg10.view.set]{fullShare} arg10.view.writes (Elt F) f LS0)) -∗ K ⟨⟩))
          ⊢ wp frame (wpE (defs₀ (F := F)) Variants.none c none) E (cc1__attn_outproj_kernel i arg3 harg3 arg4 harg4 arg5 harg5 arg6 harg6 arg7 harg7 arg8 harg8 arg9 harg9 arg10 harg10) K } := by
  refine ⟨?_, ?_, ?_, fun E K => ?run⟩
  case run =>
    simp only [cc1__attn_outproj_kernel_eq_skeleton]; unfold cc1__attn_outproj_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg10.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    isplitl [H6]; · iexists _; iexact H6
    iexists _; iexact HS0

end Cert.Kernel.Gen

end
-- ==== Proof.Kernel.R1.lean ====
/-
  The second kernel region's proof data: what its two output windows' staging buffers and the carried accumulator
  hold after each grid point, by recursion on the point (a point that is not the first of its row block starts from
  what the point before left in the accumulator), the invariant that carries the accumulator from point to point,
  and the body obligation by cases on the head-pair coordinate.
-/
import proofs.«178877_j27444841021700_2_alg».proof.Proof.Kernel.R1RunC
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem cover1_A_6 (c : Dev nD) (i : grid1.Coords) (arg3 : Memref sig .tc .vmem S1x512x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S128x1024 .bf16) (harg6 : arg6.IsWhole) (arg7 : Memref sig .tc .vmem S1x1024 .f32) (harg7 : arg7.IsWhole) (arg8 : Memref sig .tc .vmem S1x512x1024 .f32) (harg8 : arg8.IsWhole) (arg9 : Memref sig .tc .vmem S1x2x512x2048 .f32) (harg9 : arg9.IsWhole) (arg10 : Memref sig .tc .vmem S512x1024 .f32) (harg10 : arg10.IsWhole) (hc0 : cond1_0 i) (hc1 : ¬cond1_1 i)
    (x0 : Vec F S1x512x128 .bf16) (x1 : Vec F S1x2048x128 .bf16) (x2 : Vec F S1x2048x128 .bf16) (x3 : Vec F S128x1024 .bf16) (x4 : Vec F S1x1024 .f32) (y : S1x2x512x2048.Idx) :
    ∃ pc ∈ (kernelRun1_A c i arg3 harg3 arg4 harg4 arg5 harg5 arg6 harg6 arg7 harg7 arg8 harg8 arg9 harg9 arg10 harg10 hc0 hc1 x0 x1 x2 x3 x4).1, y ∈ pc.1.set :=
  View.cover_of_tiledL (kernelRun1_A c i arg3 harg3 arg4 harg4 arg5 harg5 arg6 harg6 arg7 harg7 arg8 harg8 arg9 harg9 arg10 harg10 hc0 hc1 x0 x1 x2 x3 x4).1 S1x1x512x2048.size (by sl_kernel_rfl) y
theorem scover1_A_0 (c : Dev nD) (i : grid1.Coords) (arg3 : Memref sig .tc .vmem S1x512x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S128x1024 .bf16) (harg6 : arg6.IsWhole) (arg7 : Memref sig .tc .vmem S1x1024 .f32) (harg7 : arg7.IsWhole) (arg8 : Memref sig .tc .vmem S1x512x1024 .f32) (harg8 : arg8.IsWhole) (arg9 : Memref sig .tc .vmem S1x2x512x2048 .f32) (harg9 : arg9.IsWhole) (arg10 : Memref sig .tc .vmem S512x1024 .f32) (harg10 : arg10.IsWhole) (hc0 : cond1_0 i) (hc1 : ¬cond1_1 i)
    (x0 : Vec F S1x512x128 .bf16) (x1 : Vec F S1x2048x128 .bf16) (x2 : Vec F S1x2048x128 .bf16) (x3 : Vec F S128x1024 .bf16) (x4 : Vec F S1x1024 .f32) (y : S512x1024.Idx) :
    ∃ pc ∈ (kernelRun1_A c i arg3 harg3 arg4 harg4 arg5 harg5 arg6 harg6 arg7 harg7 arg8 harg8 arg9 harg9 arg10 harg10 hc0 hc1 x0 x1 x2 x3 x4).2.1, y ∈ pc.1.set :=
  View.cover_of_tiledL (kernelRun1_A c i arg3 harg3 arg4 harg4 arg5 harg5 arg6 harg6 arg7 harg7 arg8 harg8 arg9 harg9 arg10 harg10 hc0 hc1 x0 x1 x2 x3 x4).2.1 S512x1024.size (by sl_kernel_rfl) y
theorem cover1_B_6 (c : Dev nD) (i : grid1.Coords) (arg3 : Memref sig .tc .vmem S1x512x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S128x1024 .bf16) (harg6 : arg6.IsWhole) (arg7 : Memref sig .tc .vmem S1x1024 .f32) (harg7 : arg7.IsWhole) (arg8 : Memref sig .tc .vmem S1x512x1024 .f32) (harg8 : arg8.IsWhole) (arg9 : Memref sig .tc .vmem S1x2x512x2048 .f32) (harg9 : arg9.IsWhole) (arg10 : Memref sig .tc .vmem S512x1024 .f32) (harg10 : arg10.IsWhole) (hc0 : ¬cond1_0 i) (hc1 : ¬cond1_1 i)
    (x0 : Vec F S1x512x128 .bf16) (x1 : Vec F S1x2048x128 .bf16) (x2 : Vec F S1x2048x128 .bf16) (x3 : Vec F S128x1024 .bf16) (x4 : Vec F S1x1024 .f32) (xs0 : Vec F S512x1024 .f32) (y : S1x2x512x2048.Idx) :
    ∃ pc ∈ (kernelRun1_B c i arg3 harg3 arg4 harg4 arg5 harg5 arg6 harg6 arg7 harg7 arg8 harg8 arg9 harg9 arg10 harg10 hc0 hc1 x0 x1 x2 x3 x4 xs0).1, y ∈ pc.1.set :=
  View.cover_of_tiledL (kernelRun1_B c i arg3 harg3 arg4 harg4 arg5 harg5 arg6 harg6 arg7 harg7 arg8 harg8 arg9 harg9 arg10 harg10 hc0 hc1 x0 x1 x2 x3 x4 xs0).1 S1x1x512x2048.size (by sl_kernel_rfl) y
theorem scover1_B_0 (c : Dev nD) (i : grid1.Coords) (arg3 : Memref sig .tc .vmem S1x512x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S128x1024 .bf16) (harg6 : arg6.IsWhole) (arg7 : Memref sig .tc .vmem S1x1024 .f32) (harg7 : arg7.IsWhole) (arg8 : Memref sig .tc .vmem S1x512x1024 .f32) (harg8 : arg8.IsWhole) (arg9 : Memref sig .tc .vmem S1x2x512x2048 .f32) (harg9 : arg9.IsWhole) (arg10 : Memref sig .tc .vmem S512x1024 .f32) (harg10 : arg10.IsWhole) (hc0 : ¬cond1_0 i) (hc1 : ¬cond1_1 i)
    (x0 : Vec F S1x512x128 .bf16) (x1 : Vec F S1x2048x128 .bf16) (x2 : Vec F S1x2048x128 .bf16) (x3 : Vec F S128x1024 .bf16) (x4 : Vec F S1x1024 .f32) (xs0 : Vec F S512x1024 .f32) (y : S512x1024.Idx) :
    ∃ pc ∈ (kernelRun1_B c i arg3 harg3 arg4 harg4 arg5 harg5 arg6 harg6 arg7 harg7 arg8 harg8 arg9 harg9 arg10 harg10 hc0 hc1 x0 x1 x2 x3 x4 xs0).2.1, y ∈ pc.1.set :=
  View.cover_of_tiledL (kernelRun1_B c i arg3 harg3 arg4 harg4 arg5 harg5 arg6 harg6 arg7 harg7 arg8 harg8 arg9 harg9 arg10 harg10 hc0 hc1 x0 x1 x2 x3 x4 xs0).2.1 S512x1024.size (by sl_kernel_rfl) y
theorem cover1_C_5 (c : Dev nD) (i : grid1.Coords) (arg3 : Memref sig .tc .vmem S1x512x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S128x1024 .bf16) (harg6 : arg6.IsWhole) (arg7 : Memref sig .tc .vmem S1x1024 .f32) (harg7 : arg7.IsWhole) (arg8 : Memref sig .tc .vmem S1x512x1024 .f32) (harg8 : arg8.IsWhole) (arg9 : Memref sig .tc .vmem S1x2x512x2048 .f32) (harg9 : arg9.IsWhole) (arg10 : Memref sig .tc .vmem S512x1024 .f32) (harg10 : arg10.IsWhole) (hc0 : ¬cond1_0 i) (hc1 : cond1_1 i)
    (x0 : Vec F S1x512x128 .bf16) (x1 : Vec F S1x2048x128 .bf16) (x2 : Vec F S1x2048x128 .bf16) (x3 : Vec F S128x1024 .bf16) (x4 : Vec F S1x1024 .f32) (xs0 : Vec F S512x1024 .f32) (y : S1x512x1024.Idx) :
    ∃ pc ∈ (kernelRun1_C c i arg3 harg3 arg4 harg4 arg5 harg5 arg6 harg6 arg7 harg7 arg8 harg8 arg9 harg9 arg10 harg10 hc0 hc1 x0 x1 x2 x3 x4 xs0).1, y ∈ pc.1.set :=
  View.cover_of_tiledL (kernelRun1_C c i arg3 harg3 arg4 harg4 arg5 harg5 arg6 harg6 arg7 harg7 arg8 harg8 arg9 harg9 arg10 harg10 hc0 hc1 x0 x1 x2 x3 x4 xs0).1 S1x512x1024.size (by sl_kernel_rfl) y
theorem cover1_C_6 (c : Dev nD) (i : grid1.Coords) (arg3 : Memref sig .tc .vmem S1x512x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S128x1024 .bf16) (harg6 : arg6.IsWhole) (arg7 : Memref sig .tc .vmem S1x1024 .f32) (harg7 : arg7.IsWhole) (arg8 : Memref sig .tc .vmem S1x512x1024 .f32) (harg8 : arg8.IsWhole) (arg9 : Memref sig .tc .vmem S1x2x512x2048 .f32) (harg9 : arg9.IsWhole) (arg10 : Memref sig .tc .vmem S512x1024 .f32) (harg10 : arg10.IsWhole) (hc0 : ¬cond1_0 i) (hc1 : cond1_1 i)
    (x0 : Vec F S1x512x128 .bf16) (x1 : Vec F S1x2048x128 .bf16) (x2 : Vec F S1x2048x128 .bf16) (x3 : Vec F S128x1024 .bf16) (x4 : Vec F S1x1024 .f32) (xs0 : Vec F S512x1024 .f32) (y : S1x2x512x2048.Idx) :
    ∃ pc ∈ (kernelRun1_C c i arg3 harg3 arg4 harg4 arg5 harg5 arg6 harg6 arg7 harg7 arg8 harg8 arg9 harg9 arg10 harg10 hc0 hc1 x0 x1 x2 x3 x4 xs0).2.1, y ∈ pc.1.set :=
  View.cover_of_tiledL (kernelRun1_C c i arg3 harg3 arg4 harg4 arg5 harg5 arg6 harg6 arg7 harg7 arg8 harg8 arg9 harg9 arg10 harg10 hc0 hc1 x0 x1 x2 x3 x4 xs0).2.1 S1x1x512x2048.size (by sl_kernel_rfl) y
theorem scover1_C_0 (c : Dev nD) (i : grid1.Coords) (arg3 : Memref sig .tc .vmem S1x512x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S128x1024 .bf16) (harg6 : arg6.IsWhole) (arg7 : Memref sig .tc .vmem S1x1024 .f32) (harg7 : arg7.IsWhole) (arg8 : Memref sig .tc .vmem S1x512x1024 .f32) (harg8 : arg8.IsWhole) (arg9 : Memref sig .tc .vmem S1x2x512x2048 .f32) (harg9 : arg9.IsWhole) (arg10 : Memref sig .tc .vmem S512x1024 .f32) (harg10 : arg10.IsWhole) (hc0 : ¬cond1_0 i) (hc1 : cond1_1 i)
    (x0 : Vec F S1x512x128 .bf16) (x1 : Vec F S1x2048x128 .bf16) (x2 : Vec F S1x2048x128 .bf16) (x3 : Vec F S128x1024 .bf16) (x4 : Vec F S1x1024 .f32) (xs0 : Vec F S512x1024 .f32) (y : S512x1024.Idx) :
    ∃ pc ∈ (kernelRun1_C c i arg3 harg3 arg4 harg4 arg5 harg5 arg6 harg6 arg7 harg7 arg8 harg8 arg9 harg9 arg10 harg10 hc0 hc1 x0 x1 x2 x3 x4 xs0).2.2.1, y ∈ pc.1.set :=
  View.cover_of_tiledL (kernelRun1_C c i arg3 harg3 arg4 harg4 arg5 harg5 arg6 harg6 arg7 harg7 arg8 harg8 arg9 harg9 arg10 harg10 hc0 hc1 x0 x1 x2 x3 x4 xs0).2.2.1 S512x1024.size (by sl_kernel_rfl) y

section Region1
variable (V : (c : Dev nD) → (b : Ref sig .tc) → Buf (Elt F) ((c : Thread nD τ).loc b))

/-- What a list of pieces leaves in each written buffer, read back over unspecified contents. -/
def yOf (L : List (View.Piece (Elt F) S1x512x1024 .f32)) : Vec F S1x512x1024 .f32 := VO1_5.read (Elt F) (VO1_5.writes (Elt F) VO1_5.junk L)
def attOf (L : List (View.Piece (Elt F) S1x2x512x2048 .f32)) : Vec F S1x2x512x2048 .f32 := VO1_6.read (Elt F) (VO1_6.writes (Elt F) VO1_6.junk L)
def accOf (L : List (View.Piece (Elt F) S512x1024 .f32)) : Vec F S512x1024 .f32 := VS1_0.read (Elt F) (VS1_0.writes (Elt F) VS1_0.junk L)

/-- The result block, the attention block and the accumulator after a point of each case. -/
def resA (c : Dev nD) (t : Fin cfg1.N) (h0 : t.val % 8 = 0) (h1 : ¬t.val % 8 = 7) : Vec F S1x512x1024 .f32 × Vec F S1x2x512x2048 .f32 × Vec F S512x1024 .f32 :=
  (yOf [], attOf (kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t)).1, accOf (kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t)).2.1)
def resB (c : Dev nD) (t : Fin cfg1.N) (h0 : ¬t.val % 8 = 0) (h1 : ¬t.val % 8 = 7) (xs : Vec F S512x1024 .f32) : Vec F S1x512x1024 .f32 × Vec F S1x2x512x2048 .f32 × Vec F S512x1024 .f32 :=
  (yOf [], attOf (kernelRun1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) xs).1, accOf (kernelRun1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) xs).2.1)
def resC (c : Dev nD) (t : Fin cfg1.N) (h0 : ¬t.val % 8 = 0) (h1 : t.val % 8 = 7) (xs : Vec F S512x1024 .f32) : Vec F S1x512x1024 .f32 × Vec F S1x2x512x2048 .f32 × Vec F S512x1024 .f32 :=
  (yOf (kernelRun1_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) xs).1, attOf (kernelRun1_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) xs).2.1, accOf (kernelRun1_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) xs).2.2.1)

/-- THE ACCUMULATION over the grid points. -/
def outsAt1 (c : Dev nD) : (n : ℕ) → n < cfg1.N → Vec F S1x512x1024 .f32 × Vec F S1x2x512x2048 .f32 × Vec F S512x1024 .f32
  | 0, hn => resA V c ⟨0, hn⟩ (Nat.zero_mod _) (by show ¬ (0 % 8 = 7); decide)
  | n + 1, hn =>
    if h0 : (n + 1) % 8 = 0 then
      if h1 : (n + 1) % 8 = 7 then False.elim (by omega)
      else resA V c ⟨n + 1, hn⟩ h0 h1
    else
      if h1 : (n + 1) % 8 = 7 then resC V c ⟨n + 1, hn⟩ h0 h1 (outsAt1 c n (Nat.lt_of_succ_lt hn)).2.2
      else resB V c ⟨n + 1, hn⟩ h0 h1 (outsAt1 c n (Nat.lt_of_succ_lt hn)).2.2

theorem outsAt1_A (c : Dev nD) (t : Fin cfg1.N) (h0 : t.val % 8 = 0) (h1 : ¬t.val % 8 = 7) :
    outsAt1 V c t.val t.isLt = resA V c t h0 h1 := by
  obtain ⟨n, hn⟩ := t
  cases n with
  | zero => exact rfl
  | succ n => exact (dif_pos h0).trans ((dif_neg h1).trans rfl)
theorem outsAt1_B (c : Dev nD) (t : Fin cfg1.N) (h0 : ¬t.val % 8 = 0) (h1 : ¬t.val % 8 = 7) :
    outsAt1 V c t.val t.isLt = resB V c t h0 h1 (outsAt1 V c (t.val - 1) (Nat.lt_of_le_of_lt (Nat.sub_le _ _) t.isLt)).2.2 := by
  obtain ⟨n, hn⟩ := t
  cases n with
  | zero => exact (by exfalso; (try dsimp only at h0); exact absurd (Nat.zero_mod _) h0)
  | succ n => exact (dif_neg h0).trans ((dif_neg h1).trans rfl)
theorem outsAt1_C (c : Dev nD) (t : Fin cfg1.N) (h0 : ¬t.val % 8 = 0) (h1 : t.val % 8 = 7) :
    outsAt1 V c t.val t.isLt = resC V c t h0 h1 (outsAt1 V c (t.val - 1) (Nat.lt_of_le_of_lt (Nat.sub_le _ _) t.isLt)).2.2 := by
  obtain ⟨n, hn⟩ := t
  cases n with
  | zero => exact (by exfalso; (try dsimp only at h0); exact absurd (Nat.zero_mod _) h0)
  | succ n => exact (dif_neg h0).trans ((dif_pos h1).trans rfl)

/-- The region invariant before position `n`: the class's before the first point; afterwards the scoped rest with
    the accumulator at what the point before left in it, and the generator register at some state. -/
def PhiS (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ owns (c : Thread nD τ) scM1_0 fullShare ((outsAt1 V c n hn).2.2)) ∗ (∃ r, prngReg c r))

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ owns (c : Thread nD τ) scM1_0 fullShare ((outsAt1 V c n hn).2.2)) ∗ (∃ r, prngReg c r)) := rfl
theorem PhiS_pos (c : Dev nD) (n : ℕ) (h : n ≤ cfg1.N) (hz : n ≠ 0) :
    PhiS V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ owns (c : Thread nD τ) scM1_0 fullShare ((outsAt1 V c (n - 1) (by omega)).2.2)) ∗ (∃ r, prngReg c r)) := by
  cases n with
  | zero => exact absurd rfl hz
  | succ n => rfl

/-- The proof data of the second pipeline on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t.val t.isLt).1
    | ⟨6, _⟩ => (outsAt1 V c t.val t.isLt).2.1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS_castSucc (c : Dev nD) (t : Fin cfg1.N) :
    (dat1 V c).Φ t.castSucc = PhiS V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = (outsAt1 V c t.val t.isLt).1 := by dsimp only [dat1]
theorem after1_6 (c : Dev nD) (t : Fin cfg1.N) : (dat1 V c).after 6 t = (outsAt1 V c t.val t.isLt).2.1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

set_option maxHeartbeats 8000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS V c (t.val + 1) t.isLt from rfl, PhiS_succ]
  have hN : t.val < 64 := lt_of_lt_of_eq t.isLt (show cfg1.N = 64 from N_1)
  by_cases h0 : t.val % 8 = 0
  · by_cases h1 : t.val % 8 = 7
    · exfalso; omega
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [Dat.leavesExact_idle (dat1 V c) 5 t (idleAt1_5 t (fun h => h1 ((hcond1_1 t).mp h))) (noFlush1_5 t (fun h => h1 ((hcond1_1 t).mp h)))]
      rw [show (dat1 V c).leavesExact 6 t = owns (c : Thread nD τ) (ms1_6 t) fullShare ((dat1 V c).after 6 t) from by
        unfold Dat.leavesExact; rw [liveAt1_6 t], after1_6]
      rw [outsAt1_A V c t h0 h1]
      unfold resA attOf accOf; (try dsimp only)
      by_cases hz : t.val = 0
      ·
        rw [PhiS_castSucc V c t, PhiS_zero V c _ _ hz, PhiA1_eq]
        iintro ⟨⟨⟨Ha1, Ha2, Ha3, Ha4, Ha5, HS0⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [HS0]; · iexact HS0
        iintro ⟨H0, H1, H2, H3, H4, H5, ⟨%e6, H6⟩, ⟨%es0, HS0⟩⟩
        isplitl [Ha1 Ha2 Ha3 Ha4 Ha5 HS0 Hg]
        · isplitl [Ha1 Ha2 Ha3 Ha4 Ha5 HS0]
          swap; · iexact Hg
          isplitl [Ha1]; · iexact Ha1
          isplitl [Ha2]; · iexact Ha2
          isplitl [Ha3]; · iexact Ha3
          isplitl [Ha4]; · iexact Ha4
          isplitl [Ha5]; · iexact Ha5
          unfold owns; iexists _; isplitr
          swap; · iexact HS0
          ipureintro; exact View.read_writes_of_cover _ _ _ _ _ (scover1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t))
        isplitl [Ho]; · iexact Ho
        isplitl [H0]; · iexact H0
        isplitl [H1]; · iexact H1
        isplitl [H2]; · iexact H2
        isplitl [H3]; · iexact H3
        isplitl [H4]; · iexact H4
        isplitl [H5]; · iexists _; iexact H5
        unfold owns; iexists _; isplitr
        swap; · iexact H6
        ipureintro; exact View.read_writes_of_cover _ _ _ _ _ (cover1_A_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t))
      ·
        rw [PhiS_castSucc V c t, PhiS_pos V c _ _ hz]
        iintro ⟨⟨⟨Ha1, Ha2, Ha3, Ha4, Ha5, HS0⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [HS0]; · iexists _; iexact HS0
        iintro ⟨H0, H1, H2, H3, H4, H5, ⟨%e6, H6⟩, ⟨%es0, HS0⟩⟩
        isplitl [Ha1 Ha2 Ha3 Ha4 Ha5 HS0 Hg]
        · isplitl [Ha1 Ha2 Ha3 Ha4 Ha5 HS0]
          swap; · iexact Hg
          isplitl [Ha1]; · iexact Ha1
          isplitl [Ha2]; · iexact Ha2
          isplitl [Ha3]; · iexact Ha3
          isplitl [Ha4]; · iexact Ha4
          isplitl [Ha5]; · iexact Ha5
          unfold owns; iexists _; isplitr
          swap; · iexact HS0
          ipureintro; exact View.read_writes_of_cover _ _ _ _ _ (scover1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t))
        isplitl [Ho]; · iexact Ho
        isplitl [H0]; · iexact H0
        isplitl [H1]; · iexact H1
        isplitl [H2]; · iexact H2
        isplitl [H3]; · iexact H3
        isplitl [H4]; · iexact H4
        isplitl [H5]; · iexists _; iexact H5
        unfold owns; iexists _; isplitr
        swap; · iexact H6
        ipureintro; exact View.read_writes_of_cover _ _ _ _ _ (cover1_A_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t))
  · by_cases h1 : t.val % 8 = 7
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t ((hcond1_1 t).mpr h1)], after1_5]
      rw [show (dat1 V c).leavesExact 6 t = owns (c : Thread nD τ) (ms1_6 t) fullShare ((dat1 V c).after 6 t) from by
        unfold Dat.leavesExact; rw [liveAt1_6 t], after1_6]
      rw [outsAt1_C V c t h0 h1]
      unfold resC yOf attOf accOf; (try dsimp only)
      by_cases hz : t.val = 0
      · exfalso; omega
      ·
        rw [PhiS_castSucc V c t, PhiS_pos V c _ _ hz]
        iintro ⟨⟨⟨Ha1, Ha2, Ha3, Ha4, Ha5, HS0⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun1_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) _).2.2.2 Set.univ _)
        isplitl [H0]; · iexact H0
        isplitl [H1]; · iexact H1
        isplitl [H2]; · iexact H2
        isplitl [H3]; · iexact H3
        isplitl [H4]; · iexact H4
        isplitl [H5]; · iexists _; iexact H5
        isplitl [H6]; · iexists _; iexact H6
        isplitl [HS0]; · iexact HS0
        iintro ⟨H0, H1, H2, H3, H4, ⟨%e5, H5⟩, ⟨%e6, H6⟩, ⟨%es0, HS0⟩⟩
        isplitl [Ha1 Ha2 Ha3 Ha4 Ha5 HS0 Hg]
        · isplitl [Ha1 Ha2 Ha3 Ha4 Ha5 HS0]
          swap; · iexact Hg
          isplitl [Ha1]; · iexact Ha1
          isplitl [Ha2]; · iexact Ha2
          isplitl [Ha3]; · iexact Ha3
          isplitl [Ha4]; · iexact Ha4
          isplitl [Ha5]; · iexact Ha5
          unfold owns; iexists _; isplitr
          swap; · iexact HS0
          ipureintro; exact View.read_writes_of_cover _ _ _ _ _ (scover1_C_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) _)
        isplitl [Ho]; · iexact Ho
        isplitl [H0]; · iexact H0
        isplitl [H1]; · iexact H1
        isplitl [H2]; · iexact H2
        isplitl [H3]; · iexact H3
        isplitl [H4]; · iexact H4
        isplitl [H5]
        · unfold owns; iexists _; isplitr
          swap; · iexact H5
          ipureintro; exact View.read_writes_of_cover _ _ _ _ _ (cover1_C_5 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) _)
        unfold owns; iexists _; isplitr
        swap; · iexact H6
        ipureintro; exact View.read_writes_of_cover _ _ _ _ _ (cover1_C_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) _)
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [Dat.leavesExact_idle (dat1 V c) 5 t (idleAt1_5 t (fun h => h1 ((hcond1_1 t).mp h))) (noFlush1_5 t (fun h => h1 ((hcond1_1 t).mp h)))]
      rw [show (dat1 V c).leavesExact 6 t = owns (c : Thread nD τ) (ms1_6 t) fullShare ((dat1 V c).after 6 t) from by
        unfold Dat.leavesExact; rw [liveAt1_6 t], after1_6]
      rw [outsAt1_B V c t h0 h1]
      unfold resB attOf accOf; (try dsimp only)
      by_cases hz : t.val = 0
      · exfalso; omega
      ·
        rw [PhiS_castSucc V c t, PhiS_pos V c _ _ hz]
        iintro ⟨⟨⟨Ha1, Ha2, Ha3, Ha4, Ha5, HS0⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) _).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [HS0]; · iexact HS0
        iintro ⟨H0, H1, H2, H3, H4, H5, ⟨%e6, H6⟩, ⟨%es0, HS0⟩⟩
        isplitl [Ha1 Ha2 Ha3 Ha4 Ha5 HS0 Hg]
        · isplitl [Ha1 Ha2 Ha3 Ha4 Ha5 HS0]
          swap; · iexact Hg
          isplitl [Ha1]; · iexact Ha1
          isplitl [Ha2]; · iexact Ha2
          isplitl [Ha3]; · iexact Ha3
          isplitl [Ha4]; · iexact Ha4
          isplitl [Ha5]; · iexact Ha5
          unfold owns; iexists _; isplitr
          swap; · iexact HS0
          ipureintro; exact View.read_writes_of_cover _ _ _ _ _ (scover1_B_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) _)
        isplitl [Ho]; · iexact Ho
        isplitl [H0]; · iexact H0
        isplitl [H1]; · iexact H1
        isplitl [H2]; · iexact H2
        isplitl [H3]; · iexact H3
        isplitl [H4]; · iexact H4
        isplitl [H5]; · iexists _; iexact H5
        unfold owns; iexists _; isplitr
        swap; · iexact H6
        ipureintro; exact View.read_writes_of_cover _ _ _ _ _ (cover1_B_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) _)

theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives the class's back: the accumulator's contents are forgotten. -/
theorem hout1 (c : Dev nD) : (dat1 V c).Φ (Fin.last cfg1.N) ⊢ Pipeline.ΦA spec1 c := by
  have ht : (Fin.last cfg1.N).val ≠ 0 := by rw [Fin.val_last]; have : cfg1.N = 64 := N_1; omega
  rw [show (dat1 V c).Φ (Fin.last cfg1.N) = PhiS V c (Fin.last cfg1.N).val (Nat.le_of_lt_succ (Fin.last cfg1.N).isLt) from rfl, PhiS_pos V c _ _ ht, PhiA1_eq]
  iintro ⟨⟨Ha1, Ha2, Ha3, Ha4, Ha5, HS0⟩, Hg⟩
  isplitl [Ha1 Ha2 Ha3 Ha4 Ha5 HS0]
  · isplitl [Ha1]; · iexact Ha1
    isplitl [Ha2]; · iexact Ha2
    isplitl [Ha3]; · iexact Ha3
    isplitl [Ha4]; · iexact Ha4
    isplitl [Ha5]; · iexact Ha5
    iexists _; iexact HS0
  iexact Hg

end Region1

end Cert.Kernel.Gen

end
-- ==== Proof.Kernel.Run.lean ====
/-
  The whole run of the kernel program at any float instance: host operations, the projection region, host
  operations, the attention region. The buffer contents at each boundary are a fold from the launch memory (a host
  stretch applies its operations; a region leaves its output arrays at what its write-backs compose to and every
  other buffer as entered). Every weakly fair execution terminates with every unscoped buffer at the last boundary's
  contents; the argument arrays are written by nothing and end as launched.
-/
import proofs.«178877_j27444841021700_2_alg».proof.Proof.Kernel.R0
import proofs.«178877_j27444841021700_2_alg».proof.Proof.Kernel.R1
import proofs.«178877_j27444841021700_2_alg».proof.Proof.Gen.Kernel.Regions
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => (s₀ m ρ).mem ((c : Dev nD), b)
abbrev W1 : Dev nD → Valuation τ sig (Elt F) := fun c => StableHlo.after hostOps0 (W0 m ρ c)
abbrev E1 : (c : Dev nD) → (b : Ref sig .tc) → Buf (Elt F) ((c : Thread nD τ).loc b) := fun c b => W1 m ρ c b
/-- After the projection region: its output array at what the four row blocks' write-backs compose to. -/
def W2 (c : Dev nD) : Valuation τ sig (Elt F) :=
  Pipeline.withArrays spec0 c (W1 m ρ c) fun w => (dat0 (E1 m ρ) c).arrAt w cfg0.N
theorem W2_arr (c : Dev nD) (w : Fin cfg0.W) :
    W2 m ρ c (Proc.devRef .tc (Pipeline.arrRef spec0 w)) = (dat0 (E1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev E2 : (c : Dev nD) → (b : Ref sig .tc) → Buf (Elt F) ((c : Thread nD τ).loc b) := fun c b => W2 m ρ c b
theorem hF0 (c : Dev nD) (w : Fin cfg0.W) : (dat0 (E1 m ρ) c).arrAt w cfg0.N = E2 m ρ c (Pipeline.arrRef spec0 w) :=
  (W2_arr m ρ c w).symm
theorem hrest0 (c : Dev nD) : ∀ b, b ∉ Finset.univ.image (Pipeline.arrRef spec0) → E2 m ρ c b = E1 m ρ c b :=
  fun b hb => W2_of_ne m ρ c b fun w e => hb (Finset.mem_image.mpr ⟨w, Finset.mem_univ _, e⟩)

abbrev W3 : Dev nD → Valuation τ sig (Elt F) := fun c => StableHlo.after hostOps1 (W2 m ρ c)
abbrev E3 : (c : Dev nD) → (b : Ref sig .tc) → Buf (Elt F) ((c : Thread nD τ).loc b) := fun c b => W3 m ρ c b
/-- After the attention region: its two output arrays at what the write-backs compose to. -/
def W4 (c : Dev nD) : Valuation τ sig (Elt F) :=
  Pipeline.withArrays spec1 c (W3 m ρ c) fun w => (dat1 (E3 m ρ) c).arrAt w cfg1.N
theorem W4_arr (c : Dev nD) (w : Fin cfg1.W) :
    W4 m ρ c (Proc.devRef .tc (Pipeline.arrRef spec1 w)) = (dat1 (E3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev E4 : (c : Dev nD) → (b : Ref sig .tc) → Buf (Elt F) ((c : Thread nD τ).loc b) := fun c b => W4 m ρ c b
theorem hF1 (c : Dev nD) (w : Fin cfg1.W) : (dat1 (E3 m ρ) c).arrAt w cfg1.N = E4 m ρ c (Pipeline.arrRef spec1 w) :=
  (W4_arr m ρ c w).symm
theorem hrest1 (c : Dev nD) : ∀ b, b ∉ Finset.univ.image (Pipeline.arrRef spec1) → E4 m ρ c b = E3 m ρ c b :=
  fun b hb => W4_of_ne m ρ c b fun w e => hb (Finset.mem_image.mpr ⟨w, Finset.mem_univ _, e⟩)

/-! The arguments end as launched: no host operation writes one and no region has one as an output. -/
theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := StableHlo.after_of_writes_sub hostOps1 _ hostOps1_writes (by decide : main_arg0 ∉ hostOps1_W)
    _ = W1 m ρ c (Proc.devRef .tc main_arg0) := W2_of_ne m ρ c main_arg0 (by decide)
    _ = W0 m ρ c (Proc.devRef .tc main_arg0) := StableHlo.after_of_writes_sub hostOps0 _ hostOps0_writes (by decide : main_arg0 ∉ hostOps0_W)
    _ = m ((c : Thread nD τ).loc main_arg0) := rfl
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := StableHlo.after_of_writes_sub hostOps1 _ hostOps1_writes (by decide : main_arg1 ∉ hostOps1_W)
    _ = W1 m ρ c (Proc.devRef .tc main_arg1) := W2_of_ne m ρ c main_arg1 (by decide)
    _ = W0 m ρ c (Proc.devRef .tc main_arg1) := StableHlo.after_of_writes_sub hostOps0 _ hostOps0_writes (by decide : main_arg1 ∉ hostOps0_W)
    _ = m ((c : Thread nD τ).loc main_arg1) := rfl
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_writes_sub hostOps1 _ hostOps1_writes (by decide : main_arg2 ∉ hostOps1_W)
    _ = W1 m ρ c (Proc.devRef .tc main_arg2) := W2_of_ne m ρ c main_arg2 (by decide)
    _ = W0 m ρ c (Proc.devRef .tc main_arg2) := StableHlo.after_of_writes_sub hostOps0 _ hostOps0_writes (by decide : main_arg2 ∉ hostOps0_W)
    _ = m ((c : Thread nD τ).loc main_arg2) := rfl
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_writes_sub hostOps1 _ hostOps1_writes (by decide : main_arg3 ∉ hostOps1_W)
    _ = W1 m ρ c (Proc.devRef .tc main_arg3) := W2_of_ne m ρ c main_arg3 (by decide)
    _ = W0 m ρ c (Proc.devRef .tc main_arg3) := StableHlo.after_of_writes_sub hostOps0 _ hostOps0_writes (by decide : main_arg3 ∉ hostOps0_W)
    _ = m ((c : Thread nD τ).loc main_arg3) := rfl

def pdats : (p : Fin 2) → (c : Dev nD) → Dat τ (Elt F) Unit ℕ (UR sig nD τ) ℕ (Pipeline.pin (pcfgs (F := F)) adm p) c
  | ⟨0, _⟩ => fun c => dat0 (E1 m ρ) c
  | ⟨1, _⟩ => fun c => dat1 (E3 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (E1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (E1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (E1 m ρ c) (E2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (E3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin1 (E3 m ρ) c
    unfold Pipeline.ΦA at h
    rw [show (pdats m ρ 1 c).Φ 0 = (dat1 (E3 m ρ) c).Φ 0 from rfl]
    iintro ⟨Hp, -, Hr⟩
    iapply h
    isplitl [Hr]; · iexact Hr
    iexact Hp
  hout c := by
    have h := hout1 (E3 m ρ) c
    unfold Pipeline.ΦA at h
    rw [Pipeline.ownSems0_none, show (pdats m ρ 1 c).Φ (Fin.last _) = (dat1 (E3 m ρ) c).Φ (Fin.last cfg1.N) from rfl]
    iintro HΦ
    ihave H := h $$ HΦ
    icases H with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (E3 m ρ c) (E4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

abbrev segsH : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segsH m ρ) := (main_chain c).trans (by chain_rfl)

set_option backward.isDefEq.respectTransparency.types false in
/-- THE RUN: every weakly fair execution terminates, nothing faulting, with every unscoped buffer of every core at
    the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segsH m ρ)
    (fun c Q => by rw [main_run m ρ c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- The frame: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c)⟩) (run_all m ρ)

end Cert.Kernel.Gen

end
-- ==== Proof.KernelIdeal.R0.lean ====
/-
  The first kernel region (the QKV projection), at any float instance: one grid point multiplies the point's
  1024 rows of the activations by the whole weight matrix and stores the 1024 x 3072 product block. Stated at a
  parameter `V`, the buffer contents when the region is entered: what each window's block is, what the body
  leaves in the output window's buffer (one store covering it), the body's triple, and the proof data.
-/
import proofs.«178877_j27444841021700_2_alg».proof.Proof.Gen.KernelIdeal.Launch
import proofs.«178877_j27444841021700_2_alg».proof.Proof.Gen.KernelIdeal.Skeleton
import proofs.«178877_j27444841021700_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S1024x1024 := Rect.unit (s := S1024x1024) ![0, 0] S1024x1024.size inb_S1024x1024_S1024x1024_0_0
abbrev r0_1 : Rect S1024x3072 := Rect.unit (s := S1024x3072) ![0, 0] S1024x3072.size inb_S1024x3072_S1024x3072_0_0

/-- The output window's buffer after the body: its one store, of the product of the two input blocks. -/
def out0_2 (x0 : Vec F S1024x1024 .bf16) (x1 : Vec F S1024x3072 .bf16) : Vec F S1024x3072 .bf16 :=
  View.canon [⟨r0_1, k0_pay1 (View.ld x0 r0_0) (View.ld x1 r0_1)⟩]

theorem cover0_2 (p0 : Vec F S1024x3072 .bf16) (y : S1024x3072.Idx) :
    ∃ pc ∈ ([⟨r0_1, p0⟩] : List (View.Piece (Elt F) S1024x3072 .bf16)), y ∈ pc.1.set :=
  View.cover_of_tiled [⟨r0_1, p0⟩] S1024x3072.size (by rfl) y

set_option maxHeartbeats 1000000 in
/-- The body on whole staging memrefs: the inputs' kept, the output's at the product block. -/
theorem sound_kernel0 (c : Dev nD) (i : grid0.Coords) (E : Set ℕ) (arg1 : Memref sig .tc .vmem S1024x1024 .bf16) (harg1 : arg1.IsWhole) (arg2 : Memref sig .tc .vmem S1024x3072 .bf16) (harg2 : arg2.IsWhole)
    (arg3 : Memref sig .tc .vmem S1024x3072 .bf16) (harg3 : arg3.IsWhole)
    (x0 : Vec F S1024x1024 .bf16) (x1 : Vec F S1024x3072 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__qkv_proj_kernel i arg1 harg1 arg2 harg2 arg3 harg3) K := by
  simp only [cc0__qkv_proj_kernel_eq_skeleton]; unfold cc0__qkv_proj_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of the first pipeline on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c _ Set.univ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Region0

end Cert.KernelIdeal.Gen

end
-- ==== Proof.KernelIdeal.R1Runs.lean ====
/-
  The second kernel region (attention for one pair of heads and the output projection accumulated over the eight
  head pairs), at any float instance: what the three control cases of its body share. The body zeroes the carried
  accumulator at the first head pair of a row block, adds the pair's projected output at every pair, and stores
  accumulator plus bias into the result block at the last pair. The two conditions are decided over the grid in
  closed form (the head-pair coordinate is the point's number mod 8).
-/
import proofs.«178877_j27444841021700_2_alg».proof.Proof.Gen.KernelIdeal.Launch
import proofs.«178877_j27444841021700_2_alg».proof.Proof.Gen.KernelIdeal.Skeleton
import proofs.«178877_j27444841021700_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

end Region1

/-- The first head pair of a row block: the accumulator is zeroed. -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)
/-- The last head pair: the result block is stored. -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_6 : ∀ t : Fin cfg1.N, cfg1.idle 6 (grid1.coords t) = false := by decide +kernel
theorem idleAt1_5 : ∀ t : Fin cfg1.N, ¬cond1_1 (grid1.coords t) → cfg1.idle 5 (grid1.coords t) = true := by decide +kernel
theorem noFlush1_5 : ∀ t : Fin cfg1.N, ¬cond1_1 (grid1.coords t) → (cfg1.win 5).flush t = false := by decide +kernel
theorem liveAt1_5 : ∀ t : Fin cfg1.N, cond1_1 (grid1.coords t) → cfg1.idle 5 (grid1.coords t) = false := by decide +kernel

/-- One staging buffer of each output window, through which its contents are stated. -/
abbrev VO1_5 : View sig .tc .vmem S1x512x1024 .f32 := (Memref.whole cc1_stg5_0 : Memref sig .tc .vmem S1x512x1024 .f32).view
abbrev VO1_6 : View sig .tc .vmem S1x2x512x2048 .f32 := (Memref.whole cc1_stg6_0 : Memref sig .tc .vmem S1x2x512x2048 .f32).view
abbrev ms1_0 (t : Fin cfg1.N) : Memref sig .tc .vmem S1x512x128 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x2048x128 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x2048x128 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S128x1024 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1024 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x512x1024 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x2x512x2048 .f32 := win1_6.stage (cfg1.slots t 6)
abbrev hs1_6 (t : Fin cfg1.N) : (ms1_6 t).IsWhole := hstage1_6 ((cfg1.slots t 6).cast nbuf1_6)
/-- The accumulator the kernel carries between points. -/
abbrev scM1_0 : Memref sig .tc .vmem S512x1024 .f32 := Memref.whole cc1_scratch0
abbrev VS1_0 : View sig .tc .vmem S512x1024 .f32 := scM1_0.view

/-- The class invariant with the accumulator as a memref owned at some contents. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ d, owns (c : Thread nD τ) scM1_0 fullShare d)) ∗ (∃ r, prngReg c r)) := by
  unfold Pipeline.ΦA; rw [scopedRest1_eq]; simp only [scM1_0, owns_whole]; try rfl

end Cert.KernelIdeal.Gen

end
-- ==== Proof.KernelIdeal.R1RunA.lean ====
/-
  The body of the second region at the first head pair of a row block (the accumulator zeroed, then the pair's contribution added; the result block untouched): its triple on whole staging memrefs, the pieces each written buffer ends with found by the run.
-/
import proofs.«178877_j27444841021700_2_alg».proof.Proof.KernelIdeal.R1Runs
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_A (c : Dev nD) (i : grid1.Coords) (arg3 : Memref sig .tc .vmem S1x512x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S128x1024 .bf16) (harg6 : arg6.IsWhole) (arg7 : Memref sig .tc .vmem S1x1024 .f32) (harg7 : arg7.IsWhole) (arg8 : Memref sig .tc .vmem S1x512x1024 .f32) (harg8 : arg8.IsWhole) (arg9 : Memref sig .tc .vmem S1x2x512x2048 .f32) (harg9 : arg9.IsWhole) (arg10 : Memref sig .tc .vmem S512x1024 .f32) (harg10 : arg10.IsWhole) (hc0 : cond1_0 i) (hc1 : ¬cond1_1 i)
    (x0 : Vec F S1x512x128 .bf16) (x1 : Vec F S1x2048x128 .bf16) (x2 : Vec F S1x2048x128 .bf16) (x3 : Vec F S128x1024 .bf16) (x4 : Vec F S1x1024 .f32) :
    Σ' (L6 : List (View.Piece (Elt F) S1x2x512x2048 .f32)), { LS0 : List (View.Piece (Elt F) S512x1024 .f32) //
      ∀ (xi5 : Vec F S1x512x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ d, owns (c : Thread nD τ) arg9 fullShare d) ∗ (∃ d, owns (c : Thread nD τ) arg10 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ f, arg9.view.loc (c : Thread nD τ) ↦[arg9.view.set]{fullShare} arg9.view.writes (Elt F) f L6) ∗ (∃ f, arg10.view.loc (c : Thread nD τ) ↦[arg10.view.set]{fullShare} arg10.view.writes (Elt F) f LS0)) -∗ K ⟨⟩))
          ⊢ wp frame (wpE (defs₀ (F := F)) Variants.none c none) E (cc1__attn_outproj_kernel i arg3 harg3 arg4 harg4 arg5 harg5 arg6 harg6 arg7 harg7 arg8 harg8 arg9 harg9 arg10 harg10) K } := by
  refine ⟨?_, ?_, fun xi5 E K => ?run⟩
  case run =>
    simp only [cc1__attn_outproj_kernel_eq_skeleton]; unfold cc1__attn_outproj_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]; · iexists _; iexact H6
    iexists _; iexact HS0

end Cert.KernelIdeal.Gen

end
-- ==== Proof.KernelIdeal.R1RunB.lean ====
/-
  The body of the second region at a middle head pair (the pair's contribution added to the carried accumulator; the result block untouched).
-/
import proofs.«178877_j27444841021700_2_alg».proof.Proof.KernelIdeal.R1RunA
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_B (c : Dev nD) (i : grid1.Coords) (arg3 : Memref sig .tc .vmem S1x512x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S128x1024 .bf16) (harg6 : arg6.IsWhole) (arg7 : Memref sig .tc .vmem S1x1024 .f32) (harg7 : arg7.IsWhole) (arg8 : Memref sig .tc .vmem S1x512x1024 .f32) (harg8 : arg8.IsWhole) (arg9 : Memref sig .tc .vmem S1x2x512x2048 .f32) (harg9 : arg9.IsWhole) (arg10 : Memref sig .tc .vmem S512x1024 .f32) (harg10 : arg10.IsWhole) (hc0 : ¬cond1_0 i) (hc1 : ¬cond1_1 i)
    (x0 : Vec F S1x512x128 .bf16) (x1 : Vec F S1x2048x128 .bf16) (x2 : Vec F S1x2048x128 .bf16) (x3 : Vec F S128x1024 .bf16) (x4 : Vec F S1x1024 .f32) (xs0 : Vec F S512x1024 .f32) :
    Σ' (L6 : List (View.Piece (Elt F) S1x2x512x2048 .f32)), { LS0 : List (View.Piece (Elt F) S512x1024 .f32) //
      ∀ (xi5 : Vec F S1x512x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ d, owns (c : Thread nD τ) arg9 fullShare d) ∗ owns (c : Thread nD τ) arg10 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ f, arg9.view.loc (c : Thread nD τ) ↦[arg9.view.set]{fullShare} arg9.view.writes (Elt F) f L6) ∗ (∃ f, arg10.view.loc (c : Thread nD τ) ↦[arg10.view.set]{fullShare} arg10.view.writes (Elt F) f LS0)) -∗ K ⟨⟩))
          ⊢ wp frame (wpE (defs₀ (F := F)) Variants.none c none) E (cc1__attn_outproj_kernel i arg3 harg3 arg4 harg4 arg5 harg5 arg6 harg6 arg7 harg7 arg8 harg8 arg9 harg9 arg10 harg10) K } := by
  refine ⟨?_, ?_, fun xi5 E K => ?run⟩
  case run =>
    simp only [cc1__attn_outproj_kernel_eq_skeleton]; unfold cc1__attn_outproj_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg10.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]; · iexists _; iexact H6
    iexists _; iexact HS0

end Cert.KernelIdeal.Gen

end
-- ==== Proof.KernelIdeal.R1RunC.lean ====
/-
  The body of the second region at the last head pair (the pair's contribution added, then accumulator plus bias stored into the result block).
-/
import proofs.«178877_j27444841021700_2_alg».proof.Proof.KernelIdeal.R1RunB
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_C (c : Dev nD) (i : grid1.Coords) (arg3 : Memref sig .tc .vmem S1x512x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S128x1024 .bf16) (harg6 : arg6.IsWhole) (arg7 : Memref sig .tc .vmem S1x1024 .f32) (harg7 : arg7.IsWhole) (arg8 : Memref sig .tc .vmem S1x512x1024 .f32) (harg8 : arg8.IsWhole) (arg9 : Memref sig .tc .vmem S1x2x512x2048 .f32) (harg9 : arg9.IsWhole) (arg10 : Memref sig .tc .vmem S512x1024 .f32) (harg10 : arg10.IsWhole) (hc0 : ¬cond1_0 i) (hc1 : cond1_1 i)
    (x0 : Vec F S1x512x128 .bf16) (x1 : Vec F S1x2048x128 .bf16) (x2 : Vec F S1x2048x128 .bf16) (x3 : Vec F S128x1024 .bf16) (x4 : Vec F S1x1024 .f32) (xs0 : Vec F S512x1024 .f32) :
    Σ' (L5 : List (View.Piece (Elt F) S1x512x1024 .f32)), Σ' (L6 : List (View.Piece (Elt F) S1x2x512x2048 .f32)), { LS0 : List (View.Piece (Elt F) S512x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ (∃ d, owns (c : Thread nD τ) arg9 fullShare d) ∗ owns (c : Thread nD τ) arg10 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f L6) ∗ (∃ f, arg10.view.loc (c : Thread nD τ) ↦[arg10.view.set]{fullShare} arg10.view.writes (Elt F) f LS0)) -∗ K ⟨⟩))
          ⊢ wp frame (wpE (defs₀ (F := F)) Variants.none c none) E (cc1__attn_outproj_kernel i arg3 harg3 arg4 harg4 arg5 harg5 arg6 harg6 arg7 harg7 arg8 harg8 arg9 harg9 arg10 harg10) K } := by
  refine ⟨?_, ?_, ?_, fun E K => ?run⟩
  case run =>
    simp only [cc1__attn_outproj_kernel_eq_skeleton]; unfold cc1__attn_outproj_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg10.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    isplitl [H6]; · iexists _; iexact H6
    iexists _; iexact HS0

end Cert.KernelIdeal.Gen

end
-- ==== Proof.KernelIdeal.R1.lean ====
/-
  The second kernel region's proof data: what its two output windows' staging buffers and the carried accumulator
  hold after each grid point, by recursion on the point (a point that is not the first of its row block starts from
  what the point before left in the accumulator), the invariant that carries the accumulator from point to point,
  and the body obligation by cases on the head-pair coordinate.
-/
import proofs.«178877_j27444841021700_2_alg».proof.Proof.KernelIdeal.R1RunC
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem cover1_A_6 (c : Dev nD) (i : grid1.Coords) (arg3 : Memref sig .tc .vmem S1x512x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S128x1024 .bf16) (harg6 : arg6.IsWhole) (arg7 : Memref sig .tc .vmem S1x1024 .f32) (harg7 : arg7.IsWhole) (arg8 : Memref sig .tc .vmem S1x512x1024 .f32) (harg8 : arg8.IsWhole) (arg9 : Memref sig .tc .vmem S1x2x512x2048 .f32) (harg9 : arg9.IsWhole) (arg10 : Memref sig .tc .vmem S512x1024 .f32) (harg10 : arg10.IsWhole) (hc0 : cond1_0 i) (hc1 : ¬cond1_1 i)
    (x0 : Vec F S1x512x128 .bf16) (x1 : Vec F S1x2048x128 .bf16) (x2 : Vec F S1x2048x128 .bf16) (x3 : Vec F S128x1024 .bf16) (x4 : Vec F S1x1024 .f32) (y : S1x2x512x2048.Idx) :
    ∃ pc ∈ (kernelRun1_A c i arg3 harg3 arg4 harg4 arg5 harg5 arg6 harg6 arg7 harg7 arg8 harg8 arg9 harg9 arg10 harg10 hc0 hc1 x0 x1 x2 x3 x4).1, y ∈ pc.1.set :=
  View.cover_of_tiledL (kernelRun1_A c i arg3 harg3 arg4 harg4 arg5 harg5 arg6 harg6 arg7 harg7 arg8 harg8 arg9 harg9 arg10 harg10 hc0 hc1 x0 x1 x2 x3 x4).1 S1x1x512x2048.size (by sl_kernel_rfl) y
theorem scover1_A_0 (c : Dev nD) (i : grid1.Coords) (arg3 : Memref sig .tc .vmem S1x512x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S128x1024 .bf16) (harg6 : arg6.IsWhole) (arg7 : Memref sig .tc .vmem S1x1024 .f32) (harg7 : arg7.IsWhole) (arg8 : Memref sig .tc .vmem S1x512x1024 .f32) (harg8 : arg8.IsWhole) (arg9 : Memref sig .tc .vmem S1x2x512x2048 .f32) (harg9 : arg9.IsWhole) (arg10 : Memref sig .tc .vmem S512x1024 .f32) (harg10 : arg10.IsWhole) (hc0 : cond1_0 i) (hc1 : ¬cond1_1 i)
    (x0 : Vec F S1x512x128 .bf16) (x1 : Vec F S1x2048x128 .bf16) (x2 : Vec F S1x2048x128 .bf16) (x3 : Vec F S128x1024 .bf16) (x4 : Vec F S1x1024 .f32) (y : S512x1024.Idx) :
    ∃ pc ∈ (kernelRun1_A c i arg3 harg3 arg4 harg4 arg5 harg5 arg6 harg6 arg7 harg7 arg8 harg8 arg9 harg9 arg10 harg10 hc0 hc1 x0 x1 x2 x3 x4).2.1, y ∈ pc.1.set :=
  View.cover_of_tiledL (kernelRun1_A c i arg3 harg3 arg4 harg4 arg5 harg5 arg6 harg6 arg7 harg7 arg8 harg8 arg9 harg9 arg10 harg10 hc0 hc1 x0 x1 x2 x3 x4).2.1 S512x1024.size (by sl_kernel_rfl) y
theorem cover1_B_6 (c : Dev nD) (i : grid1.Coords) (arg3 : Memref sig .tc .vmem S1x512x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S128x1024 .bf16) (harg6 : arg6.IsWhole) (arg7 : Memref sig .tc .vmem S1x1024 .f32) (harg7 : arg7.IsWhole) (arg8 : Memref sig .tc .vmem S1x512x1024 .f32) (harg8 : arg8.IsWhole) (arg9 : Memref sig .tc .vmem S1x2x512x2048 .f32) (harg9 : arg9.IsWhole) (arg10 : Memref sig .tc .vmem S512x1024 .f32) (harg10 : arg10.IsWhole) (hc0 : ¬cond1_0 i) (hc1 : ¬cond1_1 i)
    (x0 : Vec F S1x512x128 .bf16) (x1 : Vec F S1x2048x128 .bf16) (x2 : Vec F S1x2048x128 .bf16) (x3 : Vec F S128x1024 .bf16) (x4 : Vec F S1x1024 .f32) (xs0 : Vec F S512x1024 .f32) (y : S1x2x512x2048.Idx) :
    ∃ pc ∈ (kernelRun1_B c i arg3 harg3 arg4 harg4 arg5 harg5 arg6 harg6 arg7 harg7 arg8 harg8 arg9 harg9 arg10 harg10 hc0 hc1 x0 x1 x2 x3 x4 xs0).1, y ∈ pc.1.set :=
  View.cover_of_tiledL (kernelRun1_B c i arg3 harg3 arg4 harg4 arg5 harg5 arg6 harg6 arg7 harg7 arg8 harg8 arg9 harg9 arg10 harg10 hc0 hc1 x0 x1 x2 x3 x4 xs0).1 S1x1x512x2048.size (by sl_kernel_rfl) y
theorem scover1_B_0 (c : Dev nD) (i : grid1.Coords) (arg3 : Memref sig .tc .vmem S1x512x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S128x1024 .bf16) (harg6 : arg6.IsWhole) (arg7 : Memref sig .tc .vmem S1x1024 .f32) (harg7 : arg7.IsWhole) (arg8 : Memref sig .tc .vmem S1x512x1024 .f32) (harg8 : arg8.IsWhole) (arg9 : Memref sig .tc .vmem S1x2x512x2048 .f32) (harg9 : arg9.IsWhole) (arg10 : Memref sig .tc .vmem S512x1024 .f32) (harg10 : arg10.IsWhole) (hc0 : ¬cond1_0 i) (hc1 : ¬cond1_1 i)
    (x0 : Vec F S1x512x128 .bf16) (x1 : Vec F S1x2048x128 .bf16) (x2 : Vec F S1x2048x128 .bf16) (x3 : Vec F S128x1024 .bf16) (x4 : Vec F S1x1024 .f32) (xs0 : Vec F S512x1024 .f32) (y : S512x1024.Idx) :
    ∃ pc ∈ (kernelRun1_B c i arg3 harg3 arg4 harg4 arg5 harg5 arg6 harg6 arg7 harg7 arg8 harg8 arg9 harg9 arg10 harg10 hc0 hc1 x0 x1 x2 x3 x4 xs0).2.1, y ∈ pc.1.set :=
  View.cover_of_tiledL (kernelRun1_B c i arg3 harg3 arg4 harg4 arg5 harg5 arg6 harg6 arg7 harg7 arg8 harg8 arg9 harg9 arg10 harg10 hc0 hc1 x0 x1 x2 x3 x4 xs0).2.1 S512x1024.size (by sl_kernel_rfl) y
theorem cover1_C_5 (c : Dev nD) (i : grid1.Coords) (arg3 : Memref sig .tc .vmem S1x512x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S128x1024 .bf16) (harg6 : arg6.IsWhole) (arg7 : Memref sig .tc .vmem S1x1024 .f32) (harg7 : arg7.IsWhole) (arg8 : Memref sig .tc .vmem S1x512x1024 .f32) (harg8 : arg8.IsWhole) (arg9 : Memref sig .tc .vmem S1x2x512x2048 .f32) (harg9 : arg9.IsWhole) (arg10 : Memref sig .tc .vmem S512x1024 .f32) (harg10 : arg10.IsWhole) (hc0 : ¬cond1_0 i) (hc1 : cond1_1 i)
    (x0 : Vec F S1x512x128 .bf16) (x1 : Vec F S1x2048x128 .bf16) (x2 : Vec F S1x2048x128 .bf16) (x3 : Vec F S128x1024 .bf16) (x4 : Vec F S1x1024 .f32) (xs0 : Vec F S512x1024 .f32) (y : S1x512x1024.Idx) :
    ∃ pc ∈ (kernelRun1_C c i arg3 harg3 arg4 harg4 arg5 harg5 arg6 harg6 arg7 harg7 arg8 harg8 arg9 harg9 arg10 harg10 hc0 hc1 x0 x1 x2 x3 x4 xs0).1, y ∈ pc.1.set :=
  View.cover_of_tiledL (kernelRun1_C c i arg3 harg3 arg4 harg4 arg5 harg5 arg6 harg6 arg7 harg7 arg8 harg8 arg9 harg9 arg10 harg10 hc0 hc1 x0 x1 x2 x3 x4 xs0).1 S1x512x1024.size (by sl_kernel_rfl) y
theorem cover1_C_6 (c : Dev nD) (i : grid1.Coords) (arg3 : Memref sig .tc .vmem S1x512x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S128x1024 .bf16) (harg6 : arg6.IsWhole) (arg7 : Memref sig .tc .vmem S1x1024 .f32) (harg7 : arg7.IsWhole) (arg8 : Memref sig .tc .vmem S1x512x1024 .f32) (harg8 : arg8.IsWhole) (arg9 : Memref sig .tc .vmem S1x2x512x2048 .f32) (harg9 : arg9.IsWhole) (arg10 : Memref sig .tc .vmem S512x1024 .f32) (harg10 : arg10.IsWhole) (hc0 : ¬cond1_0 i) (hc1 : cond1_1 i)
    (x0 : Vec F S1x512x128 .bf16) (x1 : Vec F S1x2048x128 .bf16) (x2 : Vec F S1x2048x128 .bf16) (x3 : Vec F S128x1024 .bf16) (x4 : Vec F S1x1024 .f32) (xs0 : Vec F S512x1024 .f32) (y : S1x2x512x2048.Idx) :
    ∃ pc ∈ (kernelRun1_C c i arg3 harg3 arg4 harg4 arg5 harg5 arg6 harg6 arg7 harg7 arg8 harg8 arg9 harg9 arg10 harg10 hc0 hc1 x0 x1 x2 x3 x4 xs0).2.1, y ∈ pc.1.set :=
  View.cover_of_tiledL (kernelRun1_C c i arg3 harg3 arg4 harg4 arg5 harg5 arg6 harg6 arg7 harg7 arg8 harg8 arg9 harg9 arg10 harg10 hc0 hc1 x0 x1 x2 x3 x4 xs0).2.1 S1x1x512x2048.size (by sl_kernel_rfl) y
theorem scover1_C_0 (c : Dev nD) (i : grid1.Coords) (arg3 : Memref sig .tc .vmem S1x512x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S128x1024 .bf16) (harg6 : arg6.IsWhole) (arg7 : Memref sig .tc .vmem S1x1024 .f32) (harg7 : arg7.IsWhole) (arg8 : Memref sig .tc .vmem S1x512x1024 .f32) (harg8 : arg8.IsWhole) (arg9 : Memref sig .tc .vmem S1x2x512x2048 .f32) (harg9 : arg9.IsWhole) (arg10 : Memref sig .tc .vmem S512x1024 .f32) (harg10 : arg10.IsWhole) (hc0 : ¬cond1_0 i) (hc1 : cond1_1 i)
    (x0 : Vec F S1x512x128 .bf16) (x1 : Vec F S1x2048x128 .bf16) (x2 : Vec F S1x2048x128 .bf16) (x3 : Vec F S128x1024 .bf16) (x4 : Vec F S1x1024 .f32) (xs0 : Vec F S512x1024 .f32) (y : S512x1024.Idx) :
    ∃ pc ∈ (kernelRun1_C c i arg3 harg3 arg4 harg4 arg5 harg5 arg6 harg6 arg7 harg7 arg8 harg8 arg9 harg9 arg10 harg10 hc0 hc1 x0 x1 x2 x3 x4 xs0).2.2.1, y ∈ pc.1.set :=
  View.cover_of_tiledL (kernelRun1_C c i arg3 harg3 arg4 harg4 arg5 harg5 arg6 harg6 arg7 harg7 arg8 harg8 arg9 harg9 arg10 harg10 hc0 hc1 x0 x1 x2 x3 x4 xs0).2.2.1 S512x1024.size (by sl_kernel_rfl) y

section Region1
variable (V : (c : Dev nD) → (b : Ref sig .tc) → Buf (Elt F) ((c : Thread nD τ).loc b))

/-- What a list of pieces leaves in each written buffer, read back over unspecified contents. -/
def yOf (L : List (View.Piece (Elt F) S1x512x1024 .f32)) : Vec F S1x512x1024 .f32 := VO1_5.read (Elt F) (VO1_5.writes (Elt F) VO1_5.junk L)
def attOf (L : List (View.Piece (Elt F) S1x2x512x2048 .f32)) : Vec F S1x2x512x2048 .f32 := VO1_6.read (Elt F) (VO1_6.writes (Elt F) VO1_6.junk L)
def accOf (L : List (View.Piece (Elt F) S512x1024 .f32)) : Vec F S512x1024 .f32 := VS1_0.read (Elt F) (VS1_0.writes (Elt F) VS1_0.junk L)

/-- The result block, the attention block and the accumulator after a point of each case. -/
def resA (c : Dev nD) (t : Fin cfg1.N) (h0 : t.val % 8 = 0) (h1 : ¬t.val % 8 = 7) : Vec F S1x512x1024 .f32 × Vec F S1x2x512x2048 .f32 × Vec F S512x1024 .f32 :=
  (yOf [], attOf (kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t)).1, accOf (kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t)).2.1)
def resB (c : Dev nD) (t : Fin cfg1.N) (h0 : ¬t.val % 8 = 0) (h1 : ¬t.val % 8 = 7) (xs : Vec F S512x1024 .f32) : Vec F S1x512x1024 .f32 × Vec F S1x2x512x2048 .f32 × Vec F S512x1024 .f32 :=
  (yOf [], attOf (kernelRun1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) xs).1, accOf (kernelRun1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) xs).2.1)
def resC (c : Dev nD) (t : Fin cfg1.N) (h0 : ¬t.val % 8 = 0) (h1 : t.val % 8 = 7) (xs : Vec F S512x1024 .f32) : Vec F S1x512x1024 .f32 × Vec F S1x2x512x2048 .f32 × Vec F S512x1024 .f32 :=
  (yOf (kernelRun1_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) xs).1, attOf (kernelRun1_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) xs).2.1, accOf (kernelRun1_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) xs).2.2.1)

/-- THE ACCUMULATION over the grid points. -/
def outsAt1 (c : Dev nD) : (n : ℕ) → n < cfg1.N → Vec F S1x512x1024 .f32 × Vec F S1x2x512x2048 .f32 × Vec F S512x1024 .f32
  | 0, hn => resA V c ⟨0, hn⟩ (Nat.zero_mod _) (by show ¬ (0 % 8 = 7); decide)
  | n + 1, hn =>
    if h0 : (n + 1) % 8 = 0 then
      if h1 : (n + 1) % 8 = 7 then False.elim (by omega)
      else resA V c ⟨n + 1, hn⟩ h0 h1
    else
      if h1 : (n + 1) % 8 = 7 then resC V c ⟨n + 1, hn⟩ h0 h1 (outsAt1 c n (Nat.lt_of_succ_lt hn)).2.2
      else resB V c ⟨n + 1, hn⟩ h0 h1 (outsAt1 c n (Nat.lt_of_succ_lt hn)).2.2

theorem outsAt1_A (c : Dev nD) (t : Fin cfg1.N) (h0 : t.val % 8 = 0) (h1 : ¬t.val % 8 = 7) :
    outsAt1 V c t.val t.isLt = resA V c t h0 h1 := by
  obtain ⟨n, hn⟩ := t
  cases n with
  | zero => exact rfl
  | succ n => exact (dif_pos h0).trans ((dif_neg h1).trans rfl)
theorem outsAt1_B (c : Dev nD) (t : Fin cfg1.N) (h0 : ¬t.val % 8 = 0) (h1 : ¬t.val % 8 = 7) :
    outsAt1 V c t.val t.isLt = resB V c t h0 h1 (outsAt1 V c (t.val - 1) (Nat.lt_of_le_of_lt (Nat.sub_le _ _) t.isLt)).2.2 := by
  obtain ⟨n, hn⟩ := t
  cases n with
  | zero => exact (by exfalso; (try dsimp only at h0); exact absurd (Nat.zero_mod _) h0)
  | succ n => exact (dif_neg h0).trans ((dif_neg h1).trans rfl)
theorem outsAt1_C (c : Dev nD) (t : Fin cfg1.N) (h0 : ¬t.val % 8 = 0) (h1 : t.val % 8 = 7) :
    outsAt1 V c t.val t.isLt = resC V c t h0 h1 (outsAt1 V c (t.val - 1) (Nat.lt_of_le_of_lt (Nat.sub_le _ _) t.isLt)).2.2 := by
  obtain ⟨n, hn⟩ := t
  cases n with
  | zero => exact (by exfalso; (try dsimp only at h0); exact absurd (Nat.zero_mod _) h0)
  | succ n => exact (dif_neg h0).trans ((dif_pos h1).trans rfl)

/-- The region invariant before position `n`: the class's before the first point; afterwards the scoped rest with
    the accumulator at what the point before left in it, and the generator register at some state. -/
def PhiS (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ owns (c : Thread nD τ) scM1_0 fullShare ((outsAt1 V c n hn).2.2)) ∗ (∃ r, prngReg c r))

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ owns (c : Thread nD τ) scM1_0 fullShare ((outsAt1 V c n hn).2.2)) ∗ (∃ r, prngReg c r)) := rfl
theorem PhiS_pos (c : Dev nD) (n : ℕ) (h : n ≤ cfg1.N) (hz : n ≠ 0) :
    PhiS V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ owns (c : Thread nD τ) scM1_0 fullShare ((outsAt1 V c (n - 1) (by omega)).2.2)) ∗ (∃ r, prngReg c r)) := by
  cases n with
  | zero => exact absurd rfl hz
  | succ n => rfl

/-- The proof data of the second pipeline on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t.val t.isLt).1
    | ⟨6, _⟩ => (outsAt1 V c t.val t.isLt).2.1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS_castSucc (c : Dev nD) (t : Fin cfg1.N) :
    (dat1 V c).Φ t.castSucc = PhiS V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = (outsAt1 V c t.val t.isLt).1 := by dsimp only [dat1]
theorem after1_6 (c : Dev nD) (t : Fin cfg1.N) : (dat1 V c).after 6 t = (outsAt1 V c t.val t.isLt).2.1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

set_option maxHeartbeats 8000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS V c (t.val + 1) t.isLt from rfl, PhiS_succ]
  have hN : t.val < 64 := lt_of_lt_of_eq t.isLt (show cfg1.N = 64 from N_1)
  by_cases h0 : t.val % 8 = 0
  · by_cases h1 : t.val % 8 = 7
    · exfalso; omega
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [Dat.leavesExact_idle (dat1 V c) 5 t (idleAt1_5 t (fun h => h1 ((hcond1_1 t).mp h))) (noFlush1_5 t (fun h => h1 ((hcond1_1 t).mp h)))]
      rw [show (dat1 V c).leavesExact 6 t = owns (c : Thread nD τ) (ms1_6 t) fullShare ((dat1 V c).after 6 t) from by
        unfold Dat.leavesExact; rw [liveAt1_6 t], after1_6]
      rw [outsAt1_A V c t h0 h1]
      unfold resA attOf accOf; (try dsimp only)
      by_cases hz : t.val = 0
      ·
        rw [PhiS_castSucc V c t, PhiS_zero V c _ _ hz, PhiA1_eq]
        iintro ⟨⟨⟨Ha1, Ha2, Ha3, Ha4, Ha5, HS0⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [HS0]; · iexact HS0
        iintro ⟨H0, H1, H2, H3, H4, H5, ⟨%e6, H6⟩, ⟨%es0, HS0⟩⟩
        isplitl [Ha1 Ha2 Ha3 Ha4 Ha5 HS0 Hg]
        · isplitl [Ha1 Ha2 Ha3 Ha4 Ha5 HS0]
          swap; · iexact Hg
          isplitl [Ha1]; · iexact Ha1
          isplitl [Ha2]; · iexact Ha2
          isplitl [Ha3]; · iexact Ha3
          isplitl [Ha4]; · iexact Ha4
          isplitl [Ha5]; · iexact Ha5
          unfold owns; iexists _; isplitr
          swap; · iexact HS0
          ipureintro; exact View.read_writes_of_cover _ _ _ _ _ (scover1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t))
        isplitl [Ho]; · iexact Ho
        isplitl [H0]; · iexact H0
        isplitl [H1]; · iexact H1
        isplitl [H2]; · iexact H2
        isplitl [H3]; · iexact H3
        isplitl [H4]; · iexact H4
        isplitl [H5]; · iexists _; iexact H5
        unfold owns; iexists _; isplitr
        swap; · iexact H6
        ipureintro; exact View.read_writes_of_cover _ _ _ _ _ (cover1_A_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t))
      ·
        rw [PhiS_castSucc V c t, PhiS_pos V c _ _ hz]
        iintro ⟨⟨⟨Ha1, Ha2, Ha3, Ha4, Ha5, HS0⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [HS0]; · iexists _; iexact HS0
        iintro ⟨H0, H1, H2, H3, H4, H5, ⟨%e6, H6⟩, ⟨%es0, HS0⟩⟩
        isplitl [Ha1 Ha2 Ha3 Ha4 Ha5 HS0 Hg]
        · isplitl [Ha1 Ha2 Ha3 Ha4 Ha5 HS0]
          swap; · iexact Hg
          isplitl [Ha1]; · iexact Ha1
          isplitl [Ha2]; · iexact Ha2
          isplitl [Ha3]; · iexact Ha3
          isplitl [Ha4]; · iexact Ha4
          isplitl [Ha5]; · iexact Ha5
          unfold owns; iexists _; isplitr
          swap; · iexact HS0
          ipureintro; exact View.read_writes_of_cover _ _ _ _ _ (scover1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t))
        isplitl [Ho]; · iexact Ho
        isplitl [H0]; · iexact H0
        isplitl [H1]; · iexact H1
        isplitl [H2]; · iexact H2
        isplitl [H3]; · iexact H3
        isplitl [H4]; · iexact H4
        isplitl [H5]; · iexists _; iexact H5
        unfold owns; iexists _; isplitr
        swap; · iexact H6
        ipureintro; exact View.read_writes_of_cover _ _ _ _ _ (cover1_A_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t))
  · by_cases h1 : t.val % 8 = 7
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t ((hcond1_1 t).mpr h1)], after1_5]
      rw [show (dat1 V c).leavesExact 6 t = owns (c : Thread nD τ) (ms1_6 t) fullShare ((dat1 V c).after 6 t) from by
        unfold Dat.leavesExact; rw [liveAt1_6 t], after1_6]
      rw [outsAt1_C V c t h0 h1]
      unfold resC yOf attOf accOf; (try dsimp only)
      by_cases hz : t.val = 0
      · exfalso; omega
      ·
        rw [PhiS_castSucc V c t, PhiS_pos V c _ _ hz]
        iintro ⟨⟨⟨Ha1, Ha2, Ha3, Ha4, Ha5, HS0⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun1_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) _).2.2.2 Set.univ _)
        isplitl [H0]; · iexact H0
        isplitl [H1]; · iexact H1
        isplitl [H2]; · iexact H2
        isplitl [H3]; · iexact H3
        isplitl [H4]; · iexact H4
        isplitl [H5]; · iexists _; iexact H5
        isplitl [H6]; · iexists _; iexact H6
        isplitl [HS0]; · iexact HS0
        iintro ⟨H0, H1, H2, H3, H4, ⟨%e5, H5⟩, ⟨%e6, H6⟩, ⟨%es0, HS0⟩⟩
        isplitl [Ha1 Ha2 Ha3 Ha4 Ha5 HS0 Hg]
        · isplitl [Ha1 Ha2 Ha3 Ha4 Ha5 HS0]
          swap; · iexact Hg
          isplitl [Ha1]; · iexact Ha1
          isplitl [Ha2]; · iexact Ha2
          isplitl [Ha3]; · iexact Ha3
          isplitl [Ha4]; · iexact Ha4
          isplitl [Ha5]; · iexact Ha5
          unfold owns; iexists _; isplitr
          swap; · iexact HS0
          ipureintro; exact View.read_writes_of_cover _ _ _ _ _ (scover1_C_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) _)
        isplitl [Ho]; · iexact Ho
        isplitl [H0]; · iexact H0
        isplitl [H1]; · iexact H1
        isplitl [H2]; · iexact H2
        isplitl [H3]; · iexact H3
        isplitl [H4]; · iexact H4
        isplitl [H5]
        · unfold owns; iexists _; isplitr
          swap; · iexact H5
          ipureintro; exact View.read_writes_of_cover _ _ _ _ _ (cover1_C_5 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) _)
        unfold owns; iexists _; isplitr
        swap; · iexact H6
        ipureintro; exact View.read_writes_of_cover _ _ _ _ _ (cover1_C_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) _)
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [Dat.leavesExact_idle (dat1 V c) 5 t (idleAt1_5 t (fun h => h1 ((hcond1_1 t).mp h))) (noFlush1_5 t (fun h => h1 ((hcond1_1 t).mp h)))]
      rw [show (dat1 V c).leavesExact 6 t = owns (c : Thread nD τ) (ms1_6 t) fullShare ((dat1 V c).after 6 t) from by
        unfold Dat.leavesExact; rw [liveAt1_6 t], after1_6]
      rw [outsAt1_B V c t h0 h1]
      unfold resB attOf accOf; (try dsimp only)
      by_cases hz : t.val = 0
      · exfalso; omega
      ·
        rw [PhiS_castSucc V c t, PhiS_pos V c _ _ hz]
        iintro ⟨⟨⟨Ha1, Ha2, Ha3, Ha4, Ha5, HS0⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) _).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [HS0]; · iexact HS0
        iintro ⟨H0, H1, H2, H3, H4, H5, ⟨%e6, H6⟩, ⟨%es0, HS0⟩⟩
        isplitl [Ha1 Ha2 Ha3 Ha4 Ha5 HS0 Hg]
        · isplitl [Ha1 Ha2 Ha3 Ha4 Ha5 HS0]
          swap; · iexact Hg
          isplitl [Ha1]; · iexact Ha1
          isplitl [Ha2]; · iexact Ha2
          isplitl [Ha3]; · iexact Ha3
          isplitl [Ha4]; · iexact Ha4
          isplitl [Ha5]; · iexact Ha5
          unfold owns; iexists _; isplitr
          swap; · iexact HS0
          ipureintro; exact View.read_writes_of_cover _ _ _ _ _ (scover1_B_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) _)
        isplitl [Ho]; · iexact Ho
        isplitl [H0]; · iexact H0
        isplitl [H1]; · iexact H1
        isplitl [H2]; · iexact H2
        isplitl [H3]; · iexact H3
        isplitl [H4]; · iexact H4
        isplitl [H5]; · iexists _; iexact H5
        unfold owns; iexists _; isplitr
        swap; · iexact H6
        ipureintro; exact View.read_writes_of_cover _ _ _ _ _ (cover1_B_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) _)

theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives the class's back: the accumulator's contents are forgotten. -/
theorem hout1 (c : Dev nD) : (dat1 V c).Φ (Fin.last cfg1.N) ⊢ Pipeline.ΦA spec1 c := by
  have ht : (Fin.last cfg1.N).val ≠ 0 := by rw [Fin.val_last]; have : cfg1.N = 64 := N_1; omega
  rw [show (dat1 V c).Φ (Fin.last cfg1.N) = PhiS V c (Fin.last cfg1.N).val (Nat.le_of_lt_succ (Fin.last cfg1.N).isLt) from rfl, PhiS_pos V c _ _ ht, PhiA1_eq]
  iintro ⟨⟨Ha1, Ha2, Ha3, Ha4, Ha5, HS0⟩, Hg⟩
  isplitl [Ha1 Ha2 Ha3 Ha4 Ha5 HS0]
  · isplitl [Ha1]; · iexact Ha1
    isplitl [Ha2]; · iexact Ha2
    isplitl [Ha3]; · iexact Ha3
    isplitl [Ha4]; · iexact Ha4
    isplitl [Ha5]; · iexact Ha5
    iexists _; iexact HS0
  iexact Hg

end Region1

end Cert.KernelIdeal.Gen

end
-- ==== Proof.KernelIdeal.Run.lean ====
/-
  The whole run of the kernel program at any float instance: host operations, the projection region, host
  operations, the attention region. The buffer contents at each boundary are a fold from the launch memory (a host
  stretch applies its operations; a region leaves its output arrays at what its write-backs compose to and every
  other buffer as entered). Every weakly fair execution terminates with every unscoped buffer at the last boundary's
  contents; the argument arrays are written by nothing and end as launched.
-/
import proofs.«178877_j27444841021700_2_alg».proof.Proof.KernelIdeal.R0
import proofs.«178877_j27444841021700_2_alg».proof.Proof.KernelIdeal.R1
import proofs.«178877_j27444841021700_2_alg».proof.Proof.Gen.KernelIdeal.Regions
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => (s₀ m ρ).mem ((c : Dev nD), b)
abbrev W1 : Dev nD → Valuation τ sig (Elt F) := fun c => StableHlo.after hostOps0 (W0 m ρ c)
abbrev E1 : (c : Dev nD) → (b : Ref sig .tc) → Buf (Elt F) ((c : Thread nD τ).loc b) := fun c b => W1 m ρ c b
/-- After the projection region: its output array at what the four row blocks' write-backs compose to. -/
def W2 (c : Dev nD) : Valuation τ sig (Elt F) :=
  Pipeline.withArrays spec0 c (W1 m ρ c) fun w => (dat0 (E1 m ρ) c).arrAt w cfg0.N
theorem W2_arr (c : Dev nD) (w : Fin cfg0.W) :
    W2 m ρ c (Proc.devRef .tc (Pipeline.arrRef spec0 w)) = (dat0 (E1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev E2 : (c : Dev nD) → (b : Ref sig .tc) → Buf (Elt F) ((c : Thread nD τ).loc b) := fun c b => W2 m ρ c b
theorem hF0 (c : Dev nD) (w : Fin cfg0.W) : (dat0 (E1 m ρ) c).arrAt w cfg0.N = E2 m ρ c (Pipeline.arrRef spec0 w) :=
  (W2_arr m ρ c w).symm
theorem hrest0 (c : Dev nD) : ∀ b, b ∉ Finset.univ.image (Pipeline.arrRef spec0) → E2 m ρ c b = E1 m ρ c b :=
  fun b hb => W2_of_ne m ρ c b fun w e => hb (Finset.mem_image.mpr ⟨w, Finset.mem_univ _, e⟩)

abbrev W3 : Dev nD → Valuation τ sig (Elt F) := fun c => StableHlo.after hostOps1 (W2 m ρ c)
abbrev E3 : (c : Dev nD) → (b : Ref sig .tc) → Buf (Elt F) ((c : Thread nD τ).loc b) := fun c b => W3 m ρ c b
/-- After the attention region: its two output arrays at what the write-backs compose to. -/
def W4 (c : Dev nD) : Valuation τ sig (Elt F) :=
  Pipeline.withArrays spec1 c (W3 m ρ c) fun w => (dat1 (E3 m ρ) c).arrAt w cfg1.N
theorem W4_arr (c : Dev nD) (w : Fin cfg1.W) :
    W4 m ρ c (Proc.devRef .tc (Pipeline.arrRef spec1 w)) = (dat1 (E3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev E4 : (c : Dev nD) → (b : Ref sig .tc) → Buf (Elt F) ((c : Thread nD τ).loc b) := fun c b => W4 m ρ c b
theorem hF1 (c : Dev nD) (w : Fin cfg1.W) : (dat1 (E3 m ρ) c).arrAt w cfg1.N = E4 m ρ c (Pipeline.arrRef spec1 w) :=
  (W4_arr m ρ c w).symm
theorem hrest1 (c : Dev nD) : ∀ b, b ∉ Finset.univ.image (Pipeline.arrRef spec1) → E4 m ρ c b = E3 m ρ c b :=
  fun b hb => W4_of_ne m ρ c b fun w e => hb (Finset.mem_image.mpr ⟨w, Finset.mem_univ _, e⟩)

/-! The arguments end as launched: no host operation writes one and no region has one as an output. -/
theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := StableHlo.after_of_writes_sub hostOps1 _ hostOps1_writes (by decide : main_arg0 ∉ hostOps1_W)
    _ = W1 m ρ c (Proc.devRef .tc main_arg0) := W2_of_ne m ρ c main_arg0 (by decide)
    _ = W0 m ρ c (Proc.devRef .tc main_arg0) := StableHlo.after_of_writes_sub hostOps0 _ hostOps0_writes (by decide : main_arg0 ∉ hostOps0_W)
    _ = m ((c : Thread nD τ).loc main_arg0) := rfl
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := StableHlo.after_of_writes_sub hostOps1 _ hostOps1_writes (by decide : main_arg1 ∉ hostOps1_W)
    _ = W1 m ρ c (Proc.devRef .tc main_arg1) := W2_of_ne m ρ c main_arg1 (by decide)
    _ = W0 m ρ c (Proc.devRef .tc main_arg1) := StableHlo.after_of_writes_sub hostOps0 _ hostOps0_writes (by decide : main_arg1 ∉ hostOps0_W)
    _ = m ((c : Thread nD τ).loc main_arg1) := rfl
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_writes_sub hostOps1 _ hostOps1_writes (by decide : main_arg2 ∉ hostOps1_W)
    _ = W1 m ρ c (Proc.devRef .tc main_arg2) := W2_of_ne m ρ c main_arg2 (by decide)
    _ = W0 m ρ c (Proc.devRef .tc main_arg2) := StableHlo.after_of_writes_sub hostOps0 _ hostOps0_writes (by decide : main_arg2 ∉ hostOps0_W)
    _ = m ((c : Thread nD τ).loc main_arg2) := rfl
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_writes_sub hostOps1 _ hostOps1_writes (by decide : main_arg3 ∉ hostOps1_W)
    _ = W1 m ρ c (Proc.devRef .tc main_arg3) := W2_of_ne m ρ c main_arg3 (by decide)
    _ = W0 m ρ c (Proc.devRef .tc main_arg3) := StableHlo.after_of_writes_sub hostOps0 _ hostOps0_writes (by decide : main_arg3 ∉ hostOps0_W)
    _ = m ((c : Thread nD τ).loc main_arg3) := rfl

def pdats : (p : Fin 2) → (c : Dev nD) → Dat τ (Elt F) Unit ℕ (UR sig nD τ) ℕ (Pipeline.pin (pcfgs (F := F)) adm p) c
  | ⟨0, _⟩ => fun c => dat0 (E1 m ρ) c
  | ⟨1, _⟩ => fun c => dat1 (E3 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (E1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (E1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (E1 m ρ c) (E2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (E3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin1 (E3 m ρ) c
    unfold Pipeline.ΦA at h
    rw [show (pdats m ρ 1 c).Φ 0 = (dat1 (E3 m ρ) c).Φ 0 from rfl]
    iintro ⟨Hp, -, Hr⟩
    iapply h
    isplitl [Hr]; · iexact Hr
    iexact Hp
  hout c := by
    have h := hout1 (E3 m ρ) c
    unfold Pipeline.ΦA at h
    rw [Pipeline.ownSems0_none, show (pdats m ρ 1 c).Φ (Fin.last _) = (dat1 (E3 m ρ) c).Φ (Fin.last cfg1.N) from rfl]
    iintro HΦ
    ihave H := h $$ HΦ
    icases H with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (E3 m ρ c) (E4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

abbrev segsH : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segsH m ρ) := (main_chain c).trans (by chain_rfl)

set_option backward.isDefEq.respectTransparency.types false in
/-- THE RUN: every weakly fair execution terminates, nothing faulting, with every unscoped buffer of every core at
    the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segsH m ρ)
    (fun c Q => by rw [main_run m ρ c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- The frame: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c)⟩) (run_all m ρ)

end Cert.KernelIdeal.Gen

end
-- ==== Proof.Value.Pay1.lean ====
/-
  The four matrix products of the two kernel bodies read at an entry, and the payloads that are a product, a
  relabelling of an array's axes, a bias row added to every row, or the zero array.

  A product into the zero accumulator is, at entry (r, n), the plain sum over the shared position k of the left
  factor at (r, k) times the right factor at (k, n) (for the score product the right factor is read at (n, k): the
  keys are multiplied untransposed, row against row). On the extended reals the change of number format between a
  product and its operands is the identity, so nothing else is left of these payloads.
-/
import proofs.«178877_j27444841021700_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.PayIdx

open Idealize.ShloMosaic Idealize.ShloMosaic.ValueIdx Cert.KernelIdeal Cert.KernelIdeal.Gen

/-! ### The projection product: rows of the left factor against columns of the right, over the 1024 shared positions -/

theorem dotProj_lhs_free (i : S1024x3072.Idx) (q : dot_S1024x1024_S1024x3072_S1024x3072_1_0_0_1_n_n.contr.Idx) :
    (dot_S1024x1024_S1024x3072_S1024x3072_1_0_0_1_n_n.lhsIdx i q 0).val = (i 0).val := by
  unfold DotDims.lhsIdx
  rw [dif_neg (show ¬(0 : Fin S1024x1024.rank) ∈ dot_S1024x1024_S1024x3072_S1024x3072_1_0_0_1_n_n.lhsBatch by decide),
    dif_pos (show (0 : Fin S1024x1024.rank) ∈ dot_S1024x1024_S1024x3072_S1024x3072_1_0_0_1_n_n.lhsNonContracting by decide)]
  rfl
theorem dotProj_lhs_contr (i : S1024x3072.Idx) (q : dot_S1024x1024_S1024x3072_S1024x3072_1_0_0_1_n_n.contr.Idx) :
    (dot_S1024x1024_S1024x3072_S1024x3072_1_0_0_1_n_n.lhsIdx i q 1).val = (q ⟨0, by decide⟩).val :=
  dot_S1024x1024_S1024x3072_S1024x3072_1_0_0_1_n_n.lhsIdx_val_of_single rfl i q
theorem dotProj_rhs_free (i : S1024x3072.Idx) (q : dot_S1024x1024_S1024x3072_S1024x3072_1_0_0_1_n_n.contr.Idx) :
    (dot_S1024x1024_S1024x3072_S1024x3072_1_0_0_1_n_n.rhsIdx i q 1).val = (i 1).val := by
  unfold DotDims.rhsIdx
  rw [dif_neg (show ¬(1 : Fin S1024x3072.rank) ∈ dot_S1024x1024_S1024x3072_S1024x3072_1_0_0_1_n_n.rhsBatch by decide),
    dif_pos (show (1 : Fin S1024x3072.rank) ∈ dot_S1024x1024_S1024x3072_S1024x3072_1_0_0_1_n_n.rhsNonContracting by decide)]
  rfl
theorem dotProj_rhs_contr (i : S1024x3072.Idx) (q : dot_S1024x1024_S1024x3072_S1024x3072_1_0_0_1_n_n.contr.Idx) :
    (dot_S1024x1024_S1024x3072_S1024x3072_1_0_0_1_n_n.rhsIdx i q 0).val = (q ⟨0, by decide⟩).val :=
  dot_S1024x1024_S1024x3072_S1024x3072_1_0_0_1_n_n.rhsIdx_val_of_single rfl i q

/-- The projection product: rows of the left factor against columns of the right, over the 1024 shared positions, into the zero accumulator, read at an entry. -/
theorem dotProj_apply (a : FVec Ideal S1024x1024 .bf16) (b : FVec Ideal S1024x3072 .bf16) (r : Fin 1024) (n : Fin 3072) :
    matmul dot_S1024x1024_S1024x3072_S1024x3072_1_0_0_1_n_n none a b (constant S1024x3072 .f32 0x00000000#32) (ix2 r n)
      = ∑ k : Fin 1024, a (ix2 r k) * b (ix2 k n) := by
  refine (Ideal.matmul_constant_zero_apply dot_S1024x1024_S1024x3072_S1024x3072_1_0_0_1_n_n none a b (ix2 r n)).trans ?_
  rw [← Equiv.sum_comp (contrEquiv1 dot_S1024x1024_S1024x3072_S1024x3072_1_0_0_1_n_n 1024 rfl rfl).symm]
  refine Finset.sum_congr rfl fun k _ => ?_
  have hk := contrEquiv1_symm_val dot_S1024x1024_S1024x3072_S1024x3072_1_0_0_1_n_n 1024 rfl rfl k
  have el : dot_S1024x1024_S1024x3072_S1024x3072_1_0_0_1_n_n.lhsIdx (ix2 r n) ((contrEquiv1 dot_S1024x1024_S1024x3072_S1024x3072_1_0_0_1_n_n 1024 rfl rfl).symm k) = ix2 r k :=
    funext fun x => Fin.ext (by
      match x with
      | ⟨0, _⟩ => exact dotProj_lhs_free _ _
      | ⟨1, _⟩ => exact (dotProj_lhs_contr _ _).trans hk)
  have er : dot_S1024x1024_S1024x3072_S1024x3072_1_0_0_1_n_n.rhsIdx (ix2 r n) ((contrEquiv1 dot_S1024x1024_S1024x3072_S1024x3072_1_0_0_1_n_n 1024 rfl rfl).symm k) = ix2 k n :=
    funext fun x => Fin.ext (by
      match x with
      | ⟨1, _⟩ => exact dotProj_rhs_free _ _
      | ⟨0, _⟩ => exact (dotProj_rhs_contr _ _).trans hk)
  rw [el, er]

/-! ### The score product: a query row against a key row, over the 64 lanes of a head -/

theorem dotScore_lhs_free (i : S512x2048.Idx) (q : dot_S512x64_S2048x64_S512x2048_1_1_0_0_n_n.contr.Idx) :
    (dot_S512x64_S2048x64_S512x2048_1_1_0_0_n_n.lhsIdx i q 0).val = (i 0).val := by
  unfold DotDims.lhsIdx
  rw [dif_neg (show ¬(0 : Fin S512x64.rank) ∈ dot_S512x64_S2048x64_S512x2048_1_1_0_0_n_n.lhsBatch by decide),
    dif_pos (show (0 : Fin S512x64.rank) ∈ dot_S512x64_S2048x64_S512x2048_1_1_0_0_n_n.lhsNonContracting by decide)]
  rfl
theorem dotScore_lhs_contr (i : S512x2048.Idx) (q : dot_S512x64_S2048x64_S512x2048_1_1_0_0_n_n.contr.Idx) :
    (dot_S512x64_S2048x64_S512x2048_1_1_0_0_n_n.lhsIdx i q 1).val = (q ⟨0, by decide⟩).val :=
  dot_S512x64_S2048x64_S512x2048_1_1_0_0_n_n.lhsIdx_val_of_single rfl i q
theorem dotScore_rhs_free (i : S512x2048.Idx) (q : dot_S512x64_S2048x64_S512x2048_1_1_0_0_n_n.contr.Idx) :
    (dot_S512x64_S2048x64_S512x2048_1_1_0_0_n_n.rhsIdx i q 0).val = (i 1).val := by
  unfold DotDims.rhsIdx
  rw [dif_neg (show ¬(0 : Fin S2048x64.rank) ∈ dot_S512x64_S2048x64_S512x2048_1_1_0_0_n_n.rhsBatch by decide),
    dif_pos (show (0 : Fin S2048x64.rank) ∈ dot_S512x64_S2048x64_S512x2048_1_1_0_0_n_n.rhsNonContracting by decide)]
  rfl
theorem dotScore_rhs_contr (i : S512x2048.Idx) (q : dot_S512x64_S2048x64_S512x2048_1_1_0_0_n_n.contr.Idx) :
    (dot_S512x64_S2048x64_S512x2048_1_1_0_0_n_n.rhsIdx i q 1).val = (q ⟨0, by decide⟩).val :=
  dot_S512x64_S2048x64_S512x2048_1_1_0_0_n_n.rhsIdx_val_of_single rfl i q

/-- The score product: a query row against a key row, over the 64 lanes of a head, into the zero accumulator, read at an entry. -/
theorem dotScore_apply (a : FVec Ideal S512x64 .bf16) (b : FVec Ideal S2048x64 .bf16) (r : Fin 512) (c : Fin 2048) :
    matmul dot_S512x64_S2048x64_S512x2048_1_1_0_0_n_n none a b (constant S512x2048 .f32 0x00000000#32) (ix2 r c)
      = ∑ k : Fin 64, a (ix2 r k) * b (ix2 c k) := by
  refine (Ideal.matmul_constant_zero_apply dot_S512x64_S2048x64_S512x2048_1_1_0_0_n_n none a b (ix2 r c)).trans ?_
  rw [← Equiv.sum_comp (contrEquiv1 dot_S512x64_S2048x64_S512x2048_1_1_0_0_n_n 64 rfl rfl).symm]
  refine Finset.sum_congr rfl fun k _ => ?_
  have hk := contrEquiv1_symm_val dot_S512x64_S2048x64_S512x2048_1_1_0_0_n_n 64 rfl rfl k
  have el : dot_S512x64_S2048x64_S512x2048_1_1_0_0_n_n.lhsIdx (ix2 r c) ((contrEquiv1 dot_S512x64_S2048x64_S512x2048_1_1_0_0_n_n 64 rfl rfl).symm k) = ix2 r k :=
    funext fun x => Fin.ext (by
      match x with
      | ⟨0, _⟩ => exact dotScore_lhs_free _ _
      | ⟨1, _⟩ => exact (dotScore_lhs_contr _ _).trans hk)
  have er : dot_S512x64_S2048x64_S512x2048_1_1_0_0_n_n.rhsIdx (ix2 r c) ((contrEquiv1 dot_S512x64_S2048x64_S512x2048_1_1_0_0_n_n 64 rfl rfl).symm k) = ix2 c k :=
    funext fun x => Fin.ext (by
      match x with
      | ⟨0, _⟩ => exact dotScore_rhs_free _ _
      | ⟨1, _⟩ => exact (dotScore_rhs_contr _ _).trans hk)
  rw [el, er]

/-! ### The weighted sum of value rows: a row of weights against a column of values, over the 2048 key positions -/

theorem dotAttV_lhs_free (i : S512x64.Idx) (q : dot_S512x2048_S2048x64_S512x64_1_0_0_1_n_n.contr.Idx) :
    (dot_S512x2048_S2048x64_S512x64_1_0_0_1_n_n.lhsIdx i q 0).val = (i 0).val := by
  unfold DotDims.lhsIdx
  rw [dif_neg (show ¬(0 : Fin S512x2048.rank) ∈ dot_S512x2048_S2048x64_S512x64_1_0_0_1_n_n.lhsBatch by decide),
    dif_pos (show (0 : Fin S512x2048.rank) ∈ dot_S512x2048_S2048x64_S512x64_1_0_0_1_n_n.lhsNonContracting by decide)]
  rfl
theorem dotAttV_lhs_contr (i : S512x64.Idx) (q : dot_S512x2048_S2048x64_S512x64_1_0_0_1_n_n.contr.Idx) :
    (dot_S512x2048_S2048x64_S512x64_1_0_0_1_n_n.lhsIdx i q 1).val = (q ⟨0, by decide⟩).val :=
  dot_S512x2048_S2048x64_S512x64_1_0_0_1_n_n.lhsIdx_val_of_single rfl i q
theorem dotAttV_rhs_free (i : S512x64.Idx) (q : dot_S512x2048_S2048x64_S512x64_1_0_0_1_n_n.contr.Idx) :
    (dot_S512x2048_S2048x64_S512x64_1_0_0_1_n_n.rhsIdx i q 1).val = (i 1).val := by
  unfold DotDims.rhsIdx
  rw [dif_neg (show ¬(1 : Fin S2048x64.rank) ∈ dot_S512x2048_S2048x64_S512x64_1_0_0_1_n_n.rhsBatch by decide),
    dif_pos (show (1 : Fin S2048x64.rank) ∈ dot_S512x2048_S2048x64_S512x64_1_0_0_1_n_n.rhsNonContracting by decide)]
  rfl
theorem dotAttV_rhs_contr (i : S512x64.Idx) (q : dot_S512x2048_S2048x64_S512x64_1_0_0_1_n_n.contr.Idx) :
    (dot_S512x2048_S2048x64_S512x64_1_0_0_1_n_n.rhsIdx i q 0).val = (q ⟨0, by decide⟩).val :=
  dot_S512x2048_S2048x64_S512x64_1_0_0_1_n_n.rhsIdx_val_of_single rfl i q

/-- The weighted sum of value rows: a row of weights against a column of values, over the 2048 key positions, into the zero accumulator, read at an entry. -/
theorem dotAttV_apply (a : FVec Ideal S512x2048 .bf16) (b : FVec Ideal S2048x64 .bf16) (r : Fin 512) (j : Fin 64) :
    matmul dot_S512x2048_S2048x64_S512x64_1_0_0_1_n_n none a b (constant S512x64 .f32 0x00000000#32) (ix2 r j)
      = ∑ k : Fin 2048, a (ix2 r k) * b (ix2 k j) := by
  refine (Ideal.matmul_constant_zero_apply dot_S512x2048_S2048x64_S512x64_1_0_0_1_n_n none a b (ix2 r j)).trans ?_
  rw [← Equiv.sum_comp (contrEquiv1 dot_S512x2048_S2048x64_S512x64_1_0_0_1_n_n 2048 rfl rfl).symm]
  refine Finset.sum_congr rfl fun k _ => ?_
  have hk := contrEquiv1_symm_val dot_S512x2048_S2048x64_S512x64_1_0_0_1_n_n 2048 rfl rfl k
  have el : dot_S512x2048_S2048x64_S512x64_1_0_0_1_n_n.lhsIdx (ix2 r j) ((contrEquiv1 dot_S512x2048_S2048x64_S512x64_1_0_0_1_n_n 2048 rfl rfl).symm k) = ix2 r k :=
    funext fun x => Fin.ext (by
      match x with
      | ⟨0, _⟩ => exact dotAttV_lhs_free _ _
      | ⟨1, _⟩ => exact (dotAttV_lhs_contr _ _).trans hk)
  have er : dot_S512x2048_S2048x64_S512x64_1_0_0_1_n_n.rhsIdx (ix2 r j) ((contrEquiv1 dot_S512x2048_S2048x64_S512x64_1_0_0_1_n_n 2048 rfl rfl).symm k) = ix2 k j :=
    funext fun x => Fin.ext (by
      match x with
      | ⟨1, _⟩ => exact dotAttV_rhs_free _ _
      | ⟨0, _⟩ => exact (dotAttV_rhs_contr _ _).trans hk)
  rw [el, er]

/-! ### The output projection's partial product: a row of the head pair's 128 lanes against a column of the weight block -/

theorem dotOut_lhs_free (i : S512x1024.Idx) (q : dot_S512x128_S128x1024_S512x1024_1_0_0_1_n_n.contr.Idx) :
    (dot_S512x128_S128x1024_S512x1024_1_0_0_1_n_n.lhsIdx i q 0).val = (i 0).val := by
  unfold DotDims.lhsIdx
  rw [dif_neg (show ¬(0 : Fin S512x128.rank) ∈ dot_S512x128_S128x1024_S512x1024_1_0_0_1_n_n.lhsBatch by decide),
    dif_pos (show (0 : Fin S512x128.rank) ∈ dot_S512x128_S128x1024_S512x1024_1_0_0_1_n_n.lhsNonContracting by decide)]
  rfl
theorem dotOut_lhs_contr (i : S512x1024.Idx) (q : dot_S512x128_S128x1024_S512x1024_1_0_0_1_n_n.contr.Idx) :
    (dot_S512x128_S128x1024_S512x1024_1_0_0_1_n_n.lhsIdx i q 1).val = (q ⟨0, by decide⟩).val :=
  dot_S512x128_S128x1024_S512x1024_1_0_0_1_n_n.lhsIdx_val_of_single rfl i q
theorem dotOut_rhs_free (i : S512x1024.Idx) (q : dot_S512x128_S128x1024_S512x1024_1_0_0_1_n_n.contr.Idx) :
    (dot_S512x128_S128x1024_S512x1024_1_0_0_1_n_n.rhsIdx i q 1).val = (i 1).val := by
  unfold DotDims.rhsIdx
  rw [dif_neg (show ¬(1 : Fin S128x1024.rank) ∈ dot_S512x128_S128x1024_S512x1024_1_0_0_1_n_n.rhsBatch by decide),
    dif_pos (show (1 : Fin S128x1024.rank) ∈ dot_S512x128_S128x1024_S512x1024_1_0_0_1_n_n.rhsNonContracting by decide)]
  rfl
theorem dotOut_rhs_contr (i : S512x1024.Idx) (q : dot_S512x128_S128x1024_S512x1024_1_0_0_1_n_n.contr.Idx) :
    (dot_S512x128_S128x1024_S512x1024_1_0_0_1_n_n.rhsIdx i q 0).val = (q ⟨0, by decide⟩).val :=
  dot_S512x128_S128x1024_S512x1024_1_0_0_1_n_n.rhsIdx_val_of_single rfl i q

/-- The output projection's partial product: a row of the head pair's 128 lanes against a column of the weight block, into the zero accumulator, read at an entry. -/
theorem dotOut_apply (a : FVec Ideal S512x128 .bf16) (b : FVec Ideal S128x1024 .bf16) (r : Fin 512) (e : Fin 1024) :
    matmul dot_S512x128_S128x1024_S512x1024_1_0_0_1_n_n none a b (constant S512x1024 .f32 0x00000000#32) (ix2 r e)
      = ∑ k : Fin 128, a (ix2 r k) * b (ix2 k e) := by
  refine (Ideal.matmul_constant_zero_apply dot_S512x128_S128x1024_S512x1024_1_0_0_1_n_n none a b (ix2 r e)).trans ?_
  rw [← Equiv.sum_comp (contrEquiv1 dot_S512x128_S128x1024_S512x1024_1_0_0_1_n_n 128 rfl rfl).symm]
  refine Finset.sum_congr rfl fun k _ => ?_
  have hk := contrEquiv1_symm_val dot_S512x128_S128x1024_S512x1024_1_0_0_1_n_n 128 rfl rfl k
  have el : dot_S512x128_S128x1024_S512x1024_1_0_0_1_n_n.lhsIdx (ix2 r e) ((contrEquiv1 dot_S512x128_S128x1024_S512x1024_1_0_0_1_n_n 128 rfl rfl).symm k) = ix2 r k :=
    funext fun x => Fin.ext (by
      match x with
      | ⟨0, _⟩ => exact dotOut_lhs_free _ _
      | ⟨1, _⟩ => exact (dotOut_lhs_contr _ _).trans hk)
  have er : dot_S512x128_S128x1024_S512x1024_1_0_0_1_n_n.rhsIdx (ix2 r e) ((contrEquiv1 dot_S512x128_S128x1024_S512x1024_1_0_0_1_n_n 128 rfl rfl).symm k) = ix2 k e :=
    funext fun x => Fin.ext (by
      match x with
      | ⟨1, _⟩ => exact dotOut_rhs_free _ _
      | ⟨0, _⟩ => exact (dotOut_rhs_contr _ _).trans hk)
  rw [el, er]

/-! ### The payloads that need nothing more -/

/-- The fused projection's block: row r of the input block against column n of the weight block. -/
theorem pay0 (a : Vec Ideal S1024x1024 .bf16) (b : Vec Ideal S1024x3072 .bf16) (r : Fin 1024) (n : Fin 3072) :
    k0_pay1 (F := Ideal) a b (ix2 r n) = ∑ k : Fin 1024, a (ix2 r k) * b (ix2 k n) := by
  unfold k0_pay1
  exact dotProj_apply (shapeCast S1024x1024 a Facts₀.shapeCasts_S1024x1024_S1024x1024)
    (shapeCast S1024x3072 b Facts₀.shapeCasts_S1024x3072_S1024x3072) r n |>.trans
    (by rw [shapeCast_self, shapeCast_self])

/-- An `[a, b]` array relabelled as `[1, 1, a, b]` reads, at `(u, w, i, j)`, the operand at `(i, j)`: both sit at
    row-major position `i · b + j`. -/
theorem shapeCast_ab_11ab_apply {α : Type} {a b : ℕ} (x : (⟨2, ![a, b]⟩ : Shape).Idx → α)
    (h : (⟨2, ![a, b]⟩ : Shape).ShapeCasts ⟨4, ![1, 1, a, b]⟩) (u w : Fin 1) (i : Fin a) (j : Fin b) :
    shapeCast ⟨4, ![1, 1, a, b]⟩ x h (ix4 u w i j) = x (ix2 i j) :=
  shapeCast_apply x h _ _ (by
    have hu : u.val = 0 := by omega
    have hw : w.val = 0 := by omega
    rw [Shape.rowMajor_val_four, Shape.rowMajor_val_two]
    show i.val * b + j.val = ((u.val * 1 + w.val) * a + i.val) * b + j.val
    rw [hu, hw, Nat.zero_mul, Nat.zero_add])

/-- The first head's weights as stored: the block of weights with two unit axes in front. -/
theorem pay2 (v : Vec Ideal S512x2048 .f32) (r : Fin 512) (c : Fin 2048) :
    k1_pay2 (F := Ideal) v (ix4 0 0 r c) = v (ix2 r c) := by
  unfold k1_pay2
  exact shapeCast_ab_11ab_apply v Facts₀.shapeCasts_S512x2048_S1x1x512x2048 0 0 r c

/-- The second head's weights as stored: the normalised exponentials with two unit axes in front. -/
theorem pay3 (v36 : Vec Ideal S512x2048 .f32) (r : Fin 512) (c : Fin 2048) :
    k1_pay3 (F := Ideal) v36 (ix4 0 0 r c) = k1_pay1 (F := Ideal) v36 (ix2 r c) := by
  unfold k1_pay3
  exact shapeCast_ab_11ab_apply (k1_pay1 (F := Ideal) v36) Facts₀.shapeCasts_S512x2048_S1x1x512x2048 0 0 r c

/-- The result block: the accumulated projection plus the bias row, the same row added to every row. -/
theorem pay5 (v62 : Vec Ideal S512x1024 .f32) (v63 : Vec Ideal S1x1024 .f32) (r : Fin 512) (e : Fin 1024) :
    k1_pay5 (F := Ideal) v62 v63 (ix3 0 r e) = v62 (ix2 r e) + v63 (ix2 0 e) := by
  unfold k1_pay5
  refine (shapeCast_ab_1ab_apply _ Facts₀.shapeCasts_S512x1024_S1x512x1024 0 r e).trans ?_
  refine (addf_apply _ _ (ix2 r e)).trans ?_
  refine congrArg (v62 (ix2 r e) + ·) ?_
  refine (broadcastTo_1b_ab_apply _ Facts₀.broadcasts_S1x1024_S512x1024 r e).trans ?_
  rw [shapeCast_self]

/-- The accumulator's start: the zero array. -/
theorem pay6 (r : Fin 512) (e : Fin 1024) : k1_pay6 (F := Ideal) (ix2 r e) = 0 := by
  unfold k1_pay6
  rw [shapeCast_self]
  exact Ideal.ofBits_zero_f32

end Cert.KernelIdeal.PayIdx

end
-- ==== Proof.Value.R0Val.lean ====
/-
  The projection stage's output array as one function of its two input arrays.

  One grid point `t` multiplies rows `1024·t … 1024·t + 1023` of the `[4096, 1024]` array by the whole
  `[1024, 3072]` array and writes the `1024 × 3072` product back as rows `1024·t …` of the `[4096, 3072]`
  output. The product of two blocks, read at an entry, is the sum over the shared axis of the products of the
  entries (the accumulator starts at zero, a change of number format changes no value); a block's entry at
  coordinate `y` inside block `q` along an axis of block size `n` is the array's entry at `q·n + y`. Row `R` of the
  output lies in the block of point `R / 1024`, and every point writes its block back, so the four blocks tile
  the array: it ends holding, at `(R, n)`, the sum over `k` of the first array at `(R, k)` times the second at
  `(k, n)`.
-/
import proofs.«178877_j27444841021700_2_alg».proof.Proof.KernelIdeal.R0
import proofs.«178877_j27444841021700_2_alg».proof.Proof.Value.Pay1
import Idealize.ShloMosaic.Lib.Pipeline.Value
import Idealize.ShloMosaic.Lib.ValueIdx
import Idealize.ShloMosaic.PureOps.Ideal.Laws

noncomputable section

open scoped BigOperators

namespace Cert.KernelIdeal.Gen

open Idealize.ShloMosaic Idealize.ShloMosaic.ValueIdx Idealize.ShloMosaic.TcCoe Idealize.SL.Sem
open Idealize.ShloMosaic.Pipeline (Dat)

/-! ## The product of two blocks at an entry -/

/-- Entry `y` of the block product: the sum over the shared axis of the products of the entries. -/
theorem pay0_at (a : Vec Ideal S1024x1024 .bf16) (b : Vec Ideal S1024x3072 .bf16) (y : S1024x3072.Idx) :
    k0_pay1 (F := Ideal) a b y = ∑ k : Fin 1024, a (ix2 (y 0) k) * b (ix2 k (y 1)) := by
  obtain ⟨r, n, rfl⟩ : ∃ (r : Fin 1024) (n : Fin 3072), y = ix2 r n := ⟨y 0, y 1, eq_ix2 y⟩
  exact Cert.KernelIdeal.PayIdx.pay0 a b r n

/-! ## The whole array -/

/-- The matrix product of a `[4096, 1024]` array with a `[1024, 3072]` array, entry by entry. -/
def Q0 (a : S4096x1024.Idx → EReal) (w : S1024x3072.Idx → EReal) : S4096x3072.Idx → EReal :=
  fun i => ∑ k : Fin 1024, a (ix2 (i 0) k) * w (ix2 k (i 1))

theorem hz0 : (![0, 0] : Fin 2 → Nat) = fun _ => 0 := funext fun a => by fin_cases a <;> rfl

/-- Which block each window shows at a point: the first and the output their `t`-th row block, the second
    its one block. -/
theorem idx_facts0 : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

section Region0
variable (V : (c : Dev nD) → (b : Ref sig .tc) → Buf (Elt Ideal) ((c : Thread nD τ).loc b))

/-- What point `t` writes back is block `t` of the product of the two arrays as the stage finds them. -/
theorem flushed0_eq (c : Dev nD) (t : Fin cfg0.N) :
    (dat0 (F := Ideal) V c).flushed 2 t
      = ((cfg0.win 2).blk t).view.read (Elt Ideal) (Q0 (V c main_v1) (V c main_v3)) := by
  show (cfg0.win 2).cut (grid0.coords t) ((dat0 (F := Ideal) V c).after 2 t) = _
  rw [after0_2]
  unfold out0_2
  rw [View.canon_unit_zero hz0]
  simp only [View.ld_unit_zero (S := S1024x1024) hz0, View.ld_unit_zero (S := S1024x3072) hz0]
  obtain ⟨e0, e1, e2, e3, e4, e5⟩ := idx_facts0 t
  funext j
  refine (pay0_at (iblk0 V c 0 t) (iblk0 V c 1 t) j).trans ?_
  show _ = Q0 (V c main_v1) (V c main_v3) (((cfg0.win 2).blk t).view.emb j)
  unfold Q0
  refine Finset.sum_congr rfl fun k _ => ?_
  have hj0 : (j 0).val < 1024 := (j 0).isLt
  have hj1 : (j 1).val < 3072 := (j 1).isLt
  have h0 : ((cfg0.win 0).blk t).view.emb (ix2 (j 0) k) = ix2 ((((cfg0.win 2).blk t).view.emb j) 0) k := by
    funext a; apply Fin.ext
    match a with
    | ⟨0, _⟩ => show win0_0.index t (0 : Fin 2) * 1024 + 1 * (j 0).val = win0_2.index t (0 : Fin 2) * 1024 + 1 * (j 0).val; omega
    | ⟨1, _⟩ => show win0_0.index t (1 : Fin 2) * 1024 + 1 * k.val = k.val; omega
  have h1 : ((cfg0.win 1).blk t).view.emb (ix2 k (j 1)) = ix2 k ((((cfg0.win 2).blk t).view.emb j) 1) := by
    funext a; apply Fin.ext
    match a with
    | ⟨0, _⟩ => show win0_1.index t (0 : Fin 2) * 1024 + 1 * k.val = k.val; omega
    | ⟨1, _⟩ => show win0_1.index t (1 : Fin 2) * 3072 + 1 * (j 1).val = win0_2.index t (1 : Fin 2) * 3072 + 1 * (j 1).val; omega
  exact congrArg₂ (fun (u v : EReal) => u * v) (congrArg (V c main_v1) h0) (congrArg (V c main_v3) h1)

/-- An entry of the output is in point `t`'s block iff each coordinate is in the block's range on its axis. -/
theorem mem_blk0 (t : Fin cfg0.N) (i : S4096x3072.Idx) :
    i ∈ ((cfg0.win 2).blk t).view.set ↔ ∀ a : Fin 2, win0_2.index t a * S1024x3072.size a ≤ (i a).val
      ∧ (i a).val < win0_2.index t a * S1024x3072.size a + S1024x3072.size a := by
  show i ∈ ((View.whole main_v4).slice (win0_2.rect t)).set ↔ _
  rw [View.set_slice_whole, Rect.mem_set_unit]
  exact Iff.rfl

/-- Every entry of the output is in the block of the point `row / 1024`, which writes its block back. -/
theorem cover0 (i : S4096x3072.Idx) :
    ∃ t : Fin cfg0.N, (cfg0.win 2).flush t = true ∧ i ∈ ((cfg0.win 2).blk t).view.set := by
  have hi0 : (i 0).val < 4096 := (i 0).isLt
  have hi1 : (i 1).val < 3072 := (i 1).isLt
  obtain ⟨t, ht⟩ : ∃ t : Fin cfg0.N, t.val = (i 0).val / 1024 :=
    ⟨⟨(i 0).val / 1024, by have hN := N_0; show (i 0).val / 1024 < grid0.N; omega⟩, rfl⟩
  obtain ⟨e0, e1, e2, e3, e4, e5⟩ := idx_facts0 t
  refine ⟨t, flush0_2 t, ?_⟩
  rw [mem_blk0]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 3072 ≤ (i 1).val ∧ (i 1).val < win0_2.index t (1 : Fin 2) * 3072 + 3072; omega

/-- THE OUTPUT ARRAY after the stage: the product of the two arrays as the stage finds them. -/
theorem final0 (c : Dev nD) : (dat0 (F := Ideal) V c).arrAt 2 cfg0.N = Q0 (V c main_v1) (V c main_v3) :=
  (dat0 (F := Ideal) V c).arrAt_eq_of_cover 2 (Q0 (V c main_v1) (V c main_v3)) (fun t _ => flushed0_eq V c t) cover0

end Region0

end Cert.KernelIdeal.Gen

end
-- ==== Proof.Value.HostOps.lean ====
/-
  What the layout-only operations around the two tiled computations do to an index.

  Before the first one: the input `[2, 2048, 1024]` is viewed as `[4096, 1024]` (row `2048·b + s` is row `s` of
  batch `b`: both sit at row-major position `(2048·b + s)·1024 + k`), and the fused weight is transposed. Between
  the two: the projection `[4096, 3072]` is viewed as `[2, 2048, 3072]` and cut along its last axis into the
  columns `d`, `1024 + d` and `2048 + d`; the output weight is transposed; the bias `[1024]` is viewed as one row.
  A change of number format changes no value on the extended reals.
-/
import proofs.«178877_j27444841021700_2_alg».proof.Proof.Gen.KernelIdeal.Launch
import Idealize.ShloMosaic.Lib.StableHlo.Run
import Idealize.ShloMosaic.Lib.ValueIdx
import Idealize.ShloMosaic.Lib.ValueLayout
import Idealize.ShloMosaic.Lib.Pipeline.Value

noncomputable section

namespace Cert.KernelIdeal.HostIdx

open Cert.KernelIdeal Cert.KernelIdeal.Gen Idealize.ShloMosaic Idealize.ShloMosaic.ValueIdx Idealize.ShloMosaic.StableHlo

variable (W : Valuation τ sig (Elt Ideal))

/-! ## Before the first tiled computation -/

/-- The input viewed as `[4096, 1024]`, as a term of the input. -/
theorem v1_term :
    (StableHlo.after (hostOps0 (F := Ideal)) W (Proc.devRef .tc main_v1) : S4096x1024.Idx → EReal)
      = shapeCast S4096x1024 (W (Proc.devRef .tc main_arg0) : S2x2048x1024.Idx → EReal) shapeCasts_S2x2048x1024_S4096x1024 := by
  simp only [hostOps0]
  after_results
  rfl

/-- Row `2048·b + s` of the viewed input is row `s` of batch `b`. -/
theorem v1_at (R : Fin 4096) (k : Fin 1024) (b : Fin 2) (s : Fin 2048) (hR : R.val = 2048 * b.val + s.val) :
    (StableHlo.after (hostOps0 (F := Ideal)) W (Proc.devRef .tc main_v1) : S4096x1024.Idx → EReal) (ix2 R k)
      = (W (Proc.devRef .tc main_arg0) : S2x2048x1024.Idx → EReal) (ix3 b s k) := by
  rw [v1_term]
  exact shapeCast_apply _ shapeCasts_S2x2048x1024_S4096x1024 (ix2 R k) (ix3 b s k) (by
    rewrite [Shape.rowMajor_val_three, Shape.rowMajor_val_two]
    show (b.val * 2048 + s.val) * 1024 + k.val = R.val * 1024 + k.val
    omega)

/-- The transposed fused weight, as a term of the weight. -/
theorem v3_term :
    (StableHlo.after (hostOps0 (F := Ideal)) W (Proc.devRef .tc main_v3) : S1024x3072.Idx → EReal)
      = transpose S1024x3072 [1, 0] (W (Proc.devRef .tc main_arg1) : S3072x1024.Idx → EReal) transposes_S3072x1024_S1024x3072_1_0 := by
  simp only [hostOps0]
  after_results
  rfl

/-- Its entry `(k, n)` is the weight's entry `(n, k)`. -/
theorem v3_at (k : Fin 1024) (n : Fin 3072) :
    (StableHlo.after (hostOps0 (F := Ideal)) W (Proc.devRef .tc main_v3) : S1024x3072.Idx → EReal) (ix2 k n)
      = (W (Proc.devRef .tc main_arg1) : S3072x1024.Idx → EReal) (ix2 n k) := by
  rw [v3_term]
  exact transpose_apply [1, 0] _ transposes_S3072x1024_S1024x3072_1_0 (ix2 k n) (ix2 n k) (fun b => match b with
    | ⟨0, _⟩ => rfl
    | ⟨1, _⟩ => rfl)

/-! ## Between the two tiled computations -/

/-- The projection viewed as `[2, 2048, 3072]`: entry `(b, s, n)` is entry `(2048·b + s, n)`. -/
theorem view_at (y : S4096x3072.Idx → EReal) (b : Fin 2) (s : Fin 2048) (n : Fin 3072) (R : Fin 4096)
    (hR : R.val = 2048 * b.val + s.val) :
    shapeCast S2x2048x3072 y shapeCasts_S4096x3072_S2x2048x3072 (ix3 b s n) = y (ix2 R n) :=
  shapeCast_apply y shapeCasts_S4096x3072_S2x2048x3072 (ix3 b s n) (ix2 R n) (by
    rewrite [Shape.rowMajor_val_two, Shape.rowMajor_val_three]
    show R.val * 3072 + n.val = (b.val * 2048 + s.val) * 3072 + n.val
    omega)

/-- The first cut, as a term of the projection. -/
theorem v6_term :
    (StableHlo.after (hostOps1 (F := Ideal)) W (Proc.devRef .tc main_v6) : S2x2048x1024.Idx → EReal)
      = extractStridedSlice S2x2048x1024 ![0, 0, 0]
          (shapeCast S2x2048x3072 (W (Proc.devRef .tc main_v4) : S4096x3072.Idx → EReal) shapeCasts_S4096x3072_S2x2048x3072)
          slices_S2x2048x3072_S2x2048x1024_0_0_0 := by
  simp only [hostOps1]
  after_results
  rfl

/-- The first cut holds the columns `d`. -/
theorem v6_at (b : Fin 2) (s : Fin 2048) (d : Fin 1024) (R : Fin 4096) (hR : R.val = 2048 * b.val + s.val)
    (n : Fin 3072) (hn : n.val = d.val) :
    (StableHlo.after (hostOps1 (F := Ideal)) W (Proc.devRef .tc main_v6) : S2x2048x1024.Idx → EReal) (ix3 b s d)
      = (W (Proc.devRef .tc main_v4) : S4096x3072.Idx → EReal) (ix2 R n) := by
  rw [v6_term]
  refine (extractStridedSlice_apply ![0, 0, 0] _ slices_S2x2048x3072_S2x2048x1024_0_0_0 (ix3 b s d) (ix3 b s n)
    (fun a => match a with
      | ⟨0, _⟩ => by show b.val = 0 + b.val; omega
      | ⟨1, _⟩ => by show s.val = 0 + s.val; omega
      | ⟨2, _⟩ => by show n.val = 0 + d.val; omega)).trans ?_
  exact view_at _ b s n R hR

/-- The second cut, as a term of the projection. -/
theorem v7_term :
    (StableHlo.after (hostOps1 (F := Ideal)) W (Proc.devRef .tc main_v7) : S2x2048x1024.Idx → EReal)
      = extractStridedSlice S2x2048x1024 ![0, 0, 1024]
          (shapeCast S2x2048x3072 (W (Proc.devRef .tc main_v4) : S4096x3072.Idx → EReal) shapeCasts_S4096x3072_S2x2048x3072)
          slices_S2x2048x3072_S2x2048x1024_0_0_1024 := by
  simp only [hostOps1]
  after_results
  rfl

/-- The second cut holds the columns `1024 + d`. -/
theorem v7_at (b : Fin 2) (s : Fin 2048) (d : Fin 1024) (R : Fin 4096) (hR : R.val = 2048 * b.val + s.val)
    (n : Fin 3072) (hn : n.val = 1024 + d.val) :
    (StableHlo.after (hostOps1 (F := Ideal)) W (Proc.devRef .tc main_v7) : S2x2048x1024.Idx → EReal) (ix3 b s d)
      = (W (Proc.devRef .tc main_v4) : S4096x3072.Idx → EReal) (ix2 R n) := by
  rw [v7_term]
  refine (extractStridedSlice_apply ![0, 0, 1024] _ slices_S2x2048x3072_S2x2048x1024_0_0_1024 (ix3 b s d) (ix3 b s n)
    (fun a => match a with
      | ⟨0, _⟩ => by show b.val = 0 + b.val; omega
      | ⟨1, _⟩ => by show s.val = 0 + s.val; omega
      | ⟨2, _⟩ => by show n.val = 1024 + d.val; omega)).trans ?_
  exact view_at _ b s n R hR

/-- The third cut, as a term of the projection. -/
theorem v8_term :
    (StableHlo.after (hostOps1 (F := Ideal)) W (Proc.devRef .tc main_v8) : S2x2048x1024.Idx → EReal)
      = extractStridedSlice S2x2048x1024 ![0, 0, 2048]
          (shapeCast S2x2048x3072 (W (Proc.devRef .tc main_v4) : S4096x3072.Idx → EReal) shapeCasts_S4096x3072_S2x2048x3072)
          slices_S2x2048x3072_S2x2048x1024_0_0_2048 := by
  simp only [hostOps1]
  after_results
  rfl

/-- The third cut holds the columns `2048 + d`. -/
theorem v8_at (b : Fin 2) (s : Fin 2048) (d : Fin 1024) (R : Fin 4096) (hR : R.val = 2048 * b.val + s.val)
    (n : Fin 3072) (hn : n.val = 2048 + d.val) :
    (StableHlo.after (hostOps1 (F := Ideal)) W (Proc.devRef .tc main_v8) : S2x2048x1024.Idx → EReal) (ix3 b s d)
      = (W (Proc.devRef .tc main_v4) : S4096x3072.Idx → EReal) (ix2 R n) := by
  rw [v8_term]
  refine (extractStridedSlice_apply ![0, 0, 2048] _ slices_S2x2048x3072_S2x2048x1024_0_0_2048 (ix3 b s d) (ix3 b s n)
    (fun a => match a with
      | ⟨0, _⟩ => by show b.val = 0 + b.val; omega
      | ⟨1, _⟩ => by show s.val = 0 + s.val; omega
      | ⟨2, _⟩ => by show n.val = 2048 + d.val; omega)).trans ?_
  exact view_at _ b s n R hR

/-- The transposed output weight, as a term of the weight. -/
theorem v10_term :
    (StableHlo.after (hostOps1 (F := Ideal)) W (Proc.devRef .tc main_v10) : S1024x1024.Idx → EReal)
      = transpose S1024x1024 [1, 0] (W (Proc.devRef .tc main_arg2) : S1024x1024.Idx → EReal) transposes_S1024x1024_S1024x1024_1_0 := by
  simp only [hostOps1]
  after_results
  rfl

/-- Its entry `(d, e)` is the weight's entry `(e, d)`. -/
theorem v10_at (d e : Fin 1024) :
    (StableHlo.after (hostOps1 (F := Ideal)) W (Proc.devRef .tc main_v10) : S1024x1024.Idx → EReal) (ix2 d e)
      = (W (Proc.devRef .tc main_arg2) : S1024x1024.Idx → EReal) (ix2 e d) := by
  rw [v10_term]
  exact transpose_apply [1, 0] _ transposes_S1024x1024_S1024x1024_1_0 (ix2 d e) (ix2 e d) (fun b => match b with
    | ⟨0, _⟩ => rfl
    | ⟨1, _⟩ => rfl)

/-- The bias viewed as one row, as a term of the bias. -/
theorem v11_term :
    (StableHlo.after (hostOps1 (F := Ideal)) W (Proc.devRef .tc main_v11) : S1x1024.Idx → EReal)
      = shapeCast S1x1024 (W (Proc.devRef .tc main_arg3) : S1024.Idx → EReal) shapeCasts_S1024_S1x1024 := by
  simp only [hostOps1]
  after_results
  rfl

/-- Its entry `(0, e)` is the bias's entry `e`. -/
theorem v11_at (e : Fin 1024) :
    (StableHlo.after (hostOps1 (F := Ideal)) W (Proc.devRef .tc main_v11) : S1x1024.Idx → EReal) (ix2 (0 : Fin 1) e)
      = (W (Proc.devRef .tc main_arg3) : S1024.Idx → EReal) (ix1 e) := by
  rw [v11_term]
  exact shapeCast_apply _ shapeCasts_S1024_S1x1024 (ix2 (0 : Fin 1) e) (ix1 e) (by
    rewrite [Shape.rowMajor_val_one, Shape.rowMajor_val_two]
    show e.val = 0 * 1024 + e.val
    omega)

end Cert.KernelIdeal.HostIdx

end
-- ==== Proof.Value.R1Found.lean ====
/-
  What the three cases of the attention body leave in the buffers they write, as the body's named arithmetic of the
  blocks it was handed: the attention block is two stores (one head each) of the normalised weights; the accumulator
  is the carried contents (zero at a row block's first head pair) plus the pair's projected output; the result block
  at the last pair is the accumulator plus the bias row.
-/
import proofs.«178877_j27444841021700_2_alg».proof.Proof.KernelIdeal.R1
import Idealize.ShloMosaic.Lib.Pipeline.Value
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2' : (![0, 0] : Fin 2 → Nat) = fun _ => 0 := funext fun a => by fin_cases a <;> rfl
theorem hz3' : (![0, 0, 0] : Fin 3 → Nat) = fun _ => 0 := funext fun a => by fin_cases a <;> rfl

set_option maxHeartbeats 2000000 in
theorem accA_eq (c : Dev nD) (i : grid1.Coords) (arg3 : Memref sig .tc .vmem S1x512x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S128x1024 .bf16) (harg6 : arg6.IsWhole) (arg7 : Memref sig .tc .vmem S1x1024 .f32) (harg7 : arg7.IsWhole) (arg8 : Memref sig .tc .vmem S1x512x1024 .f32) (harg8 : arg8.IsWhole) (arg9 : Memref sig .tc .vmem S1x2x512x2048 .f32) (harg9 : arg9.IsWhole) (arg10 : Memref sig .tc .vmem S512x1024 .f32) (harg10 : arg10.IsWhole) (hc0 : cond1_0 i) (hc1 : ¬cond1_1 i)
    (x0 : Vec F S1x512x128 .bf16) (x1 : Vec F S1x2048x128 .bf16) (x2 : Vec F S1x2048x128 .bf16) (x3 : Vec F S128x1024 .bf16) (x4 : Vec F S1x1024 .f32) :
    accOf (kernelRun1_A c i arg3 harg3 arg4 harg4 arg5 harg5 arg6 harg6 arg7 harg7 arg8 harg8 arg9 harg9 arg10 harg10 hc0 hc1 x0 x1 x2 x3 x4).2.1 = k1_pay4 (k1_pay10 x2) (k1_pay12 x0 x1 x2) (k1_pay13 x0 x1) x3 (k1_pay6 (F := F)) := by
  unfold accOf
  rw [View.read_writes_eq_canon _ _ _ (scover1_A_0 c i arg3 harg3 arg4 harg4 arg5 harg5 arg6 harg6 arg7 harg7 arg8 harg8 arg9 harg9 arg10 harg10 hc0 hc1 x0 x1 x2 x3 x4)]
  unfold kernelRun1_A; dsimp only
  sl_unfold_words
  rw [View.canon_cons_unit_zero hz2']
  simp only [View.readAt_eq_ld, harg3.read_unread, harg4.read_unread, harg5.read_unread, harg6.read_unread, harg7.read_unread, harg10.read_unread,
    View.ld_unit_zero (S := S1x512x128) hz3', View.ld_unit_zero (S := S1x2048x128) hz3', View.ld_unit_zero (S := S128x1024) hz2',
    View.ld_unit_zero (S := S1x1024) hz2', View.ld_unit_zero (S := S512x1024) hz2', View.readCov_unit_zero (S := S512x1024) arg10.view hz2']

set_option maxHeartbeats 2000000 in
theorem accB_eq (c : Dev nD) (i : grid1.Coords) (arg3 : Memref sig .tc .vmem S1x512x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S128x1024 .bf16) (harg6 : arg6.IsWhole) (arg7 : Memref sig .tc .vmem S1x1024 .f32) (harg7 : arg7.IsWhole) (arg8 : Memref sig .tc .vmem S1x512x1024 .f32) (harg8 : arg8.IsWhole) (arg9 : Memref sig .tc .vmem S1x2x512x2048 .f32) (harg9 : arg9.IsWhole) (arg10 : Memref sig .tc .vmem S512x1024 .f32) (harg10 : arg10.IsWhole) (hc0 : ¬cond1_0 i) (hc1 : ¬cond1_1 i)
    (x0 : Vec F S1x512x128 .bf16) (x1 : Vec F S1x2048x128 .bf16) (x2 : Vec F S1x2048x128 .bf16) (x3 : Vec F S128x1024 .bf16) (x4 : Vec F S1x1024 .f32) (xs0 : Vec F S512x1024 .f32) :
    accOf (kernelRun1_B c i arg3 harg3 arg4 harg4 arg5 harg5 arg6 harg6 arg7 harg7 arg8 harg8 arg9 harg9 arg10 harg10 hc0 hc1 x0 x1 x2 x3 x4 xs0).2.1 = k1_pay4 (k1_pay10 x2) (k1_pay12 x0 x1 x2) (k1_pay13 x0 x1) x3 xs0 := by
  unfold accOf
  rw [View.read_writes_eq_canon _ _ _ (scover1_B_0 c i arg3 harg3 arg4 harg4 arg5 harg5 arg6 harg6 arg7 harg7 arg8 harg8 arg9 harg9 arg10 harg10 hc0 hc1 x0 x1 x2 x3 x4 xs0)]
  unfold kernelRun1_B; dsimp only
  sl_unfold_words
  rw [View.canon_unit_zero hz2']
  simp only [View.readAt_eq_ld, harg3.read_unread, harg4.read_unread, harg5.read_unread, harg6.read_unread, harg7.read_unread, harg10.read_unread,
    View.ld_unit_zero (S := S1x512x128) hz3', View.ld_unit_zero (S := S1x2048x128) hz3', View.ld_unit_zero (S := S128x1024) hz2',
    View.ld_unit_zero (S := S1x1024) hz2', View.ld_unit_zero (S := S512x1024) hz2']

set_option maxHeartbeats 2000000 in
theorem accC_eq (c : Dev nD) (i : grid1.Coords) (arg3 : Memref sig .tc .vmem S1x512x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S128x1024 .bf16) (harg6 : arg6.IsWhole) (arg7 : Memref sig .tc .vmem S1x1024 .f32) (harg7 : arg7.IsWhole) (arg8 : Memref sig .tc .vmem S1x512x1024 .f32) (harg8 : arg8.IsWhole) (arg9 : Memref sig .tc .vmem S1x2x512x2048 .f32) (harg9 : arg9.IsWhole) (arg10 : Memref sig .tc .vmem S512x1024 .f32) (harg10 : arg10.IsWhole) (hc0 : ¬cond1_0 i) (hc1 : cond1_1 i)
    (x0 : Vec F S1x512x128 .bf16) (x1 : Vec F S1x2048x128 .bf16) (x2 : Vec F S1x2048x128 .bf16) (x3 : Vec F S128x1024 .bf16) (x4 : Vec F S1x1024 .f32) (xs0 : Vec F S512x1024 .f32) :
    accOf (kernelRun1_C c i arg3 harg3 arg4 harg4 arg5 harg5 arg6 harg6 arg7 harg7 arg8 harg8 arg9 harg9 arg10 harg10 hc0 hc1 x0 x1 x2 x3 x4 xs0).2.2.1 = k1_pay4 (k1_pay10 x2) (k1_pay12 x0 x1 x2) (k1_pay13 x0 x1) x3 xs0 := by
  unfold accOf
  rw [View.read_writes_eq_canon _ _ _ (scover1_C_0 c i arg3 harg3 arg4 harg4 arg5 harg5 arg6 harg6 arg7 harg7 arg8 harg8 arg9 harg9 arg10 harg10 hc0 hc1 x0 x1 x2 x3 x4 xs0)]
  unfold kernelRun1_C; dsimp only
  sl_unfold_words
  rw [View.canon_unit_zero hz2']
  simp only [View.readAt_eq_ld, harg3.read_unread, harg4.read_unread, harg5.read_unread, harg6.read_unread, harg7.read_unread, harg10.read_unread,
    View.ld_unit_zero (S := S1x512x128) hz3', View.ld_unit_zero (S := S1x2048x128) hz3', View.ld_unit_zero (S := S128x1024) hz2',
    View.ld_unit_zero (S := S1x1024) hz2', View.ld_unit_zero (S := S512x1024) hz2']

set_option maxHeartbeats 2000000 in
theorem yC_eq (c : Dev nD) (i : grid1.Coords) (arg3 : Memref sig .tc .vmem S1x512x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S128x1024 .bf16) (harg6 : arg6.IsWhole) (arg7 : Memref sig .tc .vmem S1x1024 .f32) (harg7 : arg7.IsWhole) (arg8 : Memref sig .tc .vmem S1x512x1024 .f32) (harg8 : arg8.IsWhole) (arg9 : Memref sig .tc .vmem S1x2x512x2048 .f32) (harg9 : arg9.IsWhole) (arg10 : Memref sig .tc .vmem S512x1024 .f32) (harg10 : arg10.IsWhole) (hc0 : ¬cond1_0 i) (hc1 : cond1_1 i)
    (x0 : Vec F S1x512x128 .bf16) (x1 : Vec F S1x2048x128 .bf16) (x2 : Vec F S1x2048x128 .bf16) (x3 : Vec F S128x1024 .bf16) (x4 : Vec F S1x1024 .f32) (xs0 : Vec F S512x1024 .f32) :
    yOf (kernelRun1_C c i arg3 harg3 arg4 harg4 arg5 harg5 arg6 harg6 arg7 harg7 arg8 harg8 arg9 harg9 arg10 harg10 hc0 hc1 x0 x1 x2 x3 x4 xs0).1 = k1_pay5 (k1_pay4 (k1_pay10 x2) (k1_pay12 x0 x1 x2) (k1_pay13 x0 x1) x3 xs0) x4 := by
  unfold yOf
  rw [View.read_writes_eq_canon _ _ _ (cover1_C_5 c i arg3 harg3 arg4 harg4 arg5 harg5 arg6 harg6 arg7 harg7 arg8 harg8 arg9 harg9 arg10 harg10 hc0 hc1 x0 x1 x2 x3 x4 xs0)]
  unfold kernelRun1_C; dsimp only
  sl_unfold_words
  rw [View.canon_unit_zero hz3']
  simp only [View.readAt_eq_ld, harg3.read_unread, harg4.read_unread, harg5.read_unread, harg6.read_unread, harg7.read_unread, harg10.read_unread,
    View.ld_unit_zero (S := S1x512x128) hz3', View.ld_unit_zero (S := S1x2048x128) hz3', View.ld_unit_zero (S := S128x1024) hz2',
    View.ld_unit_zero (S := S1x1024) hz2', View.ld_unit_zero (S := S512x1024) hz2', View.readCov_unit_zero (S := S512x1024) arg10.view hz2']

set_option maxHeartbeats 2000000 in
theorem attA_eq (c : Dev nD) (i : grid1.Coords) (arg3 : Memref sig .tc .vmem S1x512x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S128x1024 .bf16) (harg6 : arg6.IsWhole) (arg7 : Memref sig .tc .vmem S1x1024 .f32) (harg7 : arg7.IsWhole) (arg8 : Memref sig .tc .vmem S1x512x1024 .f32) (harg8 : arg8.IsWhole) (arg9 : Memref sig .tc .vmem S1x2x512x2048 .f32) (harg9 : arg9.IsWhole) (arg10 : Memref sig .tc .vmem S512x1024 .f32) (harg10 : arg10.IsWhole) (hc0 : cond1_0 i) (hc1 : ¬cond1_1 i)
    (x0 : Vec F S1x512x128 .bf16) (x1 : Vec F S1x2048x128 .bf16) (x2 : Vec F S1x2048x128 .bf16) (x3 : Vec F S128x1024 .bf16) (x4 : Vec F S1x1024 .f32) :
    attOf (kernelRun1_A c i arg3 harg3 arg4 harg4 arg5 harg5 arg6 harg6 arg7 harg7 arg8 harg8 arg9 harg9 arg10 harg10 hc0 hc1 x0 x1 x2 x3 x4).1 = View.canon [(⟨Rect.unit (s := S1x2x512x2048) ![0, 1, 0, 0] S1x1x512x2048.size inb_S1x2x512x2048_S1x1x512x2048_0_1_0_0, k1_pay3 (k1_pay13 x0 x1)⟩ : View.Piece (Elt F) S1x2x512x2048 .f32),
      ⟨Rect.unit (s := S1x2x512x2048) ![0, 0, 0, 0] S1x1x512x2048.size inb_S1x2x512x2048_S1x1x512x2048_0_0_0_0, k1_pay2 (k1_pay11 x0 x1)⟩] := by
  unfold attOf
  rw [View.read_writes_eq_canon _ _ _ (cover1_A_6 c i arg3 harg3 arg4 harg4 arg5 harg5 arg6 harg6 arg7 harg7 arg8 harg8 arg9 harg9 arg10 harg10 hc0 hc1 x0 x1 x2 x3 x4)]
  unfold kernelRun1_A; dsimp only
  sl_unfold_words
  simp only [View.readAt_eq_ld, harg3.read_unread, harg4.read_unread, harg5.read_unread, harg6.read_unread, harg7.read_unread, harg10.read_unread,
    View.ld_unit_zero (S := S1x512x128) hz3', View.ld_unit_zero (S := S1x2048x128) hz3', View.ld_unit_zero (S := S128x1024) hz2',
    View.ld_unit_zero (S := S1x1024) hz2', View.ld_unit_zero (S := S512x1024) hz2']

set_option maxHeartbeats 2000000 in
theorem attB_eq (c : Dev nD) (i : grid1.Coords) (arg3 : Memref sig .tc .vmem S1x512x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S128x1024 .bf16) (harg6 : arg6.IsWhole) (arg7 : Memref sig .tc .vmem S1x1024 .f32) (harg7 : arg7.IsWhole) (arg8 : Memref sig .tc .vmem S1x512x1024 .f32) (harg8 : arg8.IsWhole) (arg9 : Memref sig .tc .vmem S1x2x512x2048 .f32) (harg9 : arg9.IsWhole) (arg10 : Memref sig .tc .vmem S512x1024 .f32) (harg10 : arg10.IsWhole) (hc0 : ¬cond1_0 i) (hc1 : ¬cond1_1 i)
    (x0 : Vec F S1x512x128 .bf16) (x1 : Vec F S1x2048x128 .bf16) (x2 : Vec F S1x2048x128 .bf16) (x3 : Vec F S128x1024 .bf16) (x4 : Vec F S1x1024 .f32) (xs0 : Vec F S512x1024 .f32) :
    attOf (kernelRun1_B c i arg3 harg3 arg4 harg4 arg5 harg5 arg6 harg6 arg7 harg7 arg8 harg8 arg9 harg9 arg10 harg10 hc0 hc1 x0 x1 x2 x3 x4 xs0).1 = View.canon [(⟨Rect.unit (s := S1x2x512x2048) ![0, 1, 0, 0] S1x1x512x2048.size inb_S1x2x512x2048_S1x1x512x2048_0_1_0_0, k1_pay3 (k1_pay13 x0 x1)⟩ : View.Piece (Elt F) S1x2x512x2048 .f32),
      ⟨Rect.unit (s := S1x2x512x2048) ![0, 0, 0, 0] S1x1x512x2048.size inb_S1x2x512x2048_S1x1x512x2048_0_0_0_0, k1_pay2 (k1_pay11 x0 x1)⟩] := by
  unfold attOf
  rw [View.read_writes_eq_canon _ _ _ (cover1_B_6 c i arg3 harg3 arg4 harg4 arg5 harg5 arg6 harg6 arg7 harg7 arg8 harg8 arg9 harg9 arg10 harg10 hc0 hc1 x0 x1 x2 x3 x4 xs0)]
  unfold kernelRun1_B; dsimp only
  sl_unfold_words
  simp only [View.readAt_eq_ld, harg3.read_unread, harg4.read_unread, harg5.read_unread, harg6.read_unread, harg7.read_unread, harg10.read_unread,
    View.ld_unit_zero (S := S1x512x128) hz3', View.ld_unit_zero (S := S1x2048x128) hz3', View.ld_unit_zero (S := S128x1024) hz2',
    View.ld_unit_zero (S := S1x1024) hz2', View.ld_unit_zero (S := S512x1024) hz2']

set_option maxHeartbeats 2000000 in
theorem attC_eq (c : Dev nD) (i : grid1.Coords) (arg3 : Memref sig .tc .vmem S1x512x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S128x1024 .bf16) (harg6 : arg6.IsWhole) (arg7 : Memref sig .tc .vmem S1x1024 .f32) (harg7 : arg7.IsWhole) (arg8 : Memref sig .tc .vmem S1x512x1024 .f32) (harg8 : arg8.IsWhole) (arg9 : Memref sig .tc .vmem S1x2x512x2048 .f32) (harg9 : arg9.IsWhole) (arg10 : Memref sig .tc .vmem S512x1024 .f32) (harg10 : arg10.IsWhole) (hc0 : ¬cond1_0 i) (hc1 : cond1_1 i)
    (x0 : Vec F S1x512x128 .bf16) (x1 : Vec F S1x2048x128 .bf16) (x2 : Vec F S1x2048x128 .bf16) (x3 : Vec F S128x1024 .bf16) (x4 : Vec F S1x1024 .f32) (xs0 : Vec F S512x1024 .f32) :
    attOf (kernelRun1_C c i arg3 harg3 arg4 harg4 arg5 harg5 arg6 harg6 arg7 harg7 arg8 harg8 arg9 harg9 arg10 harg10 hc0 hc1 x0 x1 x2 x3 x4 xs0).2.1 = View.canon [(⟨Rect.unit (s := S1x2x512x2048) ![0, 1, 0, 0] S1x1x512x2048.size inb_S1x2x512x2048_S1x1x512x2048_0_1_0_0, k1_pay3 (k1_pay13 x0 x1)⟩ : View.Piece (Elt F) S1x2x512x2048 .f32),
      ⟨Rect.unit (s := S1x2x512x2048) ![0, 0, 0, 0] S1x1x512x2048.size inb_S1x2x512x2048_S1x1x512x2048_0_0_0_0, k1_pay2 (k1_pay11 x0 x1)⟩] := by
  unfold attOf
  rw [View.read_writes_eq_canon _ _ _ (cover1_C_6 c i arg3 harg3 arg4 harg4 arg5 harg5 arg6 harg6 arg7 harg7 arg8 harg8 arg9 harg9 arg10 harg10 hc0 hc1 x0 x1 x2 x3 x4 xs0)]
  unfold kernelRun1_C; dsimp only
  sl_unfold_words
  simp only [View.readAt_eq_ld, harg3.read_unread, harg4.read_unread, harg5.read_unread, harg6.read_unread, harg7.read_unread, harg10.read_unread,
    View.ld_unit_zero (S := S1x512x128) hz3', View.ld_unit_zero (S := S1x2048x128) hz3', View.ld_unit_zero (S := S128x1024) hz2',
    View.ld_unit_zero (S := S1x1024) hz2', View.ld_unit_zero (S := S512x1024) hz2']

end Cert.KernelIdeal.Gen

end
-- ==== Proof.Value.R1Pts.lean ====
/-
  What each grid point of the attention region leaves, read through the body's named arithmetic of the point's
  blocks: the attention block (two heads' normalised weights), the accumulator (what the point before left, or zero
  at a row block's first head pair, plus this pair's projected output), and at the last head pair the result block
  (the accumulator plus the bias row).
-/
import proofs.«178877_j27444841021700_2_alg».proof.Proof.Value.R1Found
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

set_option maxHeartbeats 1000000 in
theorem att_at (c : Dev nD) (t : Fin cfg1.N) :
    (outsAt1 V c t.val t.isLt).2.1 = View.canon [(⟨Rect.unit (s := S1x2x512x2048) ![0, 1, 0, 0] S1x1x512x2048.size inb_S1x2x512x2048_S1x1x512x2048_0_1_0_0, k1_pay3 (k1_pay13 (iblk1 V c 0 t) (iblk1 V c 1 t))⟩ : View.Piece (Elt F) S1x2x512x2048 .f32),
      ⟨Rect.unit (s := S1x2x512x2048) ![0, 0, 0, 0] S1x1x512x2048.size inb_S1x2x512x2048_S1x1x512x2048_0_0_0_0, k1_pay2 (k1_pay11 (iblk1 V c 0 t) (iblk1 V c 1 t))⟩] := by
  by_cases h0 : t.val % 8 = 0
  · have h1 : ¬t.val % 8 = 7 := by omega
    rw [outsAt1_A V c t h0 h1]; unfold resA; dsimp only
    exact attA_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t)
  · by_cases h1 : t.val % 8 = 7
    · rw [outsAt1_C V c t h0 h1]; unfold resC; dsimp only
      exact attC_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2.2
    · rw [outsAt1_B V c t h0 h1]; unfold resB; dsimp only
      exact attB_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2.2

/-- The accumulator a point starts from: zero at a row block's first head pair, else what the point before left. -/
def prevAcc (c : Dev nD) (t : Fin cfg1.N) : Vec F S512x1024 .f32 :=
  if t.val % 8 = 0 then k1_pay6 (F := F) else (outsAt1 V c (t.val - 1) (Nat.lt_of_le_of_lt (Nat.sub_le _ _) t.isLt)).2.2

set_option maxHeartbeats 1000000 in
theorem acc_at (c : Dev nD) (t : Fin cfg1.N) :
    (outsAt1 V c t.val t.isLt).2.2 = k1_pay4 (k1_pay10 (iblk1 V c 2 t)) (k1_pay12 (iblk1 V c 0 t) (iblk1 V c 1 t) (iblk1 V c 2 t)) (k1_pay13 (iblk1 V c 0 t) (iblk1 V c 1 t)) (iblk1 V c 3 t) (prevAcc V c t) := by
  by_cases h0 : t.val % 8 = 0
  · have h1 : ¬t.val % 8 = 7 := by omega
    rw [outsAt1_A V c t h0 h1]; unfold resA prevAcc; rw [if_pos h0]; dsimp only
    exact accA_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t)
  · by_cases h1 : t.val % 8 = 7
    · rw [outsAt1_C V c t h0 h1]; unfold resC prevAcc; rw [if_neg h0]; dsimp only
      exact accC_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2.2
    · rw [outsAt1_B V c t h0 h1]; unfold resB prevAcc; rw [if_neg h0]; dsimp only
      exact accB_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2.2

set_option maxHeartbeats 1000000 in
theorem y_at (c : Dev nD) (t : Fin cfg1.N) (h1 : t.val % 8 = 7) :
    (outsAt1 V c t.val t.isLt).1 = k1_pay5 ((outsAt1 V c t.val t.isLt).2.2) (iblk1 V c 4 t) := by
  have h0 : ¬t.val % 8 = 0 := by omega
  rw [outsAt1_C V c t h0 h1]; unfold resC; dsimp only
  rw [accC_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2.2]
  exact yC_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2.2

end Region1

end Cert.KernelIdeal.Gen

end
-- ==== Proof.Spec.lean ====
/-
  One multi-head self-attention layer, stated once on the extended reals, index by index, over the literal
  extents of this instance: batch 2, sequence length 2048, model width 1024 = 16 heads of width 64, fused
  projection width 3072 = 3 · 1024.

  From the input `x` and the fused weight `Wa`, the fused projection is
      qkv b s n = ∑ k, x (b, s, k) · Wa (n, k),
  whose columns `64·h + j` are head `h`'s queries, `1024 + 64·h + j` its keys and `2048 + d` the values. A
  score is the inner product of a query row with a key row times the scale `1/8 = 1/√64`; a row of scores is
  normalised by the usual shifted softmax: with `M` the row's maximum, `p = exp (score − M)`, the denominator
  `∑ p`, and the attention weight `p / denominator`. The attended values `o b q d = ∑ k, att b (d / 64) q k ·
  qkv b k (2048 + d)` are projected by `Wp` and shifted by the bias:
      y b s e = (∑ d, o b s d · Wp (e, d)) + bias e.

  Every sum is a `Fin`-indexed sum over one axis, the maximum is the fold of `max` from `⊥` over the key
  axis, the exponential and the quotient are the extended reals' (with their conventions at the infinities and
  at zero). Nothing here mentions a program: both a tiled and an untiled computation are compared with these
  functions.
-/
import Idealize.ShloMosaic.PureOps.Ideal
import Idealize.ShloMosaic.PureOps.Ideal.Laws
import Idealize.ShloMosaic.Lib.ValueIdx

noncomputable section

open scoped BigOperators

namespace Cert.AttnSpec

open Idealize.ShloMosaic Idealize.ShloMosaic.ValueIdx

/-! ## The arrays -/

/-- The input, `[2, 2048, 1024]`. -/
abbrev ArrX : Type := (⟨3, ![2, 2048, 1024]⟩ : Shape).Idx → EReal
/-- The fused query/key/value weight, `[3072, 1024]` (row `n` produces column `n` of the projection). -/
abbrev ArrWa : Type := (⟨2, ![3072, 1024]⟩ : Shape).Idx → EReal
/-- The output weight, `[1024, 1024]` (row `e` produces column `e` of the result). -/
abbrev ArrWp : Type := (⟨2, ![1024, 1024]⟩ : Shape).Idx → EReal
/-- The output bias, `[1024]`. -/
abbrev ArrB : Type := (⟨1, ![1024]⟩ : Shape).Idx → EReal
/-- The result, `[2, 2048, 1024]`. -/
abbrev ArrY : Type := (⟨3, ![2, 2048, 1024]⟩ : Shape).Idx → EReal
/-- The attention weights, `[2, 16, 2048, 2048]`: batch, head, query row, key row. -/
abbrev ArrAtt : Type := (⟨4, ![2, 16, 2048, 2048]⟩ : Shape).Idx → EReal

/-! ## Columns of the fused projection -/

/-- Component `j` of head `h`'s query sits in column `64·h + j`. -/
def qcol (h : Fin 16) (j : Fin 64) : Fin 3072 :=
  ⟨h.val * 64 + j.val, by have := h.isLt; have := j.isLt; omega⟩
/-- Component `j` of head `h`'s key sits in column `1024 + 64·h + j`. -/
def kcol (h : Fin 16) (j : Fin 64) : Fin 3072 :=
  ⟨1024 + (h.val * 64 + j.val), by have := h.isLt; have := j.isLt; omega⟩
/-- Value column `d` (component `d % 64` of head `d / 64`) sits in column `2048 + d`. -/
def vcol (d : Fin 1024) : Fin 3072 := ⟨2048 + d.val, by have := d.isLt; omega⟩
/-- The head a model-width column belongs to. -/
def headOf (d : Fin 1024) : Fin 16 := ⟨d.val / 64, by have := d.isLt; omega⟩

@[simp] theorem qcol_val (h : Fin 16) (j : Fin 64) : (qcol h j).val = h.val * 64 + j.val := rfl
@[simp] theorem kcol_val (h : Fin 16) (j : Fin 64) : (kcol h j).val = 1024 + (h.val * 64 + j.val) := rfl
@[simp] theorem vcol_val (d : Fin 1024) : (vcol d).val = 2048 + d.val := rfl
@[simp] theorem headOf_val (d : Fin 1024) : (headOf d).val = d.val / 64 := rfl

/-! ## The constants -/

/-- The scale `1/√64`, as the binary32 word of `0.125`. -/
def scale : EReal := Ideal.ofBits .f32 0x3E000000#32

/-- That word denotes one eighth. -/
theorem scale_eq : scale = ((1 / 8 : ℝ) : EReal) := by
  unfold scale
  simp [Ideal.ofBits, Ideal.ieee, -EReal.coe_mul]
  norm_num

/-- The word of `64.0` denotes 64. -/
theorem ofBits_64 : Ideal.ofBits .f32 0x42800000#32 = ((64 : ℝ) : EReal) := by
  simp [Ideal.ofBits, Ideal.ieee, -EReal.coe_mul]
  norm_num

/-- The word of `1.0` denotes 1. -/
theorem ofBits_one : Ideal.ofBits .f32 0x3F800000#32 = ((1 : ℝ) : EReal) := by
  simp [Ideal.ofBits, Ideal.ieee, -EReal.coe_mul]
  norm_num

/-- The word of `-∞` denotes `⊥`. -/
theorem ofBits_negInf : Ideal.ofBits .f32 0xFF800000#32 = ⊥ := by
  simp [Ideal.ofBits, Ideal.ieee]

/-- One divided by the square root of sixty-four, computed on the extended reals from the two words, is the
    scale: `√64 = 8` and `1 · 8⁻¹ = 1/8`. -/
theorem one_div_sqrt_64 :
    Ideal.div (Ideal.ofBits .f32 0x3F800000#32) (Ideal.sqrt (Ideal.ofBits .f32 0x42800000#32)) = scale := by
  have h8 : Real.sqrt 64 = 8 := by
    rw [show (64 : ℝ) = 8 ^ 2 by norm_num, Real.sqrt_sq (by norm_num)]
  rw [ofBits_64, ofBits_one, Ideal.sqrt_coe, if_neg (by norm_num), h8,
    Ideal.div_coe (by norm_num : (8 : ℝ) ≠ 0), scale_eq, ← EReal.coe_mul]
  norm_num

/-! ## The layer -/

section Layer
variable (x : ArrX) (Wa : ArrWa)

/-- The fused projection: entry `(b, s, n)` is row `(b, s)` of the input against row `n` of the weight. -/
def qkv (b : Fin 2) (s : Fin 2048) (n : Fin 3072) : EReal :=
  ∑ k : Fin 1024, x (ix3 b s k) * Wa (ix2 n k)

/-- The scaled score of query row `q` against key row `k` in head `h`. -/
def score (b : Fin 2) (h : Fin 16) (q k : Fin 2048) : EReal :=
  (∑ j : Fin 64, qkv x Wa b q (qcol h j) * qkv x Wa b k (kcol h j)) * scale

/-- The largest score of a query row: the fold of `max` from `⊥` over the key rows. -/
def rowMax (b : Fin 2) (h : Fin 16) (q : Fin 2048) : EReal :=
  (Finset.univ : Finset (Fin 2048)).fold max ⊥ (fun k => score x Wa b h q k)

/-- The shifted exponential of a score. -/
def p (b : Fin 2) (h : Fin 16) (q k : Fin 2048) : EReal :=
  Ideal.exp (score x Wa b h q k - rowMax x Wa b h q)

/-- The softmax denominator of a query row. -/
def den (b : Fin 2) (h : Fin 16) (q : Fin 2048) : EReal :=
  ∑ k : Fin 2048, p x Wa b h q k

/-- The attention weight. -/
def att (b : Fin 2) (h : Fin 16) (q k : Fin 2048) : EReal :=
  Ideal.div (p x Wa b h q k) (den x Wa b h q)

/-- The attended values, heads side by side along the model width: column `d` belongs to head `d / 64`. -/
def o (b : Fin 2) (q : Fin 2048) (d : Fin 1024) : EReal :=
  ∑ k : Fin 2048, att x Wa b (headOf d) q k * qkv x Wa b k (vcol d)

variable (Wp : ArrWp) (bias : ArrB)

/-- The output projection with its bias. -/
def y (b : Fin 2) (s : Fin 2048) (e : Fin 1024) : EReal :=
  (∑ d : Fin 1024, o x Wa b s d * Wp (ix2 e d)) + bias (ix1 e)

/-- The first result as an array. -/
def Gy : ArrY := fun i => y x Wa Wp bias (i 0) (i 1) (i 2)

/-- The second result, the attention weights, as an array. -/
def Gatt : ArrAtt := fun i => att x Wa (i 0) (i 1) (i 2) (i 3)

theorem Gy_apply (b : Fin 2) (s : Fin 2048) (e : Fin 1024) :
    Gy x Wa Wp bias (ix3 b s e) = y x Wa Wp bias b s e := rfl

theorem Gatt_apply (b : Fin 2) (h : Fin 16) (q k : Fin 2048) :
    Gatt x Wa (ix4 b h q k) = att x Wa b h q k := rfl

end Layer

end Cert.AttnSpec

end
-- ==== Proof.BlockMath.lean ====
/-
  Attention for one head on one block of query rows, as functions of the block's rows: scaled scores, the row
  maximum, the exponentials, their row sum, the normalised weights and the weighted sum of the value rows; and the
  output projection's partial sum over one head pair's 128 lanes. Everything over the extended reals, index by index.
-/
import Idealize.ShloMosaic.PureOps.Ideal
import Idealize.ShloMosaic.PureOps.Ideal.Laws
import proofs.«178877_j27444841021700_2_alg».proof.Proof.Spec

noncomputable section

namespace Cert.AttnBlock

open Idealize.ShloMosaic

/-- The low and the high 64 lanes of a 128-lane row: the two heads of a pair. -/
def lo (j : Fin 64) : Fin 128 := ⟨j.val, by omega⟩
def hi (j : Fin 64) : Fin 128 := ⟨64 + j.val, by omega⟩
@[simp] theorem lo_val (j : Fin 64) : (lo j).val = j.val := rfl
@[simp] theorem hi_val (j : Fin 64) : (hi j).val = 64 + j.val := rfl

variable (q : Fin 512 → Fin 64 → EReal) (k v : Fin 2048 → Fin 64 → EReal)

def bscore (r : Fin 512) (c : Fin 2048) : EReal := (∑ j : Fin 64, q r j * k c j) * Cert.AttnSpec.scale
def bmax (r : Fin 512) : EReal := (Finset.univ : Finset (Fin 2048)).fold max ⊥ (fun c => bscore q k r c)
def bp (r : Fin 512) (c : Fin 2048) : EReal := Ideal.exp (bscore q k r c - bmax q k r)
def bden (r : Fin 512) : EReal := ∑ c : Fin 2048, bp q k r c
def batt (r : Fin 512) (c : Fin 2048) : EReal := Ideal.div (bp q k r c) (bden q k r)
def bo (r : Fin 512) (j : Fin 64) : EReal := ∑ c : Fin 2048, batt q k r c * v c j

/-- The two heads' outputs side by side: lane `l` of the pair is head 0's lane `l` below 64, head 1's lane `l - 64` from 64 on. -/
def opair (o0 o1 : Fin 512 → Fin 64 → EReal) (r : Fin 512) (l : Fin 128) : EReal :=
  if h : l.val < 64 then o0 r ⟨l.val, h⟩ else o1 r ⟨l.val - 64, by omega⟩

/-- One head pair's contribution to the projected output: the pair's 128 lanes against the 128 weight rows. -/
def contrib (op : Fin 512 → Fin 128 → EReal) (w : Fin 128 → Fin 1024 → EReal) (r : Fin 512) (e : Fin 1024) : EReal :=
  ∑ l : Fin 128, op r l * w l e

/-- Column `l` of head pair `p` among the 1024 model columns. -/
def dOf (p : Fin 8) (l : Fin 128) : Fin 1024 := ⟨128 * p.val + l.val, by omega⟩
@[simp] theorem dOf_val (p : Fin 8) (l : Fin 128) : (dOf p l).val = 128 * p.val + l.val := rfl

/-- The accumulator after head pair `p`: zero plus pair 0's contribution, then each later pair's added on the right. -/
def accUpTo (c : Fin 8 → EReal) : (p : ℕ) → p < 8 → EReal
  | 0, h => 0 + c ⟨0, h⟩
  | p + 1, h => accUpTo c p (by omega) + c ⟨p + 1, h⟩

end Cert.AttnBlock

end
-- ==== Proof.Value.AccLaw.lean ====
/-
  The output projection accumulated head pair by head pair.

  The 1024 model columns are 8 head pairs of 128 lanes: column `d` is lane `d % 128` of pair `d / 128`, and
  `(p, l) ↦ 128·p + l` is a bijection from pairs of a pair number and a lane onto the columns. A sum over the
  columns is therefore the sum over the pairs of the sums over the lanes — only commutativity and
  associativity of addition are used, which hold on all of the extended reals. An accumulator that starts at
  zero and adds one pair's partial sum after another ends at the sum over the eight pairs. Together: the
  projected output is the accumulator after the last pair, plus the bias.

  Lane `j` below 64 of pair `p` belongs to head `2·p`, lane `64 + j` to head `2·p + 1`, since
  `(128·p + j) / 64 = 2·p` and `(128·p + 64 + j) / 64 = 2·p + 1` for `j < 64`; so the attended values at a
  pair's lanes are those two heads' weighted sums of the value columns `2048 + 128·p + j` and
  `2048 + 128·p + 64 + j`.
-/
import proofs.«178877_j27444841021700_2_alg».proof.Proof.BlockMath
import proofs.«178877_j27444841021700_2_alg».proof.Proof.Spec

noncomputable section

open scoped BigOperators

namespace Cert.AttnBlock

open Idealize.ShloMosaic Idealize.ShloMosaic.ValueIdx

/-! ## The accumulator ends at the sum over the pairs -/

/-- Zero, then the eight contributions added one after another on the right, is their sum. -/
theorem accUpTo_last (c : Fin 8 → EReal) : accUpTo c 7 (by decide) = ∑ p : Fin 8, c p := by
  rw [Fin.sum_univ_eight]
  show 0 + c 0 + c 1 + c 2 + c 3 + c 4 + c 5 + c 6 + c 7 = c 0 + c 1 + c 2 + c 3 + c 4 + c 5 + c 6 + c 7
  rw [zero_add]

/-! ## The columns as pairs and lanes -/

/-- A pair number and a lane name one column, and every column is named once. -/
def pairEquiv : Fin 8 × Fin 128 ≃ Fin 1024 where
  toFun x := dOf x.1 x.2
  invFun d := (⟨d.val / 128, by have := d.isLt; omega⟩, ⟨d.val % 128, Nat.mod_lt _ (by decide)⟩)
  left_inv x := Prod.ext
    (Fin.ext (by have := x.2.isLt; show (128 * x.1.val + x.2.val) / 128 = x.1.val; omega))
    (Fin.ext (by have := x.2.isLt; show (128 * x.1.val + x.2.val) % 128 = x.2.val; omega))
  right_inv d := Fin.ext (by show 128 * (d.val / 128) + d.val % 128 = d.val; omega)

/-- A sum over the columns is the sum over the pairs of the sums over the lanes. -/
theorem sum_pairs (f : Fin 1024 → EReal) : ∑ d : Fin 1024, f d = ∑ p : Fin 8, ∑ l : Fin 128, f (dOf p l) := by
  rw [← Equiv.sum_comp pairEquiv f, Fintype.sum_prod_type]
  rfl

/-! ## The projected output as the last accumulator plus the bias -/

section Layer
variable (x : AttnSpec.ArrX) (Wa : AttnSpec.ArrWa)

theorem y_eq_acc (Wp : AttnSpec.ArrWp) (bias : AttnSpec.ArrB) (b : Fin 2) (s : Fin 2048) (e : Fin 1024) :
    AttnSpec.y x Wa Wp bias b s e
      = accUpTo (fun p => ∑ l : Fin 128, AttnSpec.o x Wa b s (dOf p l) * Wp (ix2 e (dOf p l))) 7 (by decide)
        + bias (ix1 e) := by
  unfold AttnSpec.y
  refine congrArg (· + bias (ix1 e)) ?_
  exact (sum_pairs (fun d => AttnSpec.o x Wa b s d * Wp (ix2 e d))).trans (accUpTo_last _).symm

/-! ## The attended values at a pair's lanes -/

/-- The two heads of pair `p`. -/
def head0 (p : Fin 8) : Fin 16 := ⟨2 * p.val, by have := p.isLt; omega⟩
def head1 (p : Fin 8) : Fin 16 := ⟨2 * p.val + 1, by have := p.isLt; omega⟩
/-- The value columns of the fused projection under pair `p`'s low and high lanes. -/
def vcolLo (p : Fin 8) (j : Fin 64) : Fin 3072 :=
  ⟨2048 + (128 * p.val + j.val), by have := p.isLt; have := j.isLt; omega⟩
def vcolHi (p : Fin 8) (j : Fin 64) : Fin 3072 :=
  ⟨2048 + (128 * p.val + 64 + j.val), by have := p.isLt; have := j.isLt; omega⟩
@[simp] theorem head0_val (p : Fin 8) : (head0 p).val = 2 * p.val := rfl
@[simp] theorem head1_val (p : Fin 8) : (head1 p).val = 2 * p.val + 1 := rfl
@[simp] theorem vcolLo_val (p : Fin 8) (j : Fin 64) : (vcolLo p j).val = 2048 + (128 * p.val + j.val) := rfl
@[simp] theorem vcolHi_val (p : Fin 8) (j : Fin 64) : (vcolHi p j).val = 2048 + (128 * p.val + 64 + j.val) := rfl

/-- At a low lane: head `2·p` against value column `2048 + 128·p + j`, under any names of the two. -/
theorem o_lo_of (b : Fin 2) (q : Fin 2048) (p : Fin 8) (j : Fin 64) (h0 : Fin 16) (hh : h0.val = 2 * p.val)
    (n : Fin 3072) (hn : n.val = 2048 + (128 * p.val + j.val)) :
    AttnSpec.o x Wa b q (dOf p (lo j)) = ∑ k : Fin 2048, AttnSpec.att x Wa b h0 q k * AttnSpec.qkv x Wa b k n := by
  have hp := p.isLt; have hj := j.isLt
  unfold AttnSpec.o
  have e1 : AttnSpec.headOf (dOf p (lo j)) = h0 :=
    Fin.ext (by show (128 * p.val + j.val) / 64 = h0.val; omega)
  have e2 : AttnSpec.vcol (dOf p (lo j)) = n :=
    Fin.ext (by show 2048 + (128 * p.val + j.val) = n.val; omega)
  rw [e1, e2]

/-- At a high lane: head `2·p + 1` against value column `2048 + 128·p + 64 + j`, under any names of the two. -/
theorem o_hi_of (b : Fin 2) (q : Fin 2048) (p : Fin 8) (j : Fin 64) (h1 : Fin 16) (hh : h1.val = 2 * p.val + 1)
    (n : Fin 3072) (hn : n.val = 2048 + (128 * p.val + 64 + j.val)) :
    AttnSpec.o x Wa b q (dOf p (hi j)) = ∑ k : Fin 2048, AttnSpec.att x Wa b h1 q k * AttnSpec.qkv x Wa b k n := by
  have hp := p.isLt; have hj := j.isLt
  unfold AttnSpec.o
  have e1 : AttnSpec.headOf (dOf p (hi j)) = h1 :=
    Fin.ext (by show (128 * p.val + (64 + j.val)) / 64 = h1.val; omega)
  have e2 : AttnSpec.vcol (dOf p (hi j)) = n :=
    Fin.ext (by show 2048 + (128 * p.val + (64 + j.val)) = n.val; omega)
  rw [e1, e2]

/-- The same with the heads and columns named by `head0`, `head1`, `vcolLo`, `vcolHi`. -/
theorem o_lo (b : Fin 2) (q : Fin 2048) (p : Fin 8) (j : Fin 64) :
    AttnSpec.o x Wa b q (dOf p (lo j))
      = ∑ k : Fin 2048, AttnSpec.att x Wa b (head0 p) q k * AttnSpec.qkv x Wa b k (vcolLo p j) :=
  o_lo_of x Wa b q p j (head0 p) rfl (vcolLo p j) rfl

theorem o_hi (b : Fin 2) (q : Fin 2048) (p : Fin 8) (j : Fin 64) :
    AttnSpec.o x Wa b q (dOf p (hi j))
      = ∑ k : Fin 2048, AttnSpec.att x Wa b (head1 p) q k * AttnSpec.qkv x Wa b k (vcolHi p j) :=
  o_hi_of x Wa b q p j (head1 p) rfl (vcolHi p j) rfl

end Layer

end Cert.AttnBlock

end
-- ==== Proof.Value.PayDefs.lean ====
/-
  The two heads of a pair inside the loaded blocks. A query, key or value block holds 128 lanes per row: the low
  64 lanes are the pair's first head and the high 64 its second. These are the rows of each head as functions of
  a row and a lane, and the output weight block as a function of its row and column.
-/
import proofs.«178877_j27444841021700_2_alg».proof.Proof.Gen.KernelIdeal.Skeleton
import proofs.«178877_j27444841021700_2_alg».proof.Proof.BlockMath
import Idealize.ShloMosaic.Lib.ValueIdx

noncomputable section

open scoped BigOperators

namespace Cert.KernelIdeal.PayIdx

open Idealize.ShloMosaic Idealize.ShloMosaic.ValueIdx Cert.KernelIdeal Cert.KernelIdeal.Gen Cert.AttnBlock

/-- The first head's query rows of a query block. -/
def qlo (x0 : Vec Ideal S1x512x128 .bf16) : Fin 512 → Fin 64 → EReal := fun r j => x0 (ix3 0 r (lo j))
/-- The second head's query rows. -/
def qhi (x0 : Vec Ideal S1x512x128 .bf16) : Fin 512 → Fin 64 → EReal := fun r j => x0 (ix3 0 r (hi j))
/-- The first head's key rows of a key block. -/
def klo (x1 : Vec Ideal S1x2048x128 .bf16) : Fin 2048 → Fin 64 → EReal := fun c j => x1 (ix3 0 c (lo j))
/-- The second head's key rows. -/
def khi (x1 : Vec Ideal S1x2048x128 .bf16) : Fin 2048 → Fin 64 → EReal := fun c j => x1 (ix3 0 c (hi j))
/-- The first head's value rows of a value block. -/
def vlo (x2 : Vec Ideal S1x2048x128 .bf16) : Fin 2048 → Fin 64 → EReal := fun c j => x2 (ix3 0 c (lo j))
/-- The second head's value rows. -/
def vhi (x2 : Vec Ideal S1x2048x128 .bf16) : Fin 2048 → Fin 64 → EReal := fun c j => x2 (ix3 0 c (hi j))
/-- The output weight's block for one head pair: 128 rows, one per lane of the pair. -/
def w3 (x3 : Vec Ideal S128x1024 .bf16) : Fin 128 → Fin 1024 → EReal := fun l e => x3 (ix2 l e)

end Cert.KernelIdeal.PayIdx

end
-- ==== Proof.Value.R1Blocks.lean ====
/-
  The attention stage's blocks, read by coordinates.

  The 64 grid points are numbered row-major over (batch, query block, head pair) = (2, 4, 8): point `t` has batch
  `t / 32`, query block `t / 8 % 4` and head pair `t % 8`. At point `t` the query window shows rows
  `512·(t / 8 % 4) …` and the 128 columns of pair `t % 8` of batch `t / 32`; the key and the value windows show all
  2048 rows of the same batch and columns; the weight window shows the pair's 128 rows of the transposed output
  weight; the bias window shows the one bias row. An entry at coordinate `y` inside block `q` along an axis of
  block size `n` is the array's entry at `q·n + y`.

  Pair `p`'s lane `j` below 64 is column `128·p + j = 64·(2·p) + j`, head `2·p`'s component `j`; lane `64 + j` is
  column `64·(2·p + 1) + j`, head `2·p + 1`'s. So when the three cut arrays hold the fused projection's columns
  `d`, `1024 + d` and `2048 + d`, the blocks' rows are the specification's query, key and value rows of the two
  heads.

  The result window's blocks `[1, 512, 1024]` are written back at a row block's last pair (points `≡ 7 mod 8`), the
  weights window's blocks `[1, 2, 512, 2048]` at every point; either family tiles its array.
-/
import proofs.«178877_j27444841021700_2_alg».proof.Proof.KernelIdeal.R1Runs
import proofs.«178877_j27444841021700_2_alg».proof.Proof.BlockMath
import proofs.«178877_j27444841021700_2_alg».proof.Proof.Spec
import proofs.«178877_j27444841021700_2_alg».proof.Proof.Value.AccLaw
import proofs.«178877_j27444841021700_2_alg».proof.Proof.Value.PayDefs
import Idealize.ShloMosaic.Lib.Pipeline.Value
import Idealize.ShloMosaic.Lib.ValueIdx

noncomputable section

open scoped BigOperators

namespace Cert.KernelIdeal.Gen

open Idealize.ShloMosaic Idealize.ShloMosaic.ValueIdx Idealize.ShloMosaic.TcCoe Idealize.SL.Sem
open Idealize.ShloMosaic.Pipeline (Dat)
open Cert.AttnBlock

/-! ## A point's coordinates -/

/-- The batch of point `t`. -/
def bOf (t : Fin cfg1.N) : Fin 2 := ⟨t.val / 32, by have h : t.val < grid1.N := t.isLt; have hN := N_1; omega⟩
/-- The query block of point `t`. -/
def qiOf (t : Fin cfg1.N) : Fin 4 := ⟨t.val / 8 % 4, Nat.mod_lt _ (by decide)⟩
/-- The head pair of point `t`. -/
def pOf (t : Fin cfg1.N) : Fin 8 := ⟨t.val % 8, Nat.mod_lt _ (by decide)⟩
/-- Row `r` of point `t`'s query block, as a row of the sequence. -/
def sOf (t : Fin cfg1.N) (r : Fin 512) : Fin 2048 :=
  ⟨512 * (t.val / 8 % 4) + r.val, by have := r.isLt; have : t.val / 8 % 4 < 4 := Nat.mod_lt _ (by decide); omega⟩
@[simp] theorem bOf_val (t : Fin cfg1.N) : (bOf t).val = t.val / 32 := rfl
@[simp] theorem qiOf_val (t : Fin cfg1.N) : (qiOf t).val = t.val / 8 % 4 := rfl
@[simp] theorem pOf_val (t : Fin cfg1.N) : (pOf t).val = t.val % 8 := rfl
@[simp] theorem sOf_val (t : Fin cfg1.N) (r : Fin 512) : (sOf t r).val = 512 * (t.val / 8 % 4) + r.val := rfl

/-- Which block each input window shows at a point. -/
theorem idx_in1 : ∀ t : Fin cfg1.N,
    win1_0.index t (0 : Fin 3) = t.val / 32 ∧ win1_0.index t (1 : Fin 3) = t.val / 8 % 4 ∧ win1_0.index t (2 : Fin 3) = t.val % 8
    ∧ win1_1.index t (0 : Fin 3) = t.val / 32 ∧ win1_1.index t (1 : Fin 3) = 0 ∧ win1_1.index t (2 : Fin 3) = t.val % 8
    ∧ win1_2.index t (0 : Fin 3) = t.val / 32 ∧ win1_2.index t (1 : Fin 3) = 0 ∧ win1_2.index t (2 : Fin 3) = t.val % 8
    ∧ win1_3.index t (0 : Fin 2) = t.val % 8 ∧ win1_3.index t (1 : Fin 2) = 0
    ∧ win1_4.index t (0 : Fin 2) = 0 ∧ win1_4.index t (1 : Fin 2) = 0 :=
  (by decide +kernel : ∀ t : Fin grid1.N, _)

/-- Which block each output window shows at a point. -/
theorem idx_out1 : ∀ t : Fin cfg1.N,
    win1_5.index t (0 : Fin 3) = t.val / 32 ∧ win1_5.index t (1 : Fin 3) = t.val / 8 % 4 ∧ win1_5.index t (2 : Fin 3) = 0
    ∧ win1_6.index t (0 : Fin 4) = t.val / 32 ∧ win1_6.index t (1 : Fin 4) = t.val % 8
    ∧ win1_6.index t (2 : Fin 4) = t.val / 8 % 4 ∧ win1_6.index t (3 : Fin 4) = 0 :=
  (by decide +kernel : ∀ t : Fin grid1.N, _)

/-! ## The input blocks at an entry -/

section Region1
variable (V : (c : Dev nD) → (b : Ref sig .tc) → Buf (Elt Ideal) ((c : Thread nD τ).loc b))

/-- The query block. -/
theorem blk0_at (c : Dev nD) (t : Fin cfg1.N) (r : Fin 512) (l : Fin 128) :
    (iblk1 V c 0 t : S1x512x128.Idx → EReal) (ix3 0 r l)
      = (V c main_v6 : S2x2048x1024.Idx → EReal) (ix3 (bOf t) (sOf t r) (dOf (pOf t) l)) := by
  obtain ⟨e0, e1, e2, -⟩ := idx_in1 t
  show V c main_v6 (((cfg1.win 0).blk t).view.emb (ix3 0 r l)) = V c main_v6 (ix3 (bOf t) (sOf t r) (dOf (pOf t) l))
  refine congrArg (V c main_v6) ?_
  funext a; apply Fin.ext
  match a with
  | ⟨0, _⟩ => show win1_0.index t (0 : Fin 3) * 1 + 1 * 0 = t.val / 32; omega
  | ⟨1, _⟩ => show win1_0.index t (1 : Fin 3) * 512 + 1 * r.val = 512 * (t.val / 8 % 4) + r.val; omega
  | ⟨2, _⟩ => show win1_0.index t (2 : Fin 3) * 128 + 1 * l.val = 128 * (t.val % 8) + l.val; omega

/-- The key block. -/
theorem blk1_at (c : Dev nD) (t : Fin cfg1.N) (k : Fin 2048) (l : Fin 128) :
    (iblk1 V c 1 t : S1x2048x128.Idx → EReal) (ix3 0 k l)
      = (V c main_v7 : S2x2048x1024.Idx → EReal) (ix3 (bOf t) k (dOf (pOf t) l)) := by
  obtain ⟨-, -, -, e0, e1, e2, -⟩ := idx_in1 t
  show V c main_v7 (((cfg1.win 1).blk t).view.emb (ix3 0 k l)) = V c main_v7 (ix3 (bOf t) k (dOf (pOf t) l))
  refine congrArg (V c main_v7) ?_
  funext a; apply Fin.ext
  match a with
  | ⟨0, _⟩ => show win1_1.index t (0 : Fin 3) * 1 + 1 * 0 = t.val / 32; omega
  | ⟨1, _⟩ => show win1_1.index t (1 : Fin 3) * 2048 + 1 * k.val = k.val; omega
  | ⟨2, _⟩ => show win1_1.index t (2 : Fin 3) * 128 + 1 * l.val = 128 * (t.val % 8) + l.val; omega

/-- The value block. -/
theorem blk2_at (c : Dev nD) (t : Fin cfg1.N) (k : Fin 2048) (l : Fin 128) :
    (iblk1 V c 2 t : S1x2048x128.Idx → EReal) (ix3 0 k l)
      = (V c main_v8 : S2x2048x1024.Idx → EReal) (ix3 (bOf t) k (dOf (pOf t) l)) := by
  obtain ⟨-, -, -, -, -, -, e0, e1, e2, -⟩ := idx_in1 t
  show V c main_v8 (((cfg1.win 2).blk t).view.emb (ix3 0 k l)) = V c main_v8 (ix3 (bOf t) k (dOf (pOf t) l))
  refine congrArg (V c main_v8) ?_
  funext a; apply Fin.ext
  match a with
  | ⟨0, _⟩ => show win1_2.index t (0 : Fin 3) * 1 + 1 * 0 = t.val / 32; omega
  | ⟨1, _⟩ => show win1_2.index t (1 : Fin 3) * 2048 + 1 * k.val = k.val; omega
  | ⟨2, _⟩ => show win1_2.index t (2 : Fin 3) * 128 + 1 * l.val = 128 * (t.val % 8) + l.val; omega

/-- The output weight's block. -/
theorem blk3_at (c : Dev nD) (t : Fin cfg1.N) (l : Fin 128) (e : Fin 1024) :
    (iblk1 V c 3 t : S128x1024.Idx → EReal) (ix2 l e)
      = (V c main_v10 : S1024x1024.Idx → EReal) (ix2 (dOf (pOf t) l) e) := by
  obtain ⟨-, -, -, -, -, -, -, -, -, e0, e1, -⟩ := idx_in1 t
  show V c main_v10 (((cfg1.win 3).blk t).view.emb (ix2 l e)) = V c main_v10 (ix2 (dOf (pOf t) l) e)
  refine congrArg (V c main_v10) ?_
  funext a; apply Fin.ext
  match a with
  | ⟨0, _⟩ => show win1_3.index t (0 : Fin 2) * 128 + 1 * l.val = 128 * (t.val % 8) + l.val; omega
  | ⟨1, _⟩ => show win1_3.index t (1 : Fin 2) * 1024 + 1 * e.val = e.val; omega

/-- The bias row. -/
theorem blk4_at (c : Dev nD) (t : Fin cfg1.N) (e : Fin 1024) :
    (iblk1 V c 4 t : S1x1024.Idx → EReal) (ix2 (0 : Fin 1) e)
      = (V c main_v11 : S1x1024.Idx → EReal) (ix2 (0 : Fin 1) e) := by
  obtain ⟨-, -, -, -, -, -, -, -, -, -, -, e0, e1⟩ := idx_in1 t
  show V c main_v11 (((cfg1.win 4).blk t).view.emb (ix2 (0 : Fin 1) e)) = V c main_v11 (ix2 (0 : Fin 1) e)
  refine congrArg (V c main_v11) ?_
  funext a; apply Fin.ext
  match a with
  | ⟨0, _⟩ => show win1_4.index t (0 : Fin 2) * 1 + 1 * 0 = 0; omega
  | ⟨1, _⟩ => show win1_4.index t (1 : Fin 2) * 1024 + 1 * e.val = e.val; omega

/-! ## The blocks' rows are the specification's -/

section Rows
variable (x : AttnSpec.ArrX) (Wa : AttnSpec.ArrWa) (c : Dev nD) (t : Fin cfg1.N)

theorem qlo_at
    (hq : ∀ (b : Fin 2) (s : Fin 2048) (d : Fin 1024) (n : Fin 3072), n.val = d.val →
      (V c main_v6 : S2x2048x1024.Idx → EReal) (ix3 b s d) = AttnSpec.qkv x Wa b s n) (r : Fin 512) :
    ∀ j, PayIdx.qlo (iblk1 V c 0 t) r j = AttnSpec.qkv x Wa (bOf t) (sOf t r) (AttnSpec.qcol (head0 (pOf t)) j) := by
  intro j
  have hj := j.isLt
  exact (blk0_at V c t r (lo j)).trans (hq _ _ _ _ (by
    show 2 * (t.val % 8) * 64 + j.val = 128 * (t.val % 8) + j.val; omega))

theorem qhi_at
    (hq : ∀ (b : Fin 2) (s : Fin 2048) (d : Fin 1024) (n : Fin 3072), n.val = d.val →
      (V c main_v6 : S2x2048x1024.Idx → EReal) (ix3 b s d) = AttnSpec.qkv x Wa b s n) (r : Fin 512) :
    ∀ j, PayIdx.qhi (iblk1 V c 0 t) r j = AttnSpec.qkv x Wa (bOf t) (sOf t r) (AttnSpec.qcol (head1 (pOf t)) j) := by
  intro j
  have hj := j.isLt
  exact (blk0_at V c t r (hi j)).trans (hq _ _ _ _ (by
    show (2 * (t.val % 8) + 1) * 64 + j.val = 128 * (t.val % 8) + (64 + j.val); omega))

theorem klo_at
    (hk : ∀ (b : Fin 2) (s : Fin 2048) (d : Fin 1024) (n : Fin 3072), n.val = 1024 + d.val →
      (V c main_v7 : S2x2048x1024.Idx → EReal) (ix3 b s d) = AttnSpec.qkv x Wa b s n) :
    ∀ k j, PayIdx.klo (iblk1 V c 1 t) k j = AttnSpec.qkv x Wa (bOf t) k (AttnSpec.kcol (head0 (pOf t)) j) := by
  intro k j
  have hj := j.isLt
  exact (blk1_at V c t k (lo j)).trans (hk _ _ _ _ (by
    show 1024 + (2 * (t.val % 8) * 64 + j.val) = 1024 + (128 * (t.val % 8) + j.val); omega))

theorem khi_at
    (hk : ∀ (b : Fin 2) (s : Fin 2048) (d : Fin 1024) (n : Fin 3072), n.val = 1024 + d.val →
      (V c main_v7 : S2x2048x1024.Idx → EReal) (ix3 b s d) = AttnSpec.qkv x Wa b s n) :
    ∀ k j, PayIdx.khi (iblk1 V c 1 t) k j = AttnSpec.qkv x Wa (bOf t) k (AttnSpec.kcol (head1 (pOf t)) j) := by
  intro k j
  have hj := j.isLt
  exact (blk1_at V c t k (hi j)).trans (hk _ _ _ _ (by
    show 1024 + ((2 * (t.val % 8) + 1) * 64 + j.val) = 1024 + (128 * (t.val % 8) + (64 + j.val)); omega))

theorem vlo_at
    (hv : ∀ (b : Fin 2) (s : Fin 2048) (d : Fin 1024) (n : Fin 3072), n.val = 2048 + d.val →
      (V c main_v8 : S2x2048x1024.Idx → EReal) (ix3 b s d) = AttnSpec.qkv x Wa b s n) :
    ∀ k j, PayIdx.vlo (iblk1 V c 2 t) k j = AttnSpec.qkv x Wa (bOf t) k (vcolLo (pOf t) j) := by
  intro k j
  have hj := j.isLt
  exact (blk2_at V c t k (lo j)).trans (hv _ _ _ _ (by
    show 2048 + (128 * (t.val % 8) + j.val) = 2048 + (128 * (t.val % 8) + j.val); rfl))

theorem vhi_at
    (hv : ∀ (b : Fin 2) (s : Fin 2048) (d : Fin 1024) (n : Fin 3072), n.val = 2048 + d.val →
      (V c main_v8 : S2x2048x1024.Idx → EReal) (ix3 b s d) = AttnSpec.qkv x Wa b s n) :
    ∀ k j, PayIdx.vhi (iblk1 V c 2 t) k j = AttnSpec.qkv x Wa (bOf t) k (vcolHi (pOf t) j) := by
  intro k j
  have hj := j.isLt
  exact (blk2_at V c t k (hi j)).trans (hv _ _ _ _ (by
    show 2048 + (128 * (t.val % 8) + 64 + j.val) = 2048 + (128 * (t.val % 8) + (64 + j.val)); omega))

theorem w3_at (Wp : AttnSpec.ArrWp)
    (hw : ∀ d e : Fin 1024, (V c main_v10 : S1024x1024.Idx → EReal) (ix2 d e) = Wp (ix2 e d)) (e : Fin 1024) :
    ∀ l, PayIdx.w3 (iblk1 V c 3 t) l e = Wp (ix2 e (dOf (pOf t) l)) := by
  intro l
  exact (blk3_at V c t l e).trans (hw _ _)

theorem bias_at (bias : AttnSpec.ArrB)
    (hb : ∀ e : Fin 1024, (V c main_v11 : S1x1024.Idx → EReal) (ix2 (0 : Fin 1) e) = bias (ix1 e)) (e : Fin 1024) :
    (iblk1 V c 4 t : S1x1024.Idx → EReal) (ix2 (0 : Fin 1) e) = bias (ix1 e) :=
  (blk4_at V c t e).trans (hb e)

end Rows

end Region1

/-! ## The two output windows' blocks tile their arrays -/

/-- An entry of the result is in point `t`'s block iff each coordinate is in the block's range on its axis. -/
theorem mem_blk5 (t : Fin cfg1.N) (i : S2x2048x1024.Idx) :
    i ∈ ((cfg1.win 5).blk t).view.set ↔ ∀ a : Fin 3, win1_5.index t a * S1x512x1024.size a ≤ (i a).val
      ∧ (i a).val < win1_5.index t a * S1x512x1024.size a + S1x512x1024.size a := by
  show i ∈ ((View.whole main_v12_0).slice (win1_5.rect t)).set ↔ _
  rw [View.set_slice_whole, Rect.mem_set_unit]
  exact Iff.rfl

/-- The same for the attention weights. -/
theorem mem_blk6 (t : Fin cfg1.N) (i : S2x16x2048x2048.Idx) :
    i ∈ ((cfg1.win 6).blk t).view.set ↔ ∀ a : Fin 4, win1_6.index t a * S1x2x512x2048.size a ≤ (i a).val
      ∧ (i a).val < win1_6.index t a * S1x2x512x2048.size a + S1x2x512x2048.size a := by
  show i ∈ ((View.whole main_v12_1).slice (win1_6.rect t)).set ↔ _
  rw [View.set_slice_whole, Rect.mem_set_unit]
  exact Iff.rfl

/-- Entry `(b, h, q, k)` of the attention weights is in the block of point `32·b + 8·(q / 512) + h / 2`, and every
    point writes that block back. -/
theorem cover6 (i : S2x16x2048x2048.Idx) :
    ∃ t : Fin cfg1.N, (cfg1.win 6).flush t = true ∧ i ∈ ((cfg1.win 6).blk t).view.set := by
  have hi0 : (i 0).val < 2 := (i 0).isLt
  have hi1 : (i 1).val < 16 := (i 1).isLt
  have hi2 : (i 2).val < 2048 := (i 2).isLt
  have hi3 : (i 3).val < 2048 := (i 3).isLt
  obtain ⟨t, ht⟩ : ∃ t : Fin cfg1.N, t.val = 32 * (i 0).val + 8 * ((i 2).val / 512) + (i 1).val / 2 :=
    ⟨⟨32 * (i 0).val + 8 * ((i 2).val / 512) + (i 1).val / 2, by
      have hN := N_1; show 32 * (i 0).val + 8 * ((i 2).val / 512) + (i 1).val / 2 < grid1.N; omega⟩, rfl⟩
  obtain ⟨-, -, -, e0, e1, e2, e3⟩ := idx_out1 t
  refine ⟨t, flush1_6 t, ?_⟩
  rw [mem_blk6]
  intro a
  match a with
  | ⟨0, _⟩ => show win1_6.index t (0 : Fin 4) * 1 ≤ (i 0).val ∧ (i 0).val < win1_6.index t (0 : Fin 4) * 1 + 1; omega
  | ⟨1, _⟩ => show win1_6.index t (1 : Fin 4) * 2 ≤ (i 1).val ∧ (i 1).val < win1_6.index t (1 : Fin 4) * 2 + 2; omega
  | ⟨2, _⟩ => show win1_6.index t (2 : Fin 4) * 512 ≤ (i 2).val ∧ (i 2).val < win1_6.index t (2 : Fin 4) * 512 + 512; omega
  | ⟨3, _⟩ => show win1_6.index t (3 : Fin 4) * 2048 ≤ (i 3).val ∧ (i 3).val < win1_6.index t (3 : Fin 4) * 2048 + 2048; omega

/-- Entry `(b, s, e)` of the result is in the block of point `32·b + 8·(s / 512) + 7`, a row block's last head pair,
    which writes it back. -/
theorem cover5 (i : S2x2048x1024.Idx) :
    ∃ t : Fin cfg1.N, (cfg1.win 5).flush t = true ∧ i ∈ ((cfg1.win 5).blk t).view.set := by
  have hi0 : (i 0).val < 2 := (i 0).isLt
  have hi1 : (i 1).val < 2048 := (i 1).isLt
  have hi2 : (i 2).val < 1024 := (i 2).isLt
  obtain ⟨t, ht⟩ : ∃ t : Fin cfg1.N, t.val = 32 * (i 0).val + 8 * ((i 1).val / 512) + 7 :=
    ⟨⟨32 * (i 0).val + 8 * ((i 1).val / 512) + 7, by
      have hN := N_1; show 32 * (i 0).val + 8 * ((i 1).val / 512) + 7 < grid1.N; omega⟩, rfl⟩
  obtain ⟨e0, e1, e2, -⟩ := idx_out1 t
  refine ⟨t, (flush1_5 t).mpr (by omega), ?_⟩
  rw [mem_blk5]
  intro a
  match a with
  | ⟨0, _⟩ => show win1_5.index t (0 : Fin 3) * 1 ≤ (i 0).val ∧ (i 0).val < win1_5.index t (0 : Fin 3) * 1 + 1; omega
  | ⟨1, _⟩ => show win1_5.index t (1 : Fin 3) * 512 ≤ (i 1).val ∧ (i 1).val < win1_5.index t (1 : Fin 3) * 512 + 512; omega
  | ⟨2, _⟩ => show win1_5.index t (2 : Fin 3) * 1024 ≤ (i 2).val ∧ (i 2).val < win1_5.index t (2 : Fin 3) * 1024 + 1024; omega

end Cert.KernelIdeal.Gen

end
-- ==== Proof.Value.R1Emb.lean ====
/-
  Where an entry of an output block of the attention stage sits in its array.

  At point `t` (batch `t / 32`, query block `t / 8 % 4`, head pair `t % 8`) the result window's block
  `[1, 512, 1024]` is rows `512·(t / 8 % 4) …` of batch `t / 32`, all 1024 columns; the weights window's block
  `[1, 2, 512, 2048]` is the pair's two heads `2·(t % 8)` and `2·(t % 8) + 1`, the same query rows, all 2048 key
  rows. A block's leading axis has extent one, so every index of such a block has first coordinate zero.
-/
import proofs.«178877_j27444841021700_2_alg».proof.Proof.Value.R1Blocks

noncomputable section

namespace Cert.KernelIdeal.Gen

open Idealize.ShloMosaic Idealize.ShloMosaic.ValueIdx Idealize.ShloMosaic.TcCoe Idealize.SL.Sem
open Idealize.ShloMosaic.Pipeline (Dat)
open Cert.AttnBlock

/-- Head `hh` (first or second) of point `t`'s head pair, among the 16 heads. -/
def hOf (t : Fin cfg1.N) (hh : Fin 2) : Fin 16 :=
  ⟨2 * (t.val % 8) + hh.val, by have := hh.isLt; have : t.val % 8 < 8 := Nat.mod_lt _ (by decide); omega⟩
@[simp] theorem hOf_val (t : Fin cfg1.N) (hh : Fin 2) : (hOf t hh).val = 2 * (t.val % 8) + hh.val := rfl

theorem hOf_zero (t : Fin cfg1.N) : hOf t 0 = head0 (pOf t) :=
  Fin.ext (by show 2 * (t.val % 8) + 0 = 2 * (t.val % 8); omega)
theorem hOf_one (t : Fin cfg1.N) : hOf t 1 = head1 (pOf t) :=
  Fin.ext (by show 2 * (t.val % 8) + 1 = 2 * (t.val % 8) + 1; rfl)

/-- An entry of the result block, in the result array. -/
theorem emb5_at (t : Fin cfg1.N) (r : Fin 512) (e : Fin 1024) :
    ((cfg1.win 5).blk t).view.emb (ix3 (0 : Fin 1) r e) = (ix3 (bOf t) (sOf t r) e : S2x2048x1024.Idx) := by
  obtain ⟨e0, e1, e2, -⟩ := idx_out1 t
  funext a; apply Fin.ext
  match a with
  | ⟨0, _⟩ => show win1_5.index t (0 : Fin 3) * 1 + 1 * 0 = t.val / 32; omega
  | ⟨1, _⟩ => show win1_5.index t (1 : Fin 3) * 512 + 1 * r.val = 512 * (t.val / 8 % 4) + r.val; omega
  | ⟨2, _⟩ => show win1_5.index t (2 : Fin 3) * 1024 + 1 * e.val = e.val; omega

/-- An entry of the weights block, in the weights array. -/
theorem emb6_at (t : Fin cfg1.N) (hh : Fin 2) (r : Fin 512) (k : Fin 2048) :
    ((cfg1.win 6).blk t).view.emb (ix4 (0 : Fin 1) hh r k)
      = (ix4 (bOf t) (hOf t hh) (sOf t r) k : S2x16x2048x2048.Idx) := by
  obtain ⟨-, -, -, e0, e1, e2, e3⟩ := idx_out1 t
  funext a; apply Fin.ext
  match a with
  | ⟨0, _⟩ => show win1_6.index t (0 : Fin 4) * 1 + 1 * 0 = t.val / 32; omega
  | ⟨1, _⟩ => show win1_6.index t (1 : Fin 4) * 2 + 1 * hh.val = 2 * (t.val % 8) + hh.val; omega
  | ⟨2, _⟩ => show win1_6.index t (2 : Fin 4) * 512 + 1 * r.val = 512 * (t.val / 8 % 4) + r.val; omega
  | ⟨3, _⟩ => show win1_6.index t (3 : Fin 4) * 2048 + 1 * k.val = k.val; omega

/-- Every index of a result block is a row and a column under the one leading coordinate. -/
theorem idx5_cases (j : S1x512x1024.Idx) : ∃ (r : Fin 512) (e : Fin 1024), j = ix3 (0 : Fin 1) r e :=
  ⟨j 1, j 2, funext fun a => by
    match a with
    | ⟨0, _⟩ => exact Subsingleton.elim (α := Fin 1) _ _
    | ⟨1, _⟩ => rfl
    | ⟨2, _⟩ => rfl⟩

/-- Every index of a weights block is a head of the pair, a query row and a key row under the one leading
    coordinate. -/
theorem idx6_cases (j : S1x2x512x2048.Idx) :
    ∃ (hh : Fin 2) (r : Fin 512) (k : Fin 2048), j = ix4 (0 : Fin 1) hh r k :=
  ⟨j 1, j 2, j 3, funext fun a => by
    match a with
    | ⟨0, _⟩ => exact Subsingleton.elim (α := Fin 1) _ _
    | ⟨1, _⟩ => rfl
    | ⟨2, _⟩ => rfl
    | ⟨3, _⟩ => rfl⟩

end Cert.KernelIdeal.Gen

end
-- ==== Proof.Value.Canon2.lean ====
/-
  The attention-weights block of one grid point holds two heads: a [1, 2, 512, 2048] array written by two stores,
  the first head's [1, 1, 512, 2048] piece at offset (0, 0, 0, 0) and then the second head's at (0, 1, 0, 0). An
  entry of a unit-stride piece sits at the piece's offset plus its own coordinates, so entry (0, 1, r, k) lies under
  the later piece and reads its payload at (0, 0, r, k), while entry (0, 0, r, k) is not under the later piece (its
  second coordinate is 0, below that piece's offset 1) and reads the earlier piece's payload at (0, 0, r, k).
-/
import proofs.«178877_j27444841021700_2_alg».proof.Proof.Gen.KernelIdeal
import Idealize.ShloMosaic.Lib.Pipeline.FrameBody
import Idealize.ShloMosaic.Lib.Pipeline.Value
import Idealize.ShloMosaic.Lib.ValueIdx

noncomputable section

namespace Cert.KernelIdeal.Gen

open Idealize.ShloMosaic Idealize.ShloMosaic.ValueIdx Idealize.SL.Sem

variable {F : FTy → Type} [FloatOps F]

/-- Entry (0, 0, r, k) of the first head's piece sits at (0, 0, r, k) of the block. -/
theorem emb_lo (r : Fin 512) (k : Fin 2048) :
    (Rect.unit (s := S1x2x512x2048) ![0, 0, 0, 0] S1x1x512x2048.size
        Facts₀.inb_S1x2x512x2048_S1x1x512x2048_0_0_0_0).emb (ix4 0 0 r k) = ix4 0 0 r k :=
  funext fun a => Fin.ext (by
    match a with
    | ⟨0, _⟩ => rfl
    | ⟨1, _⟩ => rfl
    | ⟨2, _⟩ => show 0 + 1 * r.val = r.val; omega
    | ⟨3, _⟩ => show 0 + 1 * k.val = k.val; omega)

/-- Entry (0, 0, r, k) of the second head's piece sits at (0, 1, r, k) of the block. -/
theorem emb_hi (r : Fin 512) (k : Fin 2048) :
    (Rect.unit (s := S1x2x512x2048) ![0, 1, 0, 0] S1x1x512x2048.size
        Facts₀.inb_S1x2x512x2048_S1x1x512x2048_0_1_0_0).emb (ix4 0 0 r k) = ix4 0 1 r k :=
  funext fun a => Fin.ext (by
    match a with
    | ⟨0, _⟩ => rfl
    | ⟨1, _⟩ => rfl
    | ⟨2, _⟩ => show 0 + 1 * r.val = r.val; omega
    | ⟨3, _⟩ => show 0 + 1 * k.val = k.val; omega)

/-- The block's second head: the later piece's payload. -/
theorem canon2_hi (w1 w0 : Vec F S1x1x512x2048 .f32) (r : Fin 512) (k : Fin 2048) :
    View.canon [(⟨Rect.unit (s := S1x2x512x2048) ![0, 1, 0, 0] S1x1x512x2048.size
          Facts₀.inb_S1x2x512x2048_S1x1x512x2048_0_1_0_0, w1⟩ : View.Piece (Elt F) S1x2x512x2048 .f32),
        ⟨Rect.unit (s := S1x2x512x2048) ![0, 0, 0, 0] S1x1x512x2048.size
          Facts₀.inb_S1x2x512x2048_S1x1x512x2048_0_0_0_0, w0⟩] (ix4 0 1 r k)
      = w1 (ix4 0 0 r k) := by
  rw [← emb_hi r k]
  exact View.canon_cons_emb (Rect.unit (s := S1x2x512x2048) ![0, 1, 0, 0] S1x1x512x2048.size Facts₀.inb_S1x2x512x2048_S1x1x512x2048_0_1_0_0) w1
    [(⟨(Rect.unit (s := S1x2x512x2048) ![0, 0, 0, 0] S1x1x512x2048.size Facts₀.inb_S1x2x512x2048_S1x1x512x2048_0_0_0_0), w0⟩ : View.Piece (Elt F) S1x2x512x2048 .f32)] (ix4 0 0 r k)

/-- The block's first head: not under the later piece, so the earlier piece's payload. -/
theorem canon2_lo (w1 w0 : Vec F S1x1x512x2048 .f32) (r : Fin 512) (k : Fin 2048) :
    View.canon [(⟨Rect.unit (s := S1x2x512x2048) ![0, 1, 0, 0] S1x1x512x2048.size
          Facts₀.inb_S1x2x512x2048_S1x1x512x2048_0_1_0_0, w1⟩ : View.Piece (Elt F) S1x2x512x2048 .f32),
        ⟨Rect.unit (s := S1x2x512x2048) ![0, 0, 0, 0] S1x1x512x2048.size
          Facts₀.inb_S1x2x512x2048_S1x1x512x2048_0_0_0_0, w0⟩] (ix4 0 0 r k)
      = w0 (ix4 0 0 r k) := by
  have hnm : (ix4 0 0 r k : S1x2x512x2048.Idx) ∉ (Rect.unit (s := S1x2x512x2048) ![0, 1, 0, 0] S1x1x512x2048.size Facts₀.inb_S1x2x512x2048_S1x1x512x2048_0_1_0_0).set := fun h =>
    absurd (Rect.mem_set_unit.mp h 1).1 (by show ¬ (1 : ℕ) ≤ 0; decide)
  rw [View.canon_cons_of_not_mem (⟨(Rect.unit (s := S1x2x512x2048) ![0, 1, 0, 0] S1x1x512x2048.size Facts₀.inb_S1x2x512x2048_S1x1x512x2048_0_1_0_0), w1⟩ : View.Piece (Elt F) S1x2x512x2048 .f32)
    [(⟨(Rect.unit (s := S1x2x512x2048) ![0, 0, 0, 0] S1x1x512x2048.size Facts₀.inb_S1x2x512x2048_S1x1x512x2048_0_0_0_0), w0⟩ : View.Piece (Elt F) S1x2x512x2048 .f32)] hnm, ← emb_lo r k]
  exact View.canon_cons_emb (Rect.unit (s := S1x2x512x2048) ![0, 0, 0, 0] S1x1x512x2048.size Facts₀.inb_S1x2x512x2048_S1x1x512x2048_0_0_0_0) w0 [] (ix4 0 0 r k)

end Cert.KernelIdeal.Gen

end
-- ==== Proof.LibColumns.lean ====
/-
  A column kept as a unit last axis, read at an index: the two layout steps of a `keepdims` reduction — a vector
  `[a]` cast to a column `[a, 1]`, and a column `[a, 1]` broadcast along its unit axis to `[a, b]`. General in the
  extents and in the element type; they complement the library's leading-unit-axis casts and its row broadcast.
-/
import Idealize.ShloMosaic.Lib.Pipeline.Value
import Idealize.ShloMosaic.Lib.ValueIdx

namespace Idealize.ShloMosaic.ValueIdx

variable {α : Type}

/-- An `[a]` array cast to the column `[a, 1]` reads, at `(i, u)`, the operand at `i`, whatever the unit coordinate
    `u`: both sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

end Idealize.ShloMosaic.ValueIdx
-- ==== Proof.LibRowReduce.lean ====
/-
  A reduction along the rows of a matrix, read at a row: over axis 1 of an [a, b] array, the sum and the maximum at
  row r run over the b entries (r, k) of that row. General in the extents and the float format; these specialise the
  library's one-axis readings, which name the entries through the reduced index with the coordinate put back.
-/
import Idealize.ShloMosaic.PureOps.Ideal.Laws
import Idealize.ShloMosaic.PureOps.Reduce
import Idealize.ShloMosaic.Lib.ValueIdx

namespace Idealize.ShloMosaic.ValueIdx

/-- Row r with column k put back is the entry (r, k). -/
theorem lift_row {a b : ℕ} (h : (⟨2, ![a, b]⟩ : Shape).Reduces [1] (⟨1, ![a]⟩ : Shape)) (r : Fin a)
    (k : Fin ((⟨2, ![a, b]⟩ : Shape).size 1)) : h.lift (ix1 r) k = ix2 r (⟨k.val, k.isLt⟩ : Fin b) := by
  funext c; apply Fin.ext
  fin_cases c <;> rfl

/-- A lane sum over the columns, at row r, is the sum of that row's entries. -/
theorem multiReduction_add_row {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.add.neutral φ hφ) (r : Fin a) :
    multiReduction .add [1] ⟨1, ![a]⟩ src acc h hφ hacc (ix1 r) = ∑ k : Fin b, src (ix2 r k) := by
  refine (Ideal.multiReduction_add_single src acc h hφ hacc (ix1 r)).trans ?_
  show ∑ k : Fin b, src (h.lift (ix1 r) k) = _
  exact Finset.sum_congr rfl fun k _ => congrArg src (lift_row h r k)

/-- A lane maximum over the columns, at row r, is the fold of max over that row's entries from the accumulator's value. -/
theorem multiReduction_maximumf_row {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.maximumf.neutral φ hφ) (r : Fin a) :
    multiReduction .maximumf [1] ⟨1, ![a]⟩ src acc h hφ hacc (ix1 r)
      = Finset.fold max (Ideal.ofBits φ acc) (fun k : Fin b => src (ix2 r k)) Finset.univ := by
  refine (Ideal.multiReduction_maximumf_single src acc h hφ hacc (ix1 r)).trans ?_
  show Finset.fold max (Ideal.ofBits φ acc) (src ∘ h.lift (ix1 r)) (Finset.univ : Finset (Fin b)) = _
  exact congrArg (fun f => Finset.fold max (Ideal.ofBits φ acc) f (Finset.univ : Finset (Fin b)))
    (funext fun k => congrArg src (lift_row h r k))

end Idealize.ShloMosaic.ValueIdx
-- ==== Proof.Value.Pay2.lean ====
/-
  The attention weights of the two heads of a pair, and the first head's attended values, read at an entry.

  Each head's lanes are cut out of the 128-lane rows of the query, key and value blocks. A score is the sum over
  the head's 64 lanes of query times key, times the scale. The row maximum and the row sum arrive as a vector
  over the rows that is turned into a one-column array and then copied along every row; read at an entry they
  are the maximum, resp. the sum, over that entry's row. So the shifted exponential at (r, c) is the exponential
  of the score less the row's maximum, and the weight is that divided by the row's sum of exponentials — the
  block-level definitions, entry by entry.
-/
import proofs.«178877_j27444841021700_2_alg».proof.Proof.Value.PayDefs
import proofs.«178877_j27444841021700_2_alg».proof.Proof.Value.Pay1
import proofs.«178877_j27444841021700_2_alg».proof.Proof.LibColumns
import proofs.«178877_j27444841021700_2_alg».proof.Proof.LibRowReduce

noncomputable section

open scoped BigOperators

namespace Cert.KernelIdeal.PayIdx

open Idealize.ShloMosaic Idealize.ShloMosaic.ValueIdx Cert.KernelIdeal Cert.KernelIdeal.Gen Cert.AttnBlock

/-! ### The heads' lanes cut out of the loaded blocks -/

theorem qslice_lo (x0 : Vec Ideal S1x512x128 .bf16) (r : Fin 512) (j : Fin 64) :
    extractStridedSlice S512x64 ![0, 0] (k1_pay7 (F := Ideal) x0) Facts₀.slices_S512x128_o0_0_S512x64 (ix2 r j) = qlo x0 r j := by
  refine (slice2_axis1_apply 0 _ Facts₀.slices_S512x128_o0_0_S512x64 r j (lo j) (Nat.zero_add _).symm).trans ?_
  unfold k1_pay7
  exact shapeCast_1ab_ab_apply x0 Facts₀.shapeCasts_S1x512x128_S512x128 r (lo j)

theorem qslice_hi (x0 : Vec Ideal S1x512x128 .bf16) (r : Fin 512) (j : Fin 64) :
    extractStridedSlice S512x64 ![0, 64] (k1_pay7 (F := Ideal) x0) Facts₀.slices_S512x128_o0_64_S512x64 (ix2 r j) = qhi x0 r j := by
  refine (slice2_axis1_apply 64 _ Facts₀.slices_S512x128_o0_64_S512x64 r j (hi j) rfl).trans ?_
  unfold k1_pay7
  exact shapeCast_1ab_ab_apply x0 Facts₀.shapeCasts_S1x512x128_S512x128 r (hi j)

theorem kslice_lo (x1 : Vec Ideal S1x2048x128 .bf16) (c : Fin 2048) (j : Fin 64) :
    extractStridedSlice S2048x64 ![0, 0] (k1_pay8 (F := Ideal) x1) Facts₀.slices_S2048x128_o0_0_S2048x64 (ix2 c j) = klo x1 c j := by
  refine (slice2_axis1_apply 0 _ Facts₀.slices_S2048x128_o0_0_S2048x64 c j (lo j) (Nat.zero_add _).symm).trans ?_
  unfold k1_pay8
  exact shapeCast_1ab_ab_apply x1 Facts₀.shapeCasts_S1x2048x128_S2048x128 c (lo j)

theorem kslice_hi (x1 : Vec Ideal S1x2048x128 .bf16) (c : Fin 2048) (j : Fin 64) :
    extractStridedSlice S2048x64 ![0, 64] (k1_pay8 (F := Ideal) x1) Facts₀.slices_S2048x128_o0_64_S2048x64 (ix2 c j) = khi x1 c j := by
  refine (slice2_axis1_apply 64 _ Facts₀.slices_S2048x128_o0_64_S2048x64 c j (hi j) rfl).trans ?_
  unfold k1_pay8
  exact shapeCast_1ab_ab_apply x1 Facts₀.shapeCasts_S1x2048x128_S2048x128 c (hi j)

theorem vslice_lo (x2 : Vec Ideal S1x2048x128 .bf16) (c : Fin 2048) (j : Fin 64) :
    extractStridedSlice S2048x64 ![0, 0] (k1_pay9 (F := Ideal) x2) Facts₀.slices_S2048x128_o0_0_S2048x64 (ix2 c j) = vlo x2 c j := by
  refine (slice2_axis1_apply 0 _ Facts₀.slices_S2048x128_o0_0_S2048x64 c j (lo j) (Nat.zero_add _).symm).trans ?_
  unfold k1_pay9
  exact shapeCast_1ab_ab_apply x2 Facts₀.shapeCasts_S1x2048x128_S2048x128 c (lo j)

/-- The second head's value rows, as the kernel carries them. -/
theorem pay10 (x2 : Vec Ideal S1x2048x128 .bf16) (c : Fin 2048) (j : Fin 64) :
    k1_pay10 (F := Ideal) x2 (ix2 c j) = vhi x2 c j := by
  unfold k1_pay10
  refine (slice2_axis1_apply 64 _ Facts₀.slices_S2048x128_o0_64_S2048x64 c j (hi j) rfl).trans ?_
  unfold k1_pay9
  exact shapeCast_1ab_ab_apply x2 Facts₀.shapeCasts_S1x2048x128_S2048x128 c (hi j)

/-! ### A row's maximum and a row's sum, copied along the row -/

/-- The row maximum as a one-column array copied along every row: at (r, c) the fold of max from ⊥ over row r. -/
theorem rowMax_col (s : FVec Ideal S512x2048 .f32) (r : Fin 512) (c : Fin 2048) :
    broadcastTo S512x2048 (shapeCast S512x1 (multiReduction .maximumf [1] S512 s 0xFF800000#32
        Facts₀.reduces_S512x2048_S512 (.inl rfl) rfl) Facts₀.shapeCasts_S512_S512x1) Facts₀.broadcasts_S512x1_S512x2048 (ix2 r c)
      = (Finset.univ : Finset (Fin 2048)).fold max ⊥ (fun k => s (ix2 r k)) := by
  refine (broadcastTo_a1_ab_apply _ Facts₀.broadcasts_S512x1_S512x2048 r c).trans ?_
  refine (shapeCast_a_a1_apply _ Facts₀.shapeCasts_S512_S512x1 r 0).trans ?_
  refine (multiReduction_maximumf_row s 0xFF800000#32 Facts₀.reduces_S512x2048_S512 (.inl rfl) rfl r).trans ?_
  rw [Cert.AttnSpec.ofBits_negInf]

/-- The row sum as a one-column array copied along every row: at (r, c) the sum over row r. -/
theorem rowSum_col (p : FVec Ideal S512x2048 .f32) (r : Fin 512) (c : Fin 2048) :
    broadcastTo S512x2048 (shapeCast S512x1 (multiReduction .add [1] S512 p 0x00000000#32
        Facts₀.reduces_S512x2048_S512 (.inl rfl) rfl) Facts₀.shapeCasts_S512_S512x1) Facts₀.broadcasts_S512x1_S512x2048 (ix2 r c)
      = ∑ k : Fin 2048, p (ix2 r k) := by
  refine (broadcastTo_a1_ab_apply _ Facts₀.broadcasts_S512x1_S512x2048 r c).trans ?_
  refine (shapeCast_a_a1_apply _ Facts₀.shapeCasts_S512_S512x1 r 0).trans ?_
  exact multiReduction_add_row p 0x00000000#32 Facts₀.reduces_S512x2048_S512 (.inl rfl) rfl r

/-- The exponential of a score less its row's maximum. -/
theorem expShift_apply (s : FVec Ideal S512x2048 .f32) (r : Fin 512) (c : Fin 2048) :
    exp (subf s (broadcastTo S512x2048 (shapeCast S512x1 (multiReduction .maximumf [1] S512 s 0xFF800000#32
        Facts₀.reduces_S512x2048_S512 (.inl rfl) rfl) Facts₀.shapeCasts_S512_S512x1) Facts₀.broadcasts_S512x1_S512x2048)) (ix2 r c)
      = Ideal.exp (s (ix2 r c) - (Finset.univ : Finset (Fin 2048)).fold max ⊥ (fun k => s (ix2 r k))) := by
  show Ideal.exp (s (ix2 r c) - _) = _
  exact congrArg (fun m => Ideal.exp (s (ix2 r c) - m)) (rowMax_col s r c)

/-- An entry divided by its row's sum. -/
theorem norm_apply (p : FVec Ideal S512x2048 .f32) (r : Fin 512) (c : Fin 2048) :
    divf p (broadcastTo S512x2048 (shapeCast S512x1 (multiReduction .add [1] S512 p 0x00000000#32
        Facts₀.reduces_S512x2048_S512 (.inl rfl) rfl) Facts₀.shapeCasts_S512_S512x1) Facts₀.broadcasts_S512x1_S512x2048) (ix2 r c)
      = Ideal.div (p (ix2 r c)) (∑ k : Fin 2048, p (ix2 r k)) := by
  refine (divf_apply _ _ (ix2 r c)).trans ?_
  exact congrArg (fun m => Ideal.div (p (ix2 r c)) m) (rowSum_col p r c)

/-- The normalising payload: each entry divided by its row's sum. -/
theorem pay1_apply (v36 : FVec Ideal S512x2048 .f32) (r : Fin 512) (c : Fin 2048) :
    k1_pay1 (F := Ideal) v36 (ix2 r c) = Ideal.div (v36 (ix2 r c)) (∑ k : Fin 2048, v36 (ix2 r k)) := by
  unfold k1_pay1
  exact norm_apply v36 r c

/-! ### The scores, the shifted exponentials, the weights -/

/-- The first head's scaled score of query row r against key row c. -/
theorem score_lo (x0 : Vec Ideal S1x512x128 .bf16) (x1 : Vec Ideal S1x2048x128 .bf16) (r : Fin 512) (c : Fin 2048) :
    mulf (matmul dot_S512x64_S2048x64_S512x2048_1_1_0_0_n_n none
        (extractStridedSlice S512x64 ![0, 0] (k1_pay7 (F := Ideal) x0) Facts₀.slices_S512x128_o0_0_S512x64)
        (extractStridedSlice S2048x64 ![0, 0] (k1_pay8 (F := Ideal) x1) Facts₀.slices_S2048x128_o0_0_S2048x64)
        (constant S512x2048 .f32 0x00000000#32))
      (broadcast S512x2048 (Scalar.ofBits (F := Ideal) .f32 0x3E000000#32)) (ix2 r c)
      = bscore (qlo x0) (klo x1) r c := by
  refine (mulf_apply _ _ (ix2 r c)).trans ?_
  refine congrArg (· * Cert.AttnSpec.scale) ?_
  refine (dotScore_apply _ _ r c).trans ?_
  exact Finset.sum_congr rfl fun j _ => congrArg₂ (· * ·) (qslice_lo x0 r j) (kslice_lo x1 c j)

/-- The second head's scaled score of query row r against key row c. -/
theorem score_hi (x0 : Vec Ideal S1x512x128 .bf16) (x1 : Vec Ideal S1x2048x128 .bf16) (r : Fin 512) (c : Fin 2048) :
    mulf (matmul dot_S512x64_S2048x64_S512x2048_1_1_0_0_n_n none
        (extractStridedSlice S512x64 ![0, 64] (k1_pay7 (F := Ideal) x0) Facts₀.slices_S512x128_o0_64_S512x64)
        (extractStridedSlice S2048x64 ![0, 64] (k1_pay8 (F := Ideal) x1) Facts₀.slices_S2048x128_o0_64_S2048x64)
        (constant S512x2048 .f32 0x00000000#32))
      (broadcast S512x2048 (Scalar.ofBits (F := Ideal) .f32 0x3E000000#32)) (ix2 r c)
      = bscore (qhi x0) (khi x1) r c := by
  refine (mulf_apply _ _ (ix2 r c)).trans ?_
  refine congrArg (· * Cert.AttnSpec.scale) ?_
  refine (dotScore_apply _ _ r c).trans ?_
  exact Finset.sum_congr rfl fun j _ => congrArg₂ (· * ·) (qslice_hi x0 r j) (kslice_hi x1 c j)

/-- The second head's shifted exponentials, as the kernel carries them to the normalisation. -/
theorem pay13 (x0 : Vec Ideal S1x512x128 .bf16) (x1 : Vec Ideal S1x2048x128 .bf16) (r : Fin 512) (c : Fin 2048) :
    k1_pay13 (F := Ideal) x0 x1 (ix2 r c) = bp (qhi x0) (khi x1) r c := by
  unfold k1_pay13
  refine (expShift_apply _ r c).trans ?_
  exact congrArg (fun f : Fin 2048 → EReal => Ideal.exp (f c - (Finset.univ : Finset (Fin 2048)).fold max ⊥ f))
    (funext fun k => score_hi x0 x1 r k)

/-- The first head's attention weights. -/
theorem pay11 (x0 : Vec Ideal S1x512x128 .bf16) (x1 : Vec Ideal S1x2048x128 .bf16) (r : Fin 512) (c : Fin 2048) :
    k1_pay11 (F := Ideal) x0 x1 (ix2 r c) = batt (qlo x0) (klo x1) r c := by
  unfold k1_pay11
  refine (norm_apply _ r c).trans ?_
  exact congrArg (fun f : Fin 2048 → EReal => Ideal.div (f c) (∑ k : Fin 2048, f k))
    (funext fun k => (expShift_apply _ r k).trans
      (congrArg (fun f : Fin 2048 → EReal => Ideal.exp (f k - (Finset.univ : Finset (Fin 2048)).fold max ⊥ f))
        (funext fun k' => score_lo x0 x1 r k')))

/-- The second head's attention weights: its shifted exponentials, normalised. -/
theorem pay13_1 (x0 : Vec Ideal S1x512x128 .bf16) (x1 : Vec Ideal S1x2048x128 .bf16) (r : Fin 512) (c : Fin 2048) :
    k1_pay1 (F := Ideal) (k1_pay13 (F := Ideal) x0 x1) (ix2 r c) = batt (qhi x0) (khi x1) r c := by
  refine (pay1_apply _ r c).trans ?_
  exact congrArg (fun f : Fin 2048 → EReal => Ideal.div (f c) (∑ k : Fin 2048, f k)) (funext fun k => pay13 x0 x1 r k)

/-- The first head's attended values: each row of weights against the head's value columns. -/
theorem pay12 (x0 : Vec Ideal S1x512x128 .bf16) (x1 x2 : Vec Ideal S1x2048x128 .bf16) (r : Fin 512) (j : Fin 64) :
    k1_pay12 (F := Ideal) x0 x1 x2 (ix2 r j) = bo (qlo x0) (klo x1) (vlo x2) r j := by
  unfold k1_pay12
  refine (dotAttV_apply _ _ r j).trans ?_
  exact Finset.sum_congr rfl fun c _ => congrArg₂ (· * ·) (pay11 x0 x1 r c) (vslice_lo x2 c j)

end Cert.KernelIdeal.PayIdx

end
-- ==== Proof.Value.AttBlk.lean ====
/-
  The attention-weights block of one grid point, entry by entry: the stored block's first head at (0, 0, r, k) is
  the first head's weight of query row r against key row k, and its second head at (0, 1, r, k) the second head's.
  The block is written by two stores, each head's weights with two unit axes in front; reading the written block
  at an entry picks the store that covers it, and the payload there is the head's normalised exponential.
-/
import proofs.«178877_j27444841021700_2_alg».proof.Proof.Value.Canon2
import proofs.«178877_j27444841021700_2_alg».proof.Proof.Value.Pay2
import proofs.«178877_j27444841021700_2_alg».proof.Proof.Value.Pay1

noncomputable section

open scoped BigOperators

namespace Cert.KernelIdeal.PayIdx

open Idealize.ShloMosaic Idealize.ShloMosaic.ValueIdx Cert.KernelIdeal Cert.KernelIdeal.Gen Cert.AttnBlock

/-- The first head's stored weights. -/
theorem attblk_lo (x0 : Vec Ideal S1x512x128 .bf16) (x1 : Vec Ideal S1x2048x128 .bf16) (r : Fin 512) (k : Fin 2048) :
    View.canon [(⟨Rect.unit (s := S1x2x512x2048) ![0, 1, 0, 0] S1x1x512x2048.size
          Facts₀.inb_S1x2x512x2048_S1x1x512x2048_0_1_0_0,
          k1_pay3 (F := Ideal) (k1_pay13 (F := Ideal) x0 x1)⟩ : View.Piece (Elt Ideal) S1x2x512x2048 .f32),
        ⟨Rect.unit (s := S1x2x512x2048) ![0, 0, 0, 0] S1x1x512x2048.size
          Facts₀.inb_S1x2x512x2048_S1x1x512x2048_0_0_0_0,
          k1_pay2 (F := Ideal) (k1_pay11 (F := Ideal) x0 x1)⟩] (ix4 0 0 r k)
      = batt (qlo x0) (klo x1) r k := by
  rw [canon2_lo (F := Ideal) (k1_pay3 (F := Ideal) (k1_pay13 (F := Ideal) x0 x1))
    (k1_pay2 (F := Ideal) (k1_pay11 (F := Ideal) x0 x1)) r k]
  exact (pay2 (k1_pay11 (F := Ideal) x0 x1) r k).trans (pay11 x0 x1 r k)

/-- The second head's stored weights. -/
theorem attblk_hi (x0 : Vec Ideal S1x512x128 .bf16) (x1 : Vec Ideal S1x2048x128 .bf16) (r : Fin 512) (k : Fin 2048) :
    View.canon [(⟨Rect.unit (s := S1x2x512x2048) ![0, 1, 0, 0] S1x1x512x2048.size
          Facts₀.inb_S1x2x512x2048_S1x1x512x2048_0_1_0_0,
          k1_pay3 (F := Ideal) (k1_pay13 (F := Ideal) x0 x1)⟩ : View.Piece (Elt Ideal) S1x2x512x2048 .f32),
        ⟨Rect.unit (s := S1x2x512x2048) ![0, 0, 0, 0] S1x1x512x2048.size
          Facts₀.inb_S1x2x512x2048_S1x1x512x2048_0_0_0_0,
          k1_pay2 (F := Ideal) (k1_pay11 (F := Ideal) x0 x1)⟩] (ix4 0 1 r k)
      = batt (qhi x0) (khi x1) r k := by
  rw [canon2_hi (F := Ideal) (k1_pay3 (F := Ideal) (k1_pay13 (F := Ideal) x0 x1))
    (k1_pay2 (F := Ideal) (k1_pay11 (F := Ideal) x0 x1)) r k]
  exact (pay3 (k1_pay13 (F := Ideal) x0 x1) r k).trans (pay13_1 x0 x1 r k)

end Cert.KernelIdeal.PayIdx

end
-- ==== Proof.Value.BlockToSpec.lean ====
/-
  One block's attention is the specification's, given that the block's rows are the specification's projections.

  If a block's query row r is head h's query of sequence position s, and its key rows are head h's keys, then the
  block's scores, row maximum, shifted exponentials, their sum and the weights are, term by term, the
  specification's for head h at query position s: both are the same expression in the rows. If moreover the
  value rows are the value columns under a head pair's low (resp. high) lanes, the block's weighted sum of value
  rows is the specification's attended value at that lane of the pair. Joining the two heads of a pair along the
  128 lanes and multiplying by the pair's 128 rows of the output weight then gives the pair's part of the
  specification's output projection.
-/
import proofs.«178877_j27444841021700_2_alg».proof.Proof.BlockMath
import proofs.«178877_j27444841021700_2_alg».proof.Proof.Spec
import proofs.«178877_j27444841021700_2_alg».proof.Proof.Value.AccLaw

noncomputable section

open scoped BigOperators

namespace Cert.AttnBlock

open Idealize.ShloMosaic Idealize.ShloMosaic.ValueIdx

/-! ## Scores, maximum, exponentials, denominator, weights -/

theorem bscore_eq_score (x : AttnSpec.ArrX) (Wa : AttnSpec.ArrWa) (b : Fin 2) (s : Fin 2048) (r : Fin 512)
    (q0 : Fin 512 → Fin 64 → EReal) (k0 : Fin 2048 → Fin 64 → EReal) (h : Fin 16)
    (hq : ∀ j, q0 r j = AttnSpec.qkv x Wa b s (AttnSpec.qcol h j))
    (hk : ∀ c j, k0 c j = AttnSpec.qkv x Wa b c (AttnSpec.kcol h j)) (c : Fin 2048) :
    bscore q0 k0 r c = AttnSpec.score x Wa b h s c := by
  unfold bscore AttnSpec.score
  exact congrArg (· * AttnSpec.scale) (Finset.sum_congr rfl fun j _ => by rw [hq j, hk c j])

theorem bmax_eq_rowMax (x : AttnSpec.ArrX) (Wa : AttnSpec.ArrWa) (b : Fin 2) (s : Fin 2048) (r : Fin 512)
    (q0 : Fin 512 → Fin 64 → EReal) (k0 : Fin 2048 → Fin 64 → EReal) (h : Fin 16)
    (hq : ∀ j, q0 r j = AttnSpec.qkv x Wa b s (AttnSpec.qcol h j))
    (hk : ∀ c j, k0 c j = AttnSpec.qkv x Wa b c (AttnSpec.kcol h j)) :
    bmax q0 k0 r = AttnSpec.rowMax x Wa b h s := by
  unfold bmax AttnSpec.rowMax
  exact congrArg (fun f : Fin 2048 → EReal => (Finset.univ : Finset (Fin 2048)).fold max ⊥ f)
    (funext fun c => bscore_eq_score x Wa b s r q0 k0 h hq hk c)

theorem bp_eq_p (x : AttnSpec.ArrX) (Wa : AttnSpec.ArrWa) (b : Fin 2) (s : Fin 2048) (r : Fin 512)
    (q0 : Fin 512 → Fin 64 → EReal) (k0 : Fin 2048 → Fin 64 → EReal) (h : Fin 16)
    (hq : ∀ j, q0 r j = AttnSpec.qkv x Wa b s (AttnSpec.qcol h j))
    (hk : ∀ c j, k0 c j = AttnSpec.qkv x Wa b c (AttnSpec.kcol h j)) (c : Fin 2048) :
    bp q0 k0 r c = AttnSpec.p x Wa b h s c := by
  unfold bp AttnSpec.p
  rw [bscore_eq_score x Wa b s r q0 k0 h hq hk c, bmax_eq_rowMax x Wa b s r q0 k0 h hq hk]

theorem bden_eq_den (x : AttnSpec.ArrX) (Wa : AttnSpec.ArrWa) (b : Fin 2) (s : Fin 2048) (r : Fin 512)
    (q0 : Fin 512 → Fin 64 → EReal) (k0 : Fin 2048 → Fin 64 → EReal) (h : Fin 16)
    (hq : ∀ j, q0 r j = AttnSpec.qkv x Wa b s (AttnSpec.qcol h j))
    (hk : ∀ c j, k0 c j = AttnSpec.qkv x Wa b c (AttnSpec.kcol h j)) :
    bden q0 k0 r = AttnSpec.den x Wa b h s := by
  unfold bden AttnSpec.den
  exact Finset.sum_congr rfl fun c _ => bp_eq_p x Wa b s r q0 k0 h hq hk c

/-- The block's weights are head h's attention weights at query position s. -/
theorem batt_eq_att (x : AttnSpec.ArrX) (Wa : AttnSpec.ArrWa) (b : Fin 2) (s : Fin 2048) (r : Fin 512)
    (q0 : Fin 512 → Fin 64 → EReal) (k0 : Fin 2048 → Fin 64 → EReal) (h : Fin 16)
    (hq : ∀ j, q0 r j = AttnSpec.qkv x Wa b s (AttnSpec.qcol h j))
    (hk : ∀ c j, k0 c j = AttnSpec.qkv x Wa b c (AttnSpec.kcol h j)) (c : Fin 2048) :
    batt q0 k0 r c = AttnSpec.att x Wa b h s c := by
  unfold batt AttnSpec.att
  rw [bp_eq_p x Wa b s r q0 k0 h hq hk c, bden_eq_den x Wa b s r q0 k0 h hq hk]

/-! ## The attended values at a pair's lanes -/

/-- With the first head's rows and the value columns under the pair's low lanes: the attended value at low lane j. -/
theorem bo_eq_o_lo (x : AttnSpec.ArrX) (Wa : AttnSpec.ArrWa) (b : Fin 2) (s : Fin 2048) (r : Fin 512)
    (q0 : Fin 512 → Fin 64 → EReal) (k0 v0 : Fin 2048 → Fin 64 → EReal) (p : Fin 8)
    (hq : ∀ j, q0 r j = AttnSpec.qkv x Wa b s (AttnSpec.qcol (head0 p) j))
    (hk : ∀ c j, k0 c j = AttnSpec.qkv x Wa b c (AttnSpec.kcol (head0 p) j))
    (hv : ∀ c j, v0 c j = AttnSpec.qkv x Wa b c (vcolLo p j)) (j : Fin 64) :
    bo q0 k0 v0 r j = AttnSpec.o x Wa b s (dOf p (lo j)) := by
  rw [o_lo x Wa b s p j]
  unfold bo
  exact Finset.sum_congr rfl fun c _ => by rw [batt_eq_att x Wa b s r q0 k0 (head0 p) hq hk c, hv c j]

/-- With the second head's rows and the value columns under the pair's high lanes: the attended value at high lane j. -/
theorem bo_eq_o_hi (x : AttnSpec.ArrX) (Wa : AttnSpec.ArrWa) (b : Fin 2) (s : Fin 2048) (r : Fin 512)
    (q0 : Fin 512 → Fin 64 → EReal) (k0 v0 : Fin 2048 → Fin 64 → EReal) (p : Fin 8)
    (hq : ∀ j, q0 r j = AttnSpec.qkv x Wa b s (AttnSpec.qcol (head1 p) j))
    (hk : ∀ c j, k0 c j = AttnSpec.qkv x Wa b c (AttnSpec.kcol (head1 p) j))
    (hv : ∀ c j, v0 c j = AttnSpec.qkv x Wa b c (vcolHi p j)) (j : Fin 64) :
    bo q0 k0 v0 r j = AttnSpec.o x Wa b s (dOf p (hi j)) := by
  rw [o_hi x Wa b s p j]
  unfold bo
  exact Finset.sum_congr rfl fun c _ => by rw [batt_eq_att x Wa b s r q0 k0 (head1 p) hq hk c, hv c j]

/-! ## A head pair's part of the output projection -/

/-- The pair's 128 lanes against its 128 weight rows: the specification's attended values at the pair's columns
    against the output weight's entries there. -/
theorem contrib_eq (x : AttnSpec.ArrX) (Wa : AttnSpec.ArrWa) (b : Fin 2) (s : Fin 2048) (r : Fin 512) (p : Fin 8)
    (q0 q1 : Fin 512 → Fin 64 → EReal) (k0 v0 k1 v1 : Fin 2048 → Fin 64 → EReal)
    (w : Fin 128 → Fin 1024 → EReal) (Wp : AttnSpec.ArrWp) (e : Fin 1024)
    (hq0 : ∀ j, q0 r j = AttnSpec.qkv x Wa b s (AttnSpec.qcol (head0 p) j))
    (hk0 : ∀ c j, k0 c j = AttnSpec.qkv x Wa b c (AttnSpec.kcol (head0 p) j))
    (hv0 : ∀ c j, v0 c j = AttnSpec.qkv x Wa b c (vcolLo p j))
    (hq1 : ∀ j, q1 r j = AttnSpec.qkv x Wa b s (AttnSpec.qcol (head1 p) j))
    (hk1 : ∀ c j, k1 c j = AttnSpec.qkv x Wa b c (AttnSpec.kcol (head1 p) j))
    (hv1 : ∀ c j, v1 c j = AttnSpec.qkv x Wa b c (vcolHi p j))
    (hw : ∀ l, w l e = Wp (ix2 e (dOf p l))) :
    contrib (opair (bo q0 k0 v0) (bo q1 k1 v1)) w r e
      = ∑ l : Fin 128, AttnSpec.o x Wa b s (dOf p l) * Wp (ix2 e (dOf p l)) := by
  unfold contrib
  refine Finset.sum_congr rfl fun l _ => ?_
  rw [hw l]
  refine congrArg (· * Wp (ix2 e (dOf p l))) ?_
  unfold opair
  by_cases h : l.val < 64
  · rw [dif_pos h]
    have hl : lo ⟨l.val, h⟩ = l := Fin.ext rfl
    exact (bo_eq_o_lo x Wa b s r q0 k0 v0 p hq0 hk0 hv0 ⟨l.val, h⟩).trans (by rw [hl])
  · rw [dif_neg h]
    have hl : hi ⟨l.val - 64, by omega⟩ = l := Fin.ext (by show 64 + (l.val - 64) = l.val; omega)
    exact (bo_eq_o_hi x Wa b s r q1 k1 v1 p hq1 hk1 hv1 ⟨l.val - 64, by omega⟩).trans (by rw [hl])

end Cert.AttnBlock

end
-- ==== Proof.Value.Pay3.lean ====
/-
  The accumulator's update by one head pair, read at an entry.

  The second head's attended values are its normalised weights against its value columns, as for the first head.
  The two heads' 64-lane outputs are joined along the lanes into the pair's 128 lanes: lane l is the first head's
  lane l below 64 and the second head's lane l - 64 from 64 on. The pair's lanes against the 128 rows of the
  output weight block give the pair's contribution, which is added to what was accumulated before.
-/
import proofs.«178877_j27444841021700_2_alg».proof.Proof.Value.Pay2

noncomputable section

open scoped BigOperators

namespace Cert.KernelIdeal.PayIdx

open Idealize.ShloMosaic Idealize.ShloMosaic.ValueIdx Cert.KernelIdeal Cert.KernelIdeal.Gen Cert.AttnBlock

/-! ### The two heads' attended values side by side -/

/-- Two 64-lane arrays joined along the lanes: lane l reads the first below 64 and the second, at l - 64, from 64 on. -/
theorem concat_apply (o0 o1 : FVec Ideal S512x64 .f32) (r : Fin 512) (l : Fin 128) :
    concatenate S512x128 1 [⟨S512x64, o0⟩, ⟨S512x64, o1⟩] Facts₀.concatenates_S512x64_S512x64_S512x128_d1 (ix2 r l)
      = opair (fun r j => o0 (ix2 r j)) (fun r j => o1 (ix2 r j)) r l := by
  unfold opair
  by_cases h : l.val < 64
  · rw [dif_pos h]
    exact concatenate_pair_apply_left (1 : Fin S512x128.rank) o0 o1 Facts₀.concatenates_S512x64_S512x64_S512x128_d1
      (ix2 r l) rfl (ix2 r ⟨l.val, h⟩) (fun b => by
        match b with
        | ⟨0, _⟩ => rfl
        | ⟨1, _⟩ => rfl)
  · rw [dif_neg h]
    exact concatenate_pair_apply_right (1 : Fin S512x128.rank) o0 o1 Facts₀.concatenates_S512x64_S512x64_S512x128_d1
      (ix2 r l) rfl rfl (ix2 r ⟨l.val - 64, by omega⟩)
      (fun b hb => by
        match b with
        | ⟨0, _⟩ => rfl
        | ⟨1, _⟩ => exact absurd rfl hb)
      (by show (l.val - 64) + 64 = l.val; omega)

/-- The second head's attended values: its weights against the head's value columns. -/
theorem out_hi (x0 : Vec Ideal S1x512x128 .bf16) (x1 x2 : Vec Ideal S1x2048x128 .bf16) (r : Fin 512) (j : Fin 64) :
    matmul dot_S512x2048_S2048x64_S512x64_1_0_0_1_n_n none
        (truncf .bf16 (k1_pay1 (F := Ideal) (k1_pay13 (F := Ideal) x0 x1)) Facts₀.bitsLt_bf16_f32)
        (k1_pay10 (F := Ideal) x2) (constant S512x64 .f32 0x00000000#32) (ix2 r j)
      = bo (qhi x0) (khi x1) (vhi x2) r j := by
  refine (dotAttV_apply _ _ r j).trans ?_
  exact Finset.sum_congr rfl fun c _ => congrArg₂ (· * ·) (pay13_1 x0 x1 r c) (pay10 x2 c j)

/-- The accumulator's update: what was accumulated plus this head pair's contribution, the pair's 128 lanes
    against the 128 rows of the weight block. -/
theorem pay4 (x0 : Vec Ideal S1x512x128 .bf16) (x1 x2 : Vec Ideal S1x2048x128 .bf16) (x3 : Vec Ideal S128x1024 .bf16)
    (xs : Vec Ideal S512x1024 .f32) (r : Fin 512) (e : Fin 1024) :
    k1_pay4 (F := Ideal) (k1_pay10 (F := Ideal) x2) (k1_pay12 (F := Ideal) x0 x1 x2) (k1_pay13 (F := Ideal) x0 x1) x3 xs (ix2 r e)
      = xs (ix2 r e) + contrib (opair (bo (qlo x0) (klo x1) (vlo x2)) (bo (qhi x0) (khi x1) (vhi x2))) (w3 x3) r e := by
  unfold k1_pay4 contrib
  refine (congrFun (shapeCast_self _ _) (ix2 r e)).trans ?_
  refine (addf_apply _ _ (ix2 r e)).trans ?_
  refine congrArg (xs (ix2 r e) + ·) ?_
  refine (dotOut_apply _ _ r e).trans ?_
  refine Finset.sum_congr rfl fun l _ => congrArg₂ (· * ·) ?_ ?_
  · refine (concat_apply _ _ r l).trans ?_
    exact congrArg₂ (fun a b : Fin 512 → Fin 64 → EReal => opair a b r l)
      (funext fun r' => funext fun j => pay12 x0 x1 x2 r' j)
      (funext fun r' => funext fun j => out_hi x0 x1 x2 r' j)
  · exact congrFun (shapeCast_self x3 Facts₀.shapeCasts_S128x1024_S128x1024) (ix2 l e)

end Cert.KernelIdeal.PayIdx

end
-- ==== Proof.Value.R1Val.lean ====
/-
  The attention region's two output arrays as functions of the projections it reads. The accumulator after head
  pair p of a row block is zero plus the contributions of pairs 0..p, by induction along the grid (a point that is not
  the first of its row block continues from the point before it, which has the same batch and row block); at the
  last pair the result block is that sum plus the bias, which is the whole 1024-column contraction regrouped pair by
  pair. The attention block holds the two heads' normalised weights.
-/
import proofs.«178877_j27444841021700_2_alg».proof.Proof.Value.R1Pts
import proofs.«178877_j27444841021700_2_alg».proof.Proof.Value.R1Blocks
import proofs.«178877_j27444841021700_2_alg».proof.Proof.Value.R1Emb
import proofs.«178877_j27444841021700_2_alg».proof.Proof.Value.AttBlk
import proofs.«178877_j27444841021700_2_alg».proof.Proof.Value.BlockToSpec
import proofs.«178877_j27444841021700_2_alg».proof.Proof.Value.Pay3
import proofs.«178877_j27444841021700_2_alg».proof.Proof.Value.AccLaw

set_option maxRecDepth 16384

noncomputable section

namespace Cert.KernelIdeal.Gen

open Idealize.ShloMosaic Idealize.ShloMosaic.TcCoe ValueIdx Idealize.SL.Sem Cert.AttnBlock
open Idealize.ShloMosaic.Pipeline (Dat)

/-- One head pair's contribution to row (b, s), column e of the projected output. -/
def cOf (x : AttnSpec.ArrX) (Wa : AttnSpec.ArrWa) (Wp : AttnSpec.ArrWp) (b : Fin 2) (s : Fin 2048) (e : Fin 1024) : Fin 8 → EReal :=
  fun p => ∑ l : Fin 128, AttnSpec.o x Wa b s (dOf p l) * Wp (ix2 e (dOf p l))

theorem accUpTo_congr (cc : Fin 8 → EReal) {p q : ℕ} (h : p = q) (hp : p < 8) (hq' : q < 8) : accUpTo cc p hp = accUpTo cc q hq' := by
  subst h; rfl

section
variable (V : (c : Dev nD) → (b : Ref sig .tc) → Buf (Elt Ideal) ((c : Thread nD τ).loc b)) (c : Dev nD)
variable (x : AttnSpec.ArrX) (Wa : AttnSpec.ArrWa) (Wp : AttnSpec.ArrWp) (bias : AttnSpec.ArrB)

set_option maxHeartbeats 2000000 in
theorem acc_step (hq : ∀ (b : Fin 2) (s : Fin 2048) (d : Fin 1024) (n : Fin 3072), n.val = d.val → (V c main_v6 : S2x2048x1024.Idx → EReal) (ix3 b s d) = AttnSpec.qkv x Wa b s n)
    (hk : ∀ (b : Fin 2) (s : Fin 2048) (d : Fin 1024) (n : Fin 3072), n.val = 1024 + d.val → (V c main_v7 : S2x2048x1024.Idx → EReal) (ix3 b s d) = AttnSpec.qkv x Wa b s n)
    (hv : ∀ (b : Fin 2) (s : Fin 2048) (d : Fin 1024) (n : Fin 3072), n.val = 2048 + d.val → (V c main_v8 : S2x2048x1024.Idx → EReal) (ix3 b s d) = AttnSpec.qkv x Wa b s n)
    (hw : ∀ d e : Fin 1024, (V c main_v10 : S1024x1024.Idx → EReal) (ix2 d e) = Wp (ix2 e d))
    (t : Fin cfg1.N) (r : Fin 512) (e : Fin 1024) :
    (outsAt1 V c t.val t.isLt).2.2 (ix2 r e) = (prevAcc V c t) (ix2 r e) + cOf x Wa Wp (bOf t) (sOf t r) e (pOf t) := by
  refine (congrFun (acc_at V c t) (ix2 r e)).trans ?_
  refine (PayIdx.pay4 (iblk1 V c 0 t) (iblk1 V c 1 t) (iblk1 V c 2 t) (iblk1 V c 3 t) (prevAcc V c t) r e).trans ?_
  exact congrArg (fun z : EReal => (prevAcc V c t) (ix2 r e) + z)
    (contrib_eq x Wa (bOf t) (sOf t r) r (pOf t) (PayIdx.qlo (iblk1 V c 0 t)) (PayIdx.qhi (iblk1 V c 0 t)) (PayIdx.klo (iblk1 V c 1 t)) (PayIdx.vlo (iblk1 V c 2 t)) (PayIdx.khi (iblk1 V c 1 t)) (PayIdx.vhi (iblk1 V c 2 t)) (PayIdx.w3 (iblk1 V c 3 t)) Wp e
      (qlo_at V x Wa c t hq r) (klo_at V x Wa c t hk) (vlo_at V x Wa c t hv) (qhi_at V x Wa c t hq r) (khi_at V x Wa c t hk) (vhi_at V x Wa c t hv) (w3_at V c t Wp hw e))

set_option maxHeartbeats 2000000 in
theorem acc_spec (hq : ∀ (b : Fin 2) (s : Fin 2048) (d : Fin 1024) (n : Fin 3072), n.val = d.val → (V c main_v6 : S2x2048x1024.Idx → EReal) (ix3 b s d) = AttnSpec.qkv x Wa b s n)
    (hk : ∀ (b : Fin 2) (s : Fin 2048) (d : Fin 1024) (n : Fin 3072), n.val = 1024 + d.val → (V c main_v7 : S2x2048x1024.Idx → EReal) (ix3 b s d) = AttnSpec.qkv x Wa b s n)
    (hv : ∀ (b : Fin 2) (s : Fin 2048) (d : Fin 1024) (n : Fin 3072), n.val = 2048 + d.val → (V c main_v8 : S2x2048x1024.Idx → EReal) (ix3 b s d) = AttnSpec.qkv x Wa b s n)
    (hw : ∀ d e : Fin 1024, (V c main_v10 : S1024x1024.Idx → EReal) (ix2 d e) = Wp (ix2 e d)) :
    ∀ (n : ℕ) (t : Fin cfg1.N), t.val = n → ∀ (r : Fin 512) (e : Fin 1024),
      (outsAt1 V c t.val t.isLt).2.2 (ix2 r e) = accUpTo (cOf x Wa Wp (bOf t) (sOf t r) e) (t.val % 8) (Nat.mod_lt _ (by decide)) := by
  intro n
  induction n using Nat.strong_induction_on with
  | _ n ih =>
    intro t ht r e
    refine (acc_step V c x Wa Wp hq hk hv hw t r e).trans ?_
    by_cases h0 : t.val % 8 = 0
    · have hp : pOf t = ⟨0, by decide⟩ := Fin.ext (by rw [pOf_val]; exact h0)
      have e1 : (prevAcc V c t) (ix2 r e) = (0 : EReal) := by
        unfold prevAcc; rw [if_pos h0]; exact PayIdx.pay6 r e
      rw [e1, hp, accUpTo_congr _ h0 _ (by decide)]
      rfl
    · have hN : t.val < 64 := lt_of_lt_of_eq t.isLt (show cfg1.N = 64 from N_1)
      have hpos : 0 < t.val := by omega
      have iht := ih (t.val - 1) (by omega) ⟨t.val - 1, Nat.lt_of_le_of_lt (Nat.sub_le _ _) t.isLt⟩ rfl r e
      have hb' : bOf ⟨t.val - 1, Nat.lt_of_le_of_lt (Nat.sub_le _ _) t.isLt⟩ = bOf t := Fin.ext (by show (t.val - 1) / 32 = t.val / 32; omega)
      have hs' : sOf ⟨t.val - 1, Nat.lt_of_le_of_lt (Nat.sub_le _ _) t.isLt⟩ r = sOf t r := Fin.ext (by show 512 * ((t.val - 1) / 8 % 4) + r.val = 512 * (t.val / 8 % 4) + r.val; omega)
      rw [hb', hs'] at iht
      have e1 : (prevAcc V c t) (ix2 r e) = accUpTo (cOf x Wa Wp (bOf t) (sOf t r) e) ((t.val - 1) % 8) (Nat.mod_lt _ (by decide)) := by
        unfold prevAcc; rw [if_neg h0]; exact iht
      have hp : pOf t = ⟨(t.val - 1) % 8 + 1, by omega⟩ := Fin.ext (by rw [pOf_val]; show t.val % 8 = (t.val - 1) % 8 + 1; omega)
      rw [e1, hp, accUpTo_congr _ (show t.val % 8 = (t.val - 1) % 8 + 1 by omega) _ (by omega)]
      rfl

set_option maxHeartbeats 2000000 in
/-- What a point that writes the result block back wrote: block `t` of the specification's output. -/
theorem flushed5_eq (hq : ∀ (b : Fin 2) (s : Fin 2048) (d : Fin 1024) (n : Fin 3072), n.val = d.val → (V c main_v6 : S2x2048x1024.Idx → EReal) (ix3 b s d) = AttnSpec.qkv x Wa b s n)
    (hk : ∀ (b : Fin 2) (s : Fin 2048) (d : Fin 1024) (n : Fin 3072), n.val = 1024 + d.val → (V c main_v7 : S2x2048x1024.Idx → EReal) (ix3 b s d) = AttnSpec.qkv x Wa b s n)
    (hv : ∀ (b : Fin 2) (s : Fin 2048) (d : Fin 1024) (n : Fin 3072), n.val = 2048 + d.val → (V c main_v8 : S2x2048x1024.Idx → EReal) (ix3 b s d) = AttnSpec.qkv x Wa b s n)
    (hw : ∀ d e : Fin 1024, (V c main_v10 : S1024x1024.Idx → EReal) (ix2 d e) = Wp (ix2 e d))
    (hb : ∀ e : Fin 1024, (V c main_v11 : S1x1024.Idx → EReal) (ix2 (0 : Fin 1) e) = bias (ix1 e))
    (t : Fin cfg1.N) (hf : (cfg1.win 5).flush t = true) :
    (dat1 V c).flushed 5 t = ((cfg1.win 5).blk t).view.read (Elt Ideal) (AttnSpec.Gy x Wa Wp bias) := by
  have h1 : t.val % 8 = 7 := (flush1_5 t).mp hf
  show (cfg1.win 5).cut (grid1.coords t) ((dat1 V c).after 5 t) = _
  rw [after1_5, y_at V c t h1]
  funext j
  obtain ⟨r, e, rfl⟩ := idx5_cases j
  show k1_pay5 (F := Ideal) ((outsAt1 V c t.val t.isLt).2.2) (iblk1 V c 4 t) (ix3 0 r e) = AttnSpec.Gy x Wa Wp bias (((cfg1.win 5).blk t).view.emb (ix3 0 r e))
  rw [emb5_at t r e, AttnSpec.Gy_apply]
  refine (PayIdx.pay5 _ _ r e).trans ?_
  rw [acc_spec V c x Wa Wp hq hk hv hw t.val t rfl r e, bias_at V c t bias hb e, y_eq_acc x Wa Wp bias (bOf t) (sOf t r) e,
    accUpTo_congr _ h1 _ (by decide)]
  rfl

theorem final5 (hq : ∀ (b : Fin 2) (s : Fin 2048) (d : Fin 1024) (n : Fin 3072), n.val = d.val → (V c main_v6 : S2x2048x1024.Idx → EReal) (ix3 b s d) = AttnSpec.qkv x Wa b s n)
    (hk : ∀ (b : Fin 2) (s : Fin 2048) (d : Fin 1024) (n : Fin 3072), n.val = 1024 + d.val → (V c main_v7 : S2x2048x1024.Idx → EReal) (ix3 b s d) = AttnSpec.qkv x Wa b s n)
    (hv : ∀ (b : Fin 2) (s : Fin 2048) (d : Fin 1024) (n : Fin 3072), n.val = 2048 + d.val → (V c main_v8 : S2x2048x1024.Idx → EReal) (ix3 b s d) = AttnSpec.qkv x Wa b s n)
    (hw : ∀ d e : Fin 1024, (V c main_v10 : S1024x1024.Idx → EReal) (ix2 d e) = Wp (ix2 e d))
    (hb : ∀ e : Fin 1024, (V c main_v11 : S1x1024.Idx → EReal) (ix2 (0 : Fin 1) e) = bias (ix1 e)) :
    (dat1 V c).arrAt 5 cfg1.N = AttnSpec.Gy x Wa Wp bias :=
  (dat1 V c).arrAt_eq_of_cover 5 (AttnSpec.Gy x Wa Wp bias) (fun t hf => flushed5_eq V c x Wa Wp bias hq hk hv hw hb t hf) cover5

set_option maxHeartbeats 2000000 in
/-- What every point wrote back into the attention array: block `t` of the specification's attention weights. -/
theorem flushed6_eq (hq : ∀ (b : Fin 2) (s : Fin 2048) (d : Fin 1024) (n : Fin 3072), n.val = d.val → (V c main_v6 : S2x2048x1024.Idx → EReal) (ix3 b s d) = AttnSpec.qkv x Wa b s n)
    (hk : ∀ (b : Fin 2) (s : Fin 2048) (d : Fin 1024) (n : Fin 3072), n.val = 1024 + d.val → (V c main_v7 : S2x2048x1024.Idx → EReal) (ix3 b s d) = AttnSpec.qkv x Wa b s n)
    (t : Fin cfg1.N) :
    (dat1 V c).flushed 6 t = ((cfg1.win 6).blk t).view.read (Elt Ideal) (AttnSpec.Gatt x Wa) := by
  show (cfg1.win 6).cut (grid1.coords t) ((dat1 V c).after 6 t) = _
  rw [after1_6, att_at V c t]
  funext j
  obtain ⟨hh, r, k, rfl⟩ := idx6_cases j
  show _ = AttnSpec.Gatt x Wa (((cfg1.win 6).blk t).view.emb (ix4 0 hh r k))
  rw [emb6_at t hh r k, AttnSpec.Gatt_apply]
  match hh with
  | ⟨0, _⟩ =>
    refine (PayIdx.attblk_lo (iblk1 V c 0 t) (iblk1 V c 1 t) r k).trans ?_
    rw [show hOf t ⟨0, by decide⟩ = head0 (pOf t) from hOf_zero t]
    exact batt_eq_att x Wa (bOf t) (sOf t r) r (PayIdx.qlo (iblk1 V c 0 t)) (PayIdx.klo (iblk1 V c 1 t)) (head0 (pOf t)) (qlo_at V x Wa c t hq r) (klo_at V x Wa c t hk) k
  | ⟨1, _⟩ =>
    refine (PayIdx.attblk_hi (iblk1 V c 0 t) (iblk1 V c 1 t) r k).trans ?_
    rw [show hOf t ⟨1, by decide⟩ = head1 (pOf t) from hOf_one t]
    exact batt_eq_att x Wa (bOf t) (sOf t r) r (PayIdx.qhi (iblk1 V c 0 t)) (PayIdx.khi (iblk1 V c 1 t)) (head1 (pOf t)) (qhi_at V x Wa c t hq r) (khi_at V x Wa c t hk) k

theorem final6 (hq : ∀ (b : Fin 2) (s : Fin 2048) (d : Fin 1024) (n : Fin 3072), n.val = d.val → (V c main_v6 : S2x2048x1024.Idx → EReal) (ix3 b s d) = AttnSpec.qkv x Wa b s n)
    (hk : ∀ (b : Fin 2) (s : Fin 2048) (d : Fin 1024) (n : Fin 3072), n.val = 1024 + d.val → (V c main_v7 : S2x2048x1024.Idx → EReal) (ix3 b s d) = AttnSpec.qkv x Wa b s n) :
    (dat1 V c).arrAt 6 cfg1.N = AttnSpec.Gatt x Wa :=
  (dat1 V c).arrAt_eq_of_cover 6 (AttnSpec.Gatt x Wa) (fun t _ => flushed6_eq V c x Wa hq hk t) cover6

end

end Cert.KernelIdeal.Gen

end
-- ==== Proof.Value.KernelVals.lean ====
/-
  The kernel program's two result arrays as functions of its four argument arrays, at the ideal instance: the
  projection region leaves the product of the activations with the transposed weights (the conversions are the
  identity on extended reals, the reshapes re-index), the slices hand its three column bands to the attention region
  as queries, keys and values, and that region's outputs are the specification's.
-/
import proofs.«178877_j27444841021700_2_alg».proof.Proof.KernelIdeal.Run
import proofs.«178877_j27444841021700_2_alg».proof.Proof.Value.R0Val
import proofs.«178877_j27444841021700_2_alg».proof.Proof.Value.HostOps
import proofs.«178877_j27444841021700_2_alg».proof.Proof.Value.R1Val

set_option maxRecDepth 16384

noncomputable section

namespace Cert.KernelIdeal.Gen

open Idealize.ShloMosaic Idealize.ShloMosaic.TcCoe ValueIdx Idealize.SL.Sem Cert.AttnBlock
open Idealize.ShloMosaic.Pipeline (Dat)

variable (m : (ℓ : Loc nD τ sig) → Buf (Elt Ideal) ℓ) (ρ : Dev nD → PrngReg) (c : Dev nD)

/-- The four argument arrays as the specification takes them. -/
abbrev aX : AttnSpec.ArrX := m ((c : Thread nD τ).loc main_arg0)
abbrev aWa : AttnSpec.ArrWa := m ((c : Thread nD τ).loc main_arg1)
abbrev aWp : AttnSpec.ArrWp := m ((c : Thread nD τ).loc main_arg2)
abbrev aB : AttnSpec.ArrB := m ((c : Thread nD τ).loc main_arg3)

/-- An argument is still at its launch contents when the attention region's host stretch reads it. -/
theorem W2_main_arg2 : W2 m ρ c (Proc.devRef .tc main_arg2) = m ((c : Thread nD τ).loc main_arg2) :=
  (W2_of_ne m ρ c main_arg2 (by decide)).trans
    ((StableHlo.after_of_writes_sub hostOps0 _ hostOps0_writes (by decide : main_arg2 ∉ hostOps0_W)).trans rfl)
theorem W2_main_arg3 : W2 m ρ c (Proc.devRef .tc main_arg3) = m ((c : Thread nD τ).loc main_arg3) :=
  (W2_of_ne m ρ c main_arg3 (by decide)).trans
    ((StableHlo.after_of_writes_sub hostOps0 _ hostOps0_writes (by decide : main_arg3 ∉ hostOps0_W)).trans rfl)

/-- The projection's output array, row R = 2048 b + s, column n, is the specification's projection. -/
theorem v4_at (b : Fin 2) (s : Fin 2048) (n : Fin 3072) (R : Fin 4096) (hR : R.val = 2048 * b.val + s.val) :
    (W2 m ρ c (Proc.devRef .tc main_v4) : S4096x3072.Idx → EReal) (ix2 R n) = AttnSpec.qkv (aX m c) (aWa m c) b s n := by
  have h1 : W2 m ρ c (Proc.devRef .tc main_v4) = (dat0 (E1 m ρ) c).arrAt 2 cfg0.N := W2_arr m ρ c 2
  have h2 := final0 (E1 m ρ) c
  refine (congrFun (h1.trans h2) (ix2 R n)).trans ?_
  show Q0 (E1 m ρ c main_v1) (E1 m ρ c main_v3) (ix2 R n) = AttnSpec.qkv (aX m c) (aWa m c) b s n
  unfold Q0 AttnSpec.qkv
  refine Finset.sum_congr rfl fun k _ => ?_
  exact congrArg₂ (fun u v : EReal => u * v) (HostIdx.v1_at (W0 m ρ c) R k b s hR) (HostIdx.v3_at (W0 m ρ c) k n)

theorem e3_q (b : Fin 2) (s : Fin 2048) (d : Fin 1024) (n : Fin 3072) (hn : n.val = d.val) :
    (E3 m ρ c main_v6 : S2x2048x1024.Idx → EReal) (ix3 b s d) = AttnSpec.qkv (aX m c) (aWa m c) b s n :=
  (HostIdx.v6_at (W2 m ρ c) b s d ⟨2048 * b.val + s.val, by have := b.isLt; have := s.isLt; omega⟩ rfl n hn).trans
    (v4_at m ρ c b s n _ rfl)
theorem e3_k (b : Fin 2) (s : Fin 2048) (d : Fin 1024) (n : Fin 3072) (hn : n.val = 1024 + d.val) :
    (E3 m ρ c main_v7 : S2x2048x1024.Idx → EReal) (ix3 b s d) = AttnSpec.qkv (aX m c) (aWa m c) b s n :=
  (HostIdx.v7_at (W2 m ρ c) b s d ⟨2048 * b.val + s.val, by have := b.isLt; have := s.isLt; omega⟩ rfl n hn).trans
    (v4_at m ρ c b s n _ rfl)
theorem e3_v (b : Fin 2) (s : Fin 2048) (d : Fin 1024) (n : Fin 3072) (hn : n.val = 2048 + d.val) :
    (E3 m ρ c main_v8 : S2x2048x1024.Idx → EReal) (ix3 b s d) = AttnSpec.qkv (aX m c) (aWa m c) b s n :=
  (HostIdx.v8_at (W2 m ρ c) b s d ⟨2048 * b.val + s.val, by have := b.isLt; have := s.isLt; omega⟩ rfl n hn).trans
    (v4_at m ρ c b s n _ rfl)
theorem e3_w (d e : Fin 1024) : (E3 m ρ c main_v10 : S1024x1024.Idx → EReal) (ix2 d e) = (aWp m c) (ix2 e d) :=
  (HostIdx.v10_at (W2 m ρ c) d e).trans (congrFun (W2_main_arg2 m ρ c) (ix2 e d))
theorem e3_b (e : Fin 1024) : (E3 m ρ c main_v11 : S1x1024.Idx → EReal) (ix2 (0 : Fin 1) e) = (aB m c) (ix1 e) :=
  (HostIdx.v11_at (W2 m ρ c) e).trans (congrFun (W2_main_arg3 m ρ c) (ix1 e))

/-- THE KERNEL'S RESULTS. -/
theorem val_y : W4 m ρ c (Proc.devRef .tc main_v12_0) = AttnSpec.Gy (aX m c) (aWa m c) (aWp m c) (aB m c) :=
  (W4_arr m ρ c 5).trans (final5 (E3 m ρ) c (aX m c) (aWa m c) (aWp m c) (aB m c)
    (e3_q m ρ c) (e3_k m ρ c) (e3_v m ρ c) (e3_w m ρ c) (e3_b m ρ c))
theorem val_att : W4 m ρ c (Proc.devRef .tc main_v12_1) = AttnSpec.Gatt (aX m c) (aWa m c) :=
  (W4_arr m ρ c 6).trans (final6 (E3 m ρ) c (aX m c) (aWa m c) (e3_q m ρ c) (e3_k m ρ c))

/-- The run re-posted: each result array at the specification's function of the arguments, the arguments unchanged. -/
theorem run_vals : θ_run defs (onTc (τ := τ) (main (F := Ideal))) ⟨m, fun _ => 0, ρ⟩ (fun r => ∀ c : Dev nD,
      r.2.mem ((c.tc : Thread nD τ).loc main_v12_0) = AttnSpec.Gy (aX m c) (aWa m c) (aWp m c) (aB m c)
      ∧ r.2.mem ((c.tc : Thread nD τ).loc main_v12_1) = AttnSpec.Gatt (aX m c) (aWa m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_v12_0 (by decide))).trans (val_y m ρ c),
     (h c _ (mem_uc main_v12_1 (by decide))).trans (val_att m ρ c),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c)⟩) (run_all m ρ)

end Cert.KernelIdeal.Gen

end
-- ==== Proof.RefIsSpec.lean ====
/-
  The plain, untiled program computes the attention layer of Spec.lean.

  Its operations are read one at a time at an index: each contraction is a sum over one axis, a slice, a
  reshape and a transpose only move an index, a broadcast forgets coordinates. Composing these readings along
  the program gives, at explicit coordinates,
    * the three slices of the fused projection, reshaped to heads and transposed, are its columns
      `64·h + j`, `1024 + 64·h + j` and `2048 + 64·h + j` (a row-major position `((b·2048 + s)·16 + h)·64 + j`
      splits back into `b`, `s` and `64·h + j`);
    * the quotient `1 / √64` of the two scalar constants is the scale one eighth;
    * the row maximum, a fold of `max` from `-∞` over the key axis, is unchanged by one more `max` with `-∞`;
    * the row sum starts from the constant zero, which adds nothing;
    * merging the heads back, position `(b·2048 + s)·1024 + d` splits into head `d / 64` and component `d % 64`,
      and `64·(d / 64) + d % 64 = d`.
  So the two results are the specification's `Gy` and `Gatt` of the four arguments.
-/
import proofs.«178877_j27444841021700_2_alg».proof.Proof.Gen.ReferenceIdeal.Read
import proofs.«178877_j27444841021700_2_alg».proof.Proof.Spec

noncomputable section

open scoped BigOperators

namespace Cert.ReferenceIdeal.RefValue

open Cert.ReferenceIdeal Cert.ReferenceIdeal.Gen Cert.ReferenceIdeal.Read Idealize.ShloMosaic Idealize.ShloMosaic.ValueIdx

variable (x0 : (⟨S2x2048x1024, .f32⟩ : BufTy).Contents (Elt Ideal)) (x1 : (⟨S3072x1024, .f32⟩ : BufTy).Contents (Elt Ideal))

/-! ## The fused projection and its three slices -/

/-- The first contraction is the fused projection. -/
theorem v0_eq (b : Fin 2) (s : Fin 2048) (n : Fin 3072) :
    val_main_v0 (F := Ideal) x0 x1 (ix3 b s n) = AttnSpec.qkv x0 x1 b s n := by
  rw [val_main_v0_apply]
  unfold AttnSpec.qkv
  refine Finset.sum_congr rfl fun k _ => ?_
  have el : lidx_main_v0 (ix3 b s n) k = ix3 b s k := funext fun a => Fin.ext (by
    match a with | ⟨0, _⟩ => rfl | ⟨1, _⟩ => rfl | ⟨2, _⟩ => rfl)
  have er : ridx_main_v0 (ix3 b s n) k = ix2 n k := funext fun a => Fin.ext (by
    match a with | ⟨0, _⟩ => rfl | ⟨1, _⟩ => rfl)
  rw [el, er]

/-- Head `h`'s queries: the first slice, split into heads, heads moved outward. -/
theorem v5_eq (b : Fin 2) (h : Fin 16) (q : Fin 2048) (j : Fin 64) :
    val_main_v5 (F := Ideal) x0 x1 (ix4 b h q j) = AttnSpec.qkv x0 x1 b q (AttnSpec.qcol h j) := by
  have hb := b.isLt; have hh := h.isLt; have hq := q.isLt; have hj := j.isLt
  rw [val_main_v5_apply, val_main_v4_apply, val_main_v1_apply]
  have e : idx_main_v1 (idx_main_v4 (idx_main_v5 (ix4 b h q j))) = ix3 b q (AttnSpec.qcol h j) :=
    funext fun a => Fin.ext (by
      match a with
      | ⟨0, _⟩ => show (((b.val * 2048 + q.val) * 16 + h.val) * 64 + j.val) / 2097152 = b.val; omega
      | ⟨1, _⟩ => show (((b.val * 2048 + q.val) * 16 + h.val) * 64 + j.val) / 1024 % 2048 = q.val; omega
      | ⟨2, _⟩ => show (((b.val * 2048 + q.val) * 16 + h.val) * 64 + j.val) % 1024 = h.val * 64 + j.val; omega)
  rw [e, v0_eq]

/-- Head `h`'s keys: the second slice. -/
theorem v7_eq (b : Fin 2) (h : Fin 16) (k : Fin 2048) (j : Fin 64) :
    val_main_v7 (F := Ideal) x0 x1 (ix4 b h k j) = AttnSpec.qkv x0 x1 b k (AttnSpec.kcol h j) := by
  have hb := b.isLt; have hh := h.isLt; have hk := k.isLt; have hj := j.isLt
  rw [val_main_v7_apply, val_main_v6_apply, val_main_v2_apply]
  have e : idx_main_v2 (idx_main_v6 (idx_main_v7 (ix4 b h k j))) = ix3 b k (AttnSpec.kcol h j) :=
    funext fun a => Fin.ext (by
      match a with
      | ⟨0, _⟩ => show (((b.val * 2048 + k.val) * 16 + h.val) * 64 + j.val) / 2097152 = b.val; omega
      | ⟨1, _⟩ => show (((b.val * 2048 + k.val) * 16 + h.val) * 64 + j.val) / 1024 % 2048 = k.val; omega
      | ⟨2, _⟩ => show 1024 + (((b.val * 2048 + k.val) * 16 + h.val) * 64 + j.val) % 1024 = 1024 + (h.val * 64 + j.val); omega)
  rw [e, v0_eq]

/-- Head `h`'s values: the third slice, at any name `n` of the column `2048 + 64·h + j`. -/
theorem v9_eq (b : Fin 2) (h : Fin 16) (k : Fin 2048) (j : Fin 64) (n : Fin 3072)
    (hn : n.val = 2048 + (h.val * 64 + j.val)) :
    val_main_v9 (F := Ideal) x0 x1 (ix4 b h k j) = AttnSpec.qkv x0 x1 b k n := by
  have hb := b.isLt; have hh := h.isLt; have hk := k.isLt; have hj := j.isLt
  rw [val_main_v9_apply, val_main_v8_apply, val_main_v3_apply]
  have e : idx_main_v3 (idx_main_v8 (idx_main_v9 (ix4 b h k j))) = ix3 b k n :=
    funext fun a => Fin.ext (by
      match a with
      | ⟨0, _⟩ => show (((b.val * 2048 + k.val) * 16 + h.val) * 64 + j.val) / 2097152 = b.val; omega
      | ⟨1, _⟩ => show (((b.val * 2048 + k.val) * 16 + h.val) * 64 + j.val) / 1024 % 2048 = k.val; omega
      | ⟨2, _⟩ => show 2048 + (((b.val * 2048 + k.val) * 16 + h.val) * 64 + j.val) % 1024 = n.val; omega)
  rw [e, v0_eq]

/-! ## The scores -/

/-- The second contraction: a query row against a key row. -/
theorem v10_eq (b : Fin 2) (h : Fin 16) (q k : Fin 2048) :
    val_main_v10 (F := Ideal) x0 x1 (ix4 b h q k)
      = ∑ j : Fin 64, AttnSpec.qkv x0 x1 b q (AttnSpec.qcol h j) * AttnSpec.qkv x0 x1 b k (AttnSpec.kcol h j) := by
  rw [val_main_v10_apply]
  refine Finset.sum_congr rfl fun j _ => ?_
  have el : lidx_main_v10 (ix4 b h q k) j = ix4 b h q j := funext fun a => Fin.ext (by
    match a with | ⟨0, _⟩ => rfl | ⟨1, _⟩ => rfl | ⟨2, _⟩ => rfl | ⟨3, _⟩ => rfl)
  have er : ridx_main_v10 (ix4 b h q k) j = ix4 b h k j := funext fun a => Fin.ext (by
    match a with | ⟨0, _⟩ => rfl | ⟨1, _⟩ => rfl | ⟨2, _⟩ => rfl | ⟨3, _⟩ => rfl)
  rw [el, er, v5_eq, v7_eq]

/-- One divided by the square root of sixty-four is the scale. -/
theorem v12_eq (i : S_.Idx) : val_main_v12 (F := Ideal) i = AttnSpec.scale := by
  rw [val_main_v12_apply, val_main_cst_0_apply, val_main_v11_apply, val_main_cst_apply]
  exact AttnSpec.one_div_sqrt_64

/-- The scaled scores. -/
theorem v14_eq (b : Fin 2) (h : Fin 16) (q k : Fin 2048) :
    val_main_v14 (F := Ideal) x0 x1 (ix4 b h q k) = AttnSpec.score x0 x1 b h q k := by
  rw [val_main_v14_apply, val_main_v13_apply, v12_eq, v10_eq]
  rfl

/-! ## The row maximum -/

/-- The reduction by `max` over the key axis, read at a row: the fold of `max` from `⊥` over that axis. -/
theorem val_main_v15_apply (i : S2x16x2048.Idx) :
    val_main_v15 (F := Ideal) x0 x1 i
      = (Finset.univ : Finset (Fin 2048)).fold max ⊥ (fun k => val_main_v14 (F := Ideal) x0 x1 (idx_main_v22 i k)) := by
  unfold val_main_v15
  generalize val_main_v14 (F := Ideal) x0 x1 = y0
  have hR : Shape.Reduces S2x16x2048x2048 [3] S2x16x2048 := by decide
  refine (Host.reduce_eq_fold_single _ _ _ _ hR _ _).trans ?_
  have e : (fun k : Fin 2048 => y0 (hR.lift i k)) = fun k => y0 (idx_main_v22 i k) :=
    funext fun k => congrArg y0 (funext fun a => Fin.ext (by
      match a with | ⟨0, _⟩ => rfl | ⟨1, _⟩ => rfl | ⟨2, _⟩ => rfl | ⟨3, _⟩ => rfl))
  have c : val_main_cst_1 (F := Ideal) (Shape.Idx.first h_S_) = ⊥ := AttnSpec.ofBits_negInf
  exact congrArg₂ (fun (b : EReal) (f : Fin 2048 → EReal) => (Finset.univ : Finset (Fin 2048)).fold max b f) c e

/-- One more `max` with `-∞` changes nothing: the row maximum. -/
theorem v17_eq (b : Fin 2) (h : Fin 16) (q : Fin 2048) :
    val_main_v17 (F := Ideal) x0 x1 (ix3 b h q) = AttnSpec.rowMax x0 x1 b h q := by
  rw [val_main_v17_apply, val_main_v16_apply, val_main_cst_2_apply, val_main_v15_apply]
  show max (Ideal.ofBits .f32 0xFF800000#32) _ = _
  rw [AttnSpec.ofBits_negInf, max_eq_right bot_le]
  unfold AttnSpec.rowMax
  refine congrArg (fun f => (Finset.univ : Finset (Fin 2048)).fold max ⊥ f) (funext fun k => ?_)
  have e : idx_main_v22 (ix3 b h q) k = ix4 b h q k := funext fun a => Fin.ext (by
    match a with | ⟨0, _⟩ => rfl | ⟨1, _⟩ => rfl | ⟨2, _⟩ => rfl | ⟨3, _⟩ => rfl)
  rw [e, v14_eq]

/-! ## The softmax -/

/-- The shifted exponentials. -/
theorem v21_eq (b : Fin 2) (h : Fin 16) (q k : Fin 2048) :
    val_main_v21 (F := Ideal) x0 x1 (ix4 b h q k) = AttnSpec.p x0 x1 b h q k := by
  rw [val_main_v21_apply, val_main_v20_apply, val_main_v19_apply, val_main_v18_apply, v14_eq]
  have e : idx_main_v18 (idx_main_v19 (ix4 b h q k)) = ix3 b h q := funext fun a => Fin.ext (by
    match a with | ⟨0, _⟩ => rfl | ⟨1, _⟩ => rfl | ⟨2, _⟩ => rfl)
  rw [e, v17_eq]
  rfl

/-- The row sums: the constant zero they start from adds nothing. -/
theorem v22_eq (b : Fin 2) (h : Fin 16) (q : Fin 2048) :
    val_main_v22 (F := Ideal) x0 x1 (ix3 b h q) = AttnSpec.den x0 x1 b h q := by
  rw [val_main_v22_apply, val_main_cst_3_apply]
  show Ideal.ofBits .f32 0x00000000#32 + _ = _
  rw [Ideal.ofBits_zero_f32, zero_add]
  unfold AttnSpec.den
  refine Finset.sum_congr rfl fun k _ => ?_
  have e : idx_main_v22 (ix3 b h q) k = ix4 b h q k := funext fun a => Fin.ext (by
    match a with | ⟨0, _⟩ => rfl | ⟨1, _⟩ => rfl | ⟨2, _⟩ => rfl | ⟨3, _⟩ => rfl)
  rw [e, v21_eq]

/-- The attention weights. -/
theorem v25_eq (b : Fin 2) (h : Fin 16) (q k : Fin 2048) :
    val_main_v25 (F := Ideal) x0 x1 (ix4 b h q k) = AttnSpec.att x0 x1 b h q k := by
  rw [val_main_v25_apply, v21_eq, val_main_v24_apply, val_main_v23_apply]
  have e : idx_main_v23 (idx_main_v24 (ix4 b h q k)) = ix3 b h q := funext fun a => Fin.ext (by
    match a with | ⟨0, _⟩ => rfl | ⟨1, _⟩ => rfl | ⟨2, _⟩ => rfl)
  rw [e, v22_eq]
  rfl

/-- THE SECOND RESULT: the program's attention weights are the specification's. -/
theorem ref_att : val_main_v25 (F := Ideal) x0 x1 = AttnSpec.Gatt x0 x1 := by
  funext i
  obtain ⟨b, h, q, k, rfl⟩ : ∃ (b : Fin 2) (h : Fin 16) (q k : Fin 2048), i = ix4 b h q k :=
    ⟨i 0, i 1, i 2, i 3, eq_ix4 i⟩
  exact v25_eq x0 x1 b h q k

/-! ## The attended values and the output projection -/

/-- The third contraction: the weights of a query row against a value column, at any name `n` of the column
    `2048 + 64·h + j`. -/
theorem v26_eq (b : Fin 2) (h : Fin 16) (q : Fin 2048) (j : Fin 64) (n : Fin 3072)
    (hn : n.val = 2048 + (h.val * 64 + j.val)) :
    val_main_v26 (F := Ideal) x0 x1 (ix4 b h q j)
      = ∑ k : Fin 2048, AttnSpec.att x0 x1 b h q k * AttnSpec.qkv x0 x1 b k n := by
  rw [val_main_v26_apply]
  refine Finset.sum_congr rfl fun k _ => ?_
  have el : lidx_main_v26 (ix4 b h q j) k = ix4 b h q k := funext fun a => Fin.ext (by
    match a with | ⟨0, _⟩ => rfl | ⟨1, _⟩ => rfl | ⟨2, _⟩ => rfl | ⟨3, _⟩ => rfl)
  have er : ridx_main_v26 (ix4 b h q j) k = ix4 b h k j := funext fun a => Fin.ext (by
    match a with | ⟨0, _⟩ => rfl | ⟨1, _⟩ => rfl | ⟨2, _⟩ => rfl | ⟨3, _⟩ => rfl)
  rw [el, er, v25_eq, v9_eq x0 x1 b h k j n hn]

/-- The heads merged back along the model width: column `d` is component `d % 64` of head `d / 64`. -/
theorem v28_eq (b : Fin 2) (s : Fin 2048) (d : Fin 1024) :
    val_main_v28 (F := Ideal) x0 x1 (ix3 b s d) = AttnSpec.o x0 x1 b s d := by
  have hb := b.isLt; have hs := s.isLt; have hd := d.isLt
  rw [val_main_v28_apply, val_main_v27_apply]
  have e : idx_main_v27 (idx_main_v28 (ix3 b s d))
      = ix4 b (AttnSpec.headOf d) s (⟨d.val % 64, Nat.mod_lt _ (by decide)⟩ : Fin 64) :=
    funext fun a => Fin.ext (by
      match a with
      | ⟨0, _⟩ => show ((b.val * 2048 + s.val) * 1024 + d.val) / 2097152 = b.val; omega
      | ⟨1, _⟩ => show ((b.val * 2048 + s.val) * 1024 + d.val) / 64 % 16 = d.val / 64; omega
      | ⟨2, _⟩ => show ((b.val * 2048 + s.val) * 1024 + d.val) / 1024 % 2048 = s.val; omega
      | ⟨3, _⟩ => show ((b.val * 2048 + s.val) * 1024 + d.val) % 64 = d.val % 64; omega)
  rw [e, v26_eq x0 x1 b (AttnSpec.headOf d) s _ (AttnSpec.vcol d)
    (by show 2048 + d.val = 2048 + (d.val / 64 * 64 + d.val % 64); omega)]
  rfl

variable (x2 : (⟨S1024x1024, .f32⟩ : BufTy).Contents (Elt Ideal)) (x3 : (⟨S1024, .f32⟩ : BufTy).Contents (Elt Ideal))

/-- The last contraction: the output projection. -/
theorem v29_eq (b : Fin 2) (s : Fin 2048) (e : Fin 1024) :
    val_main_v29 (F := Ideal) x0 x1 x2 (ix3 b s e) = ∑ d : Fin 1024, AttnSpec.o x0 x1 b s d * x2 (ix2 e d) := by
  rw [val_main_v29_apply]
  refine Finset.sum_congr rfl fun d _ => ?_
  have el : lidx_main_v29 (ix3 b s e) d = ix3 b s d := funext fun a => Fin.ext (by
    match a with | ⟨0, _⟩ => rfl | ⟨1, _⟩ => rfl | ⟨2, _⟩ => rfl)
  have er : ridx_main_v29 (ix3 b s e) d = ix2 e d := funext fun a => Fin.ext (by
    match a with | ⟨0, _⟩ => rfl | ⟨1, _⟩ => rfl)
  rw [el, er, v28_eq]

/-- With the bias, broadcast along batch and sequence. -/
theorem v32_eq (b : Fin 2) (s : Fin 2048) (e : Fin 1024) :
    val_main_v32 (F := Ideal) x0 x1 x2 x3 (ix3 b s e) = AttnSpec.y x0 x1 x2 x3 b s e := by
  rw [val_main_v32_apply, v29_eq, val_main_v31_apply, val_main_v30_apply]
  have e1 : idx_main_v30 (idx_main_v31 (ix3 b s e)) = ix1 e := funext fun a => Fin.ext (by
    match a with | ⟨0, _⟩ => rfl)
  rw [e1]
  rfl

/-- THE FIRST RESULT: the program's output is the specification's. -/
theorem ref_y : val_main_v32 (F := Ideal) x0 x1 x2 x3 = AttnSpec.Gy x0 x1 x2 x3 := by
  funext i
  obtain ⟨b, s, e, rfl⟩ : ∃ (b : Fin 2) (s : Fin 2048) (e : Fin 1024), i = ix3 b s e := ⟨i 0, i 1, i 2, eq_ix3 i⟩
  exact v32_eq x0 x1 x2 x3 b s e

end Cert.ReferenceIdeal.RefValue

end
-- ==== Proof.lean ====
/-
  Fused QKV projection, full-row softmax attention (returning the attention weights) and output projection, as two
  tiled kernel regions, against the plain reference — equal at the ideal instance, where floats are extended reals.

  Both programs compute, for batch b, head h, query row q, key row k and model column e:
    qkv(b,s,n) = Σ_k x(b,s,k)·W_attn(n,k);   score = (Σ_j q·k)·(1/8);   att = exp(score − max_k score) / Σ_k exp(score − max_k score);
    o(b,q,d) = Σ_k att(b,d/64,q,k)·v(b,k,d);   y(b,s,e) = Σ_d o(b,s,d)·W_proj(e,d) + b_proj(e).
  The kernel multiplies the scores by the literal 1/8 where the reference divides one by the square root of 64 — the same
  extended real; its format conversions are the identity there; and it forms the 1024-column contraction of the output
  projection as zero plus eight partial sums of 128 columns (one per pair of heads, carried in an accumulator across
  grid points), which is the whole sum regrouped — addition of extended reals is commutative and associative, so the
  precondition (finite inputs) is never opened. The kernel programs' frames (termination, no fault, arguments
  unchanged) hold at any float instance: each region's body is run once per control case, and the accumulator's
  contents are carried from grid point to grid point in the region's invariant.
-/
import proofs.«178877_j27444841021700_2_alg».proof.Defs
import proofs.«178877_j27444841021700_2_alg».proof.Proof.Gen.Kernel
import proofs.«178877_j27444841021700_2_alg».proof.Proof.Gen.KernelIdeal
import proofs.«178877_j27444841021700_2_alg».proof.Proof.Gen.ReferenceIdeal
import proofs.«178877_j27444841021700_2_alg».proof.Proof.Gen.ReferenceIdeal.Run
import proofs.«178877_j27444841021700_2_alg».proof.Proof.Gen.ReferenceIdeal.Read
import proofs.«178877_j27444841021700_2_alg».proof.Proof.Gen.Pre_finite_inputs
import proofs.«178877_j27444841021700_2_alg».proof.Proof.Kernel.Run
import proofs.«178877_j27444841021700_2_alg».proof.Proof.KernelIdeal.Run
import proofs.«178877_j27444841021700_2_alg».proof.Proof.Value.KernelVals
import proofs.«178877_j27444841021700_2_alg».proof.Proof.RefIsSpec
import Idealize.ShloMosaic.Adequacy
import Idealize.ShloMosaic.Init

noncomputable section

namespace Cert.Proof

open Idealize.ShloMosaic Idealize.SL.Sem

/-- The word-level kernel program runs to the end, faults nowhere and leaves its arguments unchanged. -/
theorem frame_k : Cert.frame_Kernel := fun m ρ _ => Cert.Kernel.Gen.frame m ρ
/-- So does its idealization. -/
theorem frame_ki : Cert.frame_KernelIdeal := fun m ρ _ => Cert.KernelIdeal.Gen.frame m ρ
/-- The reference's frame is its run with the results dropped. -/
theorem frame_ri : Cert.frame_ReferenceIdeal := fun m ρ _ =>
  (θ_run Cert.ReferenceIdeal.defs _ _).mono (fun _ h c => (h c).2.2) (Cert.ReferenceIdeal.Value.run (F := Ideal) m ρ)
/-- The ideal pass rewrote nothing: the idealization is the program's own text read at the ideal instance. -/
theorem preserves : Cert.preserves_Kernel_KernelIdeal := trivial

/-- Both programs end with the specification's two arrays of their (agreeing) arguments. -/
theorem algebraic : Cert.algebraic_KernelIdeal_ReferenceIdeal := by
  intro m ρ m' ρ' _ hagree
  refine ⟨fun c => AttnSpec.Gy (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)),
    fun c => AttnSpec.Gatt (m ((c.tc : Thread Cert.KernelIdeal.nD Cert.KernelIdeal.τ).loc Cert.KernelIdeal.main_arg0)) (m ((c.tc : Thread Cert.KernelIdeal.nD Cert.KernelIdeal.τ).loc Cert.KernelIdeal.main_arg1)),
    Cert.KernelIdeal.Gen.run_vals m ρ, ?_⟩
  refine (θ_run Cert.ReferenceIdeal.defs _ _).mono (fun _ h c => ⟨?_, ?_, (h c).2.2⟩)
    (Cert.ReferenceIdeal.Value.run (F := Ideal) m' ρ')
  · rw [(h c).1, Cert.ReferenceIdeal.Read.val_main_v32_eq, Cert.ReferenceIdeal.RefValue.ref_y,
      (hagree c).1, (hagree c).2.1, (hagree c).2.2.1, (hagree c).2.2.2]
  · rw [(h c).2.1, Cert.ReferenceIdeal.Read.val_main_v25_eq, Cert.ReferenceIdeal.RefValue.ref_att,
      (hagree c).1, (hagree c).2.1]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
